-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S2x2048 : Shape := ⟨2, ![2, 2048]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S2x2048x768 .f32) (main_arg1 : IVec S2x2048 32) (main_arg2 : FVec F S2304x768 .f32) (main_arg3 : FVec F S2304 .f32) (main_arg4 : FVec F S768x768 .f32) (main_arg5 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2304x768 .f32 := Host.absf main_arg2
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg3
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg5 main_v13 main_v16
-- ==== Kernel.lean ====
abbrev S2x2048x768 : Shape := ⟨3, ![2, 2048, 768]⟩
abbrev S2x2048 : Shape := ⟨2, ![2, 2048]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S768x2304 : Shape := ⟨2, ![768, 2304]⟩
abbrev S1x2304 : Shape := ⟨2, ![1, 2304]⟩
abbrev S2x12x2048x64 : Shape := ⟨4, ![2, 12, 2048, 64]⟩
abbrev S1x256x768 : Shape := ⟨3, ![1, 256, 768]⟩
abbrev S1x12x256x64 : Shape := ⟨4, ![1, 12, 256, 64]⟩
abbrev S256x768 : Shape := ⟨2, ![256, 768]⟩
abbrev S256x2304 : Shape := ⟨2, ![256, 2304]⟩
abbrev S256x12x64 : Shape := ⟨3, ![256, 12, 64]⟩
abbrev S12x256x64 : Shape := ⟨3, ![12, 256, 64]⟩
abbrev S_ : Shape := ⟨0, ![]⟩
abbrev S2x1x2048 : Shape := ⟨3, ![2, 1, 2048]⟩
abbrev S1x1x2048x64 : Shape := ⟨4, ![1, 1, 2048, 64]⟩
abbrev S1x1x512x64 : Shape := ⟨4, ![1, 1, 512, 64]⟩
abbrev S1x1x512 : Shape := ⟨3, ![1, 1, 512]⟩
abbrev S2048x1 : Shape := ⟨2, ![2048, 1]⟩
abbrev S2048x64 : Shape := ⟨2, ![2048, 64]⟩
abbrev S512x64 : Shape := ⟨2, ![512, 64]⟩
abbrev S64x512 : Shape := ⟨2, ![64, 512]⟩
abbrev S2048x512 : Shape := ⟨2, ![2048, 512]⟩
abbrev S1x512 : Shape := ⟨2, ![1, 512]⟩
abbrev S2048 : Shape := ⟨1, ![2048]⟩
abbrev S1x768 : Shape := ⟨2, ![1, 768]⟩
abbrev S64x768 : Shape := ⟨2, ![64, 768]⟩
abbrev S1x512x768 : Shape := ⟨3, ![1, 512, 768]⟩
abbrev S512x768 : Shape := ⟨2, ![512, 768]⟩

abbrev nBuf : Space → Nat
  | .hbm => 22
  | .vmem => 31
  | .smem => 0
  | _ => 0

abbrev bufTy : (tb : Table) → Fin (tcTables nBuf tb) → BufTy
  | .hbm, ⟨0, _⟩ => ⟨S2x2048x768, .f32⟩
  | .hbm, ⟨1, _⟩ => ⟨S2x2048, .i32⟩
  | .hbm, ⟨2, _⟩ => ⟨S2304x768, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S768x2304, .f32⟩
  | .hbm, ⟨7, _⟩ => ⟨S768x2304, .bf16⟩
  | .hbm, ⟨8, _⟩ => ⟨S1x2304, .f32⟩
  | .hbm, ⟨9, _⟩ => ⟨S2x12x2048x64, .bf16⟩
  | .hbm, ⟨10, _⟩ => ⟨S2x12x2048x64, .bf16⟩
  | .hbm, ⟨11, _⟩ => ⟨S2x12x2048x64, .bf16⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S2x1x2048, .f32⟩
  | .hbm, ⟨17, _⟩ => ⟨S2x12x2048x64, .bf16⟩
  | .hbm, ⟨18, _⟩ => ⟨S768x768, .f32⟩
  | .hbm, ⟨19, _⟩ => ⟨S768x768, .bf16⟩
  | .hbm, ⟨20, _⟩ => ⟨S1x768, .f32⟩
  | .hbm, ⟨21, _⟩ => ⟨S2x2048x768, .f32⟩
  | .local _ .vmem, ⟨0, _⟩ => ⟨S1x256x768, .f32⟩
  | .local _ .vmem, ⟨1, _⟩ => ⟨S1x256x768, .f32⟩
  | .local _ .vmem, ⟨2, _⟩ => ⟨S768x2304, .bf16⟩
  | .local _ .vmem, ⟨3, _⟩ => ⟨S1x2304, .f32⟩
  | .local _ .vmem, ⟨4, _⟩ => ⟨S1x12x256x64, .bf16⟩
  | .local _ .vmem, ⟨5, _⟩ => ⟨S1x12x256x64, .bf16⟩
  | .local _ .vmem, ⟨6, _⟩ => ⟨S1x12x256x64, .bf16⟩
  | .local _ .vmem, ⟨7, _⟩ => ⟨S1x12x256x64, .bf16⟩
  | .local _ .vmem, ⟨8, _⟩ => ⟨S1x12x256x64, .bf16⟩
  | .local _ .vmem, ⟨9, _⟩ => ⟨S1x12x256x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x512x64, .bf16⟩
  | .local _ .vmem, ⟨13, _⟩ => ⟨S1x1x512x64, .bf16⟩
  | .local _ .vmem, ⟨14, _⟩ => ⟨S1x1x512x64, .bf16⟩
  | .local _ .vmem, ⟨15, _⟩ => ⟨S1x1x512x64, .bf16⟩
  | .local _ .vmem, ⟨16, _⟩ => ⟨S1x1x512, .f32⟩
  | .local _ .vmem, ⟨17, _⟩ => ⟨S1x1x512, .f32⟩
  | .local _ .vmem, ⟨18, _⟩ => ⟨S1x1x2048x64, .bf16⟩
  | .local _ .vmem, ⟨19, _⟩ => ⟨S1x1x2048x64, .bf16⟩
  | .local _ .vmem, ⟨20, _⟩ => ⟨S2048x1, .f32⟩
  | .local _ .vmem, ⟨21, _⟩ => ⟨S2048x1, .f32⟩
  | .local _ .vmem, ⟨22, _⟩ => ⟨S2048x64, .f32⟩
  | .local _ .vmem, ⟨23, _⟩ => ⟨S1x1x512x64, .bf16⟩
  | .local _ .vmem, ⟨24, _⟩ => ⟨S1x1x512x64, .bf16⟩
  | .local _ .vmem, ⟨25, _⟩ => ⟨S64x768, .bf16⟩
  | .local _ .vmem, ⟨26, _⟩ => ⟨S64x768, .bf16⟩
  | .local _ .vmem, ⟨27, _⟩ => ⟨S1x768, .f32⟩
  | .local _ .vmem, ⟨28, _⟩ => ⟨S1x512x768, .f32⟩
  | .local _ .vmem, ⟨29, _⟩ => ⟨S1x512x768, .f32⟩
  | .local _ .vmem, ⟨30, _⟩ => ⟨S512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x12x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x12x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 12, 4], ![false, false, false]⟩

def k1_cond2 (i : grid1.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_33 : BitVec 32 := 0#32
  let v49 : BitVec 1 := Scalar.cmpi .ne v48 c0_i32_33
  v49

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x2048x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![2, 4, 12], ![false, false, false]⟩

def k2_cond2 (i : grid2.Coords) : BitVec 1 :=
  let arg2 : BitVec 32 := BitVec.ofNat 32 (i 2).val
  let c11_i32 : BitVec 32 := 11#32
  let v13 : BitVec 1 := Scalar.cmpi .eq arg2 c11_i32
  let v14 : BitVec 32 := Scalar.extui v13
  let c0_i32_10 : BitVec 32 := 0#32
  let v15 : BitVec 1 := Scalar.cmpi .ne v14 c0_i32_10
  v15

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S64x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  transposes_S2304x768_S768x2304_1_0 : S2304x768.Transposes [1, 0] S768x2304
  bitsLt_bf16_f32 : FTy.bits .bf16 < FTy.bits .f32
  shapeCasts_S2304_S1x2304 : S2304.ShapeCasts S1x2304
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  slices_S256x2304_o0_0_S256x768 : S256x2304.Slices ![0, 0] S256x768
  shapeCasts_S256x768_S256x12x64 : S256x768.ShapeCasts S256x12x64
  transposes_S256x12x64_p1_0_2_S12x256x64 : S256x12x64.Transposes [1, 0, 2] S12x256x64
  inb_S1x12x256x64_S1x12x256x64_0_0_0_0 : ∀ a, (![0, 0, 0, 0] : Fin 4 → Nat) a + S1x12x256x64.size a ≤ S1x12x256x64.size a
  h_S1x12x256x64 : 0 < S1x12x256x64.numel
  shapeCasts_S1x12x256x64_S12x256x64 : S1x12x256x64.ShapeCasts S12x256x64
  shapeCasts_S12x256x64_S1x12x256x64 : S12x256x64.ShapeCasts S1x12x256x64
  packedbf16_S1x12x256x64_S1x12x256x64_0_0_0_0 : (Rect.unit (s := S1x12x256x64) ![0, 0, 0, 0] S1x12x256x64.size inb_S1x12x256x64_S1x12x256x64_0_0_0_0).PackedRows (EltTy.packing .bf16)
  slices_S256x2304_o0_768_S256x768 : S256x2304.Slices ![0, 768] S256x768
  slices_S256x2304_o0_1536_S256x768 : S256x2304.Slices ![0, 1536] S256x768
  bcast_S_S2x2048 : S_.BroadcastsInDim S2x2048 (![] : Fin 0 → Fin S2x2048.rank)
  shapeCasts_S2x2048_S2x1x2048 : S2x2048.ShapeCasts S2x1x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  transposes_S512x64_p1_0_S64x512 : S512x64.Transposes [1, 0] S64x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  dot_S256x768_S768x2304_S256x2304_1_0_0_1_n_n_wf : DotDims.WF S256x768 S768x2304 S256x2304 [1] [0] [0] [1] [] []
  dot_S2048x64_S64x512_S2048x512_1_0_0_1_n_n_wf : DotDims.WF S2048x64 S64x512 S2048x512 [1] [0] [0] [1] [] []
  dot_S2048x512_S512x64_S2048x64_1_0_0_1_n_n_wf : DotDims.WF S2048x512 S512x64 S2048x64 [1] [0] [0] [1] [] []
  dot_S512x64_S64x768_S512x768_1_0_0_1_n_n_wf : DotDims.WF S512x64 S64x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S2x2048x768.size a
  hwx0_0 : ∀ i : grid0.Coords, EltTy.bits .f32 = 32 ∨ (Rect.block (s := S2x2048x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x256x64.size a ≤ S2x12x2048x64.size a
  hwx0_3 : ∀ i : grid0.Coords, EltTy.bits .bf16 = 32 ∨ (Rect.block (s := S2x12x2048x64) S1x12x256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12x256x64.size a ≤ S2x12x2048x64.size a
  hwx0_4 : ∀ i : grid0.Coords, EltTy.bits .bf16 = 32 ∨ (Rect.block (s := S2x12x2048x64) S1x12x256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x12x256x64.size a ≤ S2x12x2048x64.size a
  hwx0_5 : ∀ i : grid0.Coords, EltTy.bits .bf16 = 32 ∨ (Rect.block (s := S2x12x2048x64) S1x12x256x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S2x12x2048x64.size a
  hwx1_0 : ∀ i : grid1.Coords, EltTy.bits .bf16 = 32 ∨ (Rect.block (s := S2x12x2048x64) S1x1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x64.size a ≤ S2x12x2048x64.size a
  hwx1_1 : ∀ i : grid1.Coords, EltTy.bits .bf16 = 32 ∨ (Rect.block (s := S2x12x2048x64) S1x1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x64.size a ≤ S2x12x2048x64.size a
  hwx1_2 : ∀ i : grid1.Coords, EltTy.bits .bf16 = 32 ∨ (Rect.block (s := S2x12x2048x64) S1x1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S2x1x2048.size a
  hwx1_3 : ∀ i : grid1.Coords, EltTy.bits .f32 = 32 ∨ (Rect.block (s := S2x1x2048) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2048x64.size a ≤ S2x12x2048x64.size a
  hwx1_4 : ∀ i : grid1.Coords, EltTy.bits .bf16 = 32 ∨ (Rect.block (s := S2x12x2048x64) S1x1x2048x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x512x64.size a ≤ S2x12x2048x64.size a
  hwx2_0 : ∀ i : grid2.Coords, EltTy.bits .bf16 = 32 ∨ (Rect.block (s := S2x12x2048x64) S1x1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x768.size a ≤ S768x768.size a
  hwx2_1 : ∀ i : grid2.Coords, EltTy.bits .bf16 = 32 ∨ (Rect.block (s := S768x768) S64x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x768.size a ≤ S2x2048x768.size a
  hwx2_3 : ∀ i : grid2.Coords, EltTy.bits .f32 = 32 ∨ (Rect.block (s := S2x2048x768) S1x512x768.size (cc2_transform_3 i) (hinb2_3 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x12x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x12x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x12x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1x2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v8) S1x1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S64x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x768 : Shape := ⟨3, ![2, 2048, 768]⟩
abbrev S2x2048 : Shape := ⟨2, ![2, 2048]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S2x2048x2304 : Shape := ⟨3, ![2, 2048, 2304]⟩
abbrev S1x1x2304 : Shape := ⟨3, ![1, 1, 2304]⟩
abbrev S2x2048x3x12x64 : Shape := ⟨5, ![2, 2048, 3, 12, 64]⟩
abbrev S3x2x12x2048x64 : Shape := ⟨5, ![3, 2, 12, 2048, 64]⟩
abbrev S1x2x12x2048x64 : Shape := ⟨5, ![1, 2, 12, 2048, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x1x1x2048 : Shape := ⟨4, ![2, 1, 1, 2048]⟩
abbrev S2x12x2048 : Shape := ⟨3, ![2, 12, 2048]⟩
abbrev S2x12x2048x1 : Shape := ⟨4, ![2, 12, 2048, 1]⟩
abbrev S2x2048x12x64 : Shape := ⟨4, ![2, 2048, 12, 64]⟩
abbrev S1x1x768 : Shape := ⟨3, ![1, 1, 768]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048, .i32⟩
  | .hbm, ⟨2, _⟩ => ⟨S2304x768, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S2x2048x2304, .f32⟩
  | .hbm, ⟨7, _⟩ => ⟨S1x1x2304, .f32⟩
  | .hbm, ⟨8, _⟩ => ⟨S2x2048x2304, .f32⟩
  | .hbm, ⟨9, _⟩ => ⟨S2x2048x2304, .f32⟩
  | .hbm, ⟨10, _⟩ => ⟨S2x2048x3x12x64, .f32⟩
  | .hbm, ⟨11, _⟩ => ⟨S3x2x12x2048x64, .f32⟩
  | .hbm, ⟨12, _⟩ => ⟨S1x2x12x2048x64, .f32⟩
  | .hbm, ⟨13, _⟩ => ⟨S2x12x2048x64, .f32⟩
  | .hbm, ⟨14, _⟩ => ⟨S1x2x12x2048x64, .f32⟩
  | .hbm, ⟨15, _⟩ => ⟨S2x12x2048x64, .f32⟩
  | .hbm, ⟨16, _⟩ => ⟨S1x2x12x2048x64, .f32⟩
  | .hbm, ⟨17, _⟩ => ⟨S2x12x2048x64, .f32⟩
  | .hbm, ⟨18, _⟩ => ⟨S2x12x2048x2048, .f32⟩
  | .hbm, ⟨19, _⟩ => ⟨S_, .f32⟩
  | .hbm, ⟨20, _⟩ => ⟨S2x12x2048x2048, .f32⟩
  | .hbm, ⟨21, _⟩ => ⟨S2x12x2048x2048, .f32⟩
  | .hbm, ⟨22, _⟩ => ⟨S2x2048, .f32⟩
  | .hbm, ⟨23, _⟩ => ⟨S2x1x1x2048, .f32⟩
  | .hbm, ⟨24, _⟩ => ⟨S_, .f32⟩
  | .hbm, ⟨25, _⟩ => ⟨S2x1x1x2048, .f32⟩
  | .hbm, ⟨26, _⟩ => ⟨S2x1x1x2048, .f32⟩
  | .hbm, ⟨27, _⟩ => ⟨S2x12x2048x2048, .f32⟩
  | .hbm, ⟨28, _⟩ => ⟨S2x12x2048x2048, .f32⟩
  | .hbm, ⟨29, _⟩ => ⟨S_, .f32⟩
  | .hbm, ⟨30, _⟩ => ⟨S2x12x2048, .f32⟩
  | .hbm, ⟨31, _⟩ => ⟨S_, .f32⟩
  | .hbm, ⟨32, _⟩ => ⟨S2x12x2048, .f32⟩
  | .hbm, ⟨33, _⟩ => ⟨S2x12x2048, .f32⟩
  | .hbm, ⟨34, _⟩ => ⟨S2x12x2048x1, .f32⟩
  | .hbm, ⟨35, _⟩ => ⟨S2x12x2048x2048, .f32⟩
  | .hbm, ⟨36, _⟩ => ⟨S2x12x2048x2048, .f32⟩
  | .hbm, ⟨37, _⟩ => ⟨S2x12x2048x2048, .f32⟩
  | .hbm, ⟨38, _⟩ => ⟨S_, .f32⟩
  | .hbm, ⟨39, _⟩ => ⟨S2x12x2048, .f32⟩
  | .hbm, ⟨40, _⟩ => ⟨S2x12x2048x1, .f32⟩
  | .hbm, ⟨41, _⟩ => ⟨S2x12x2048x2048, .f32⟩
  | .hbm, ⟨42, _⟩ => ⟨S2x12x2048x2048, .f32⟩
  | .hbm, ⟨43, _⟩ => ⟨S2x12x2048x64, .f32⟩
  | .hbm, ⟨44, _⟩ => ⟨S2x2048x12x64, .f32⟩
  | .hbm, ⟨45, _⟩ => ⟨S2x2048x768, .f32⟩
  | .hbm, ⟨46, _⟩ => ⟨S2x2048x768, .f32⟩
  | .hbm, ⟨47, _⟩ => ⟨S1x1x768, .f32⟩
  | .hbm, ⟨48, _⟩ => ⟨S2x2048x768, .f32⟩
  | .hbm, ⟨49, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S2x2048x2304_0_1_2 : S1x1x2304.BroadcastsInDim S2x2048x2304 (![0, 1, 2] : Fin 3 → Fin S2x2048x2304.rank)
  shapeCasts_S2x2048x2304_S2x2048x3x12x64 : S2x2048x2304.ShapeCasts S2x2048x3x12x64
  transposes_S2x2048x3x12x64_S3x2x12x2048x64_2_0_3_1_4 : S2x2048x3x12x64.Transposes [2, 0, 3, 1, 4] S3x2x12x2048x64
  slices_S3x2x12x2048x64_S1x2x12x2048x64_0_0_0_0_0 : S3x2x12x2048x64.Slices ![0, 0, 0, 0, 0] S1x2x12x2048x64
  shapeCasts_S1x2x12x2048x64_S2x12x2048x64 : S1x2x12x2048x64.ShapeCasts S2x12x2048x64
  slices_S3x2x12x2048x64_S1x2x12x2048x64_1_0_0_0_0 : S3x2x12x2048x64.Slices ![1, 0, 0, 0, 0] S1x2x12x2048x64
  slices_S3x2x12x2048x64_S1x2x12x2048x64_2_0_0_0_0 : S3x2x12x2048x64.Slices ![2, 0, 0, 0, 0] S1x2x12x2048x64
  bcast_S_S2x12x2048x2048 : S_.BroadcastsInDim S2x12x2048x2048 (![] : Fin 0 → Fin S2x12x2048x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x12x2048x2048_0_1_2_3 : S2x1x1x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  dot_S2x2048x768_S2304x768_S2x2048x2304_2_1_01_0_n_n_wf : DotDims.WF S2x2048x768 S2304x768 S2x2048x2304 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]
  dot_S2x2048x768_S768x768_S2x2048x768_2_1_01_0_n_n_wf : DotDims.WF S2x2048x768 S768x768 S2x2048x768 [2] [1] [0, 1] [0] [] []

variable [Facts₀]

def dot_S2x2048x768_S2304x768_S2x2048x2304_2_1_01_0_n_n : DotDims S2x2048x768 S2304x768 S2x2048x2304 where
  lhsContracting := [2]
  rhsContracting := [1]
  lhsNonContracting := [0, 1]
  rhsNonContracting := [0]
  lhsBatch := []
  rhsBatch := []
  wf := dot_S2x2048x768_S2304x768_S2x2048x2304_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf
def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf

class Facts : Prop extends Facts₀ where

variable [Facts]
-- ==== Proof.Kernel.Region0.lean ====
/- Region 0, the fused q/k/v projection: at every grid point (b, s) the body reads a 256-row block of the input, the whole
   768 × 2304 weight and the bias row, forms block · weight + bias once, and writes its three 768-column thirds, each split
   into 12 heads of 64 and re-laid head-major, into the q, k and v blocks. Stated here, for any contents `V` of the core's
   buffers at the region's entry and at every float instance: what each output block holds after the body as a function of
   the three input blocks, and that the body's run at a point is exactly that. -/
import proofs.«109941_j17609365914550_2_alg».proof.Proof.Gen.Kernel.Launch
import proofs.«109941_j17609365914550_2_alg».proof.Proof.Gen.Kernel.Skeleton
import proofs.«109941_j17609365914550_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block's staging buffer holds the block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the weight, fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the bias row, fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev rX0 : Rect S1x256x768 := Rect.unit (s := S1x256x768) ![0, 0, 0] S1x256x768.size inb_S1x256x768_S1x256x768_0_0_0
abbrev rW0 : Rect S768x2304 := Rect.unit (s := S768x2304) ![0, 0] S768x2304.size inb_S768x2304_S768x2304_0_0
abbrev rB0 : Rect S1x2304 := Rect.unit (s := S1x2304) ![0, 0] S1x2304.size inb_S1x2304_S1x2304_0_0
abbrev rO0 : Rect S1x12x256x64 := Rect.unit (s := S1x12x256x64) ![0, 0, 0, 0] S1x12x256x64.size inb_S1x12x256x64_S1x12x256x64_0_0_0_0

/-! ## What the body leaves in each output block -/

/-- The q block after the body: one whole store of the first third, split into heads. -/
def out0_3 (x0 : Vec F S1x256x768 .f32) (x1 : Vec F S768x2304 .bf16) (x2 : Vec F S1x2304 .f32) : Vec F S1x12x256x64 .bf16 :=
  View.canon [⟨rO0, k0_pay2 (View.ld x0 rX0) (View.ld x1 rW0) (View.ld x2 rB0)⟩]
/-- The k block: the second third. -/
def out0_4 (x0 : Vec F S1x256x768 .f32) (x1 : Vec F S768x2304 .bf16) (x2 : Vec F S1x2304 .f32) : Vec F S1x12x256x64 .bf16 :=
  View.canon [⟨rO0, k0_pay3 (View.ld x0 rX0) (View.ld x1 rW0) (View.ld x2 rB0)⟩]
/-- The v block: the last third. -/
def out0_5 (x0 : Vec F S1x256x768 .f32) (x1 : Vec F S768x2304 .bf16) (x2 : Vec F S1x2304 .f32) : Vec F S1x12x256x64 .bf16 :=
  View.canon [⟨rO0, k0_pay4 (View.ld x0 rX0) (View.ld x1 rW0) (View.ld x2 rB0)⟩]

/-- One whole store covers the block. -/
theorem cover0_O (p0 : Vec F S1x12x256x64 .bf16) (y : S1x12x256x64.Idx) :
    ∃ pc ∈ ([⟨rO0, p0⟩] : List (View.Piece (Elt F) S1x12x256x64 .bf16)), y ∈ pc.1.set :=
  View.cover_of_tiled [⟨rO0, p0⟩] S1x12x256x64.size (by rfl) y

/-! ## The body's triple -/

set_option maxHeartbeats 1000000 in
/-- The body on whole staging memrefs, the inputs' at contents `x0 x1 x2` and the outputs' at anything, runs to the
    continuation holding the inputs' as they were and the three outputs' at `out0_3 / out0_4 / out0_5` of the inputs'. -/
theorem sound_kernel0 (c : Dev nD) (E : Set ℕ) (i : grid0.Coords)
    (arg2 : Memref sig .tc .vmem S1x256x768 .f32) (harg2 : arg2.IsWhole) (arg3 : Memref sig .tc .vmem S768x2304 .bf16) (harg3 : arg3.IsWhole)
    (arg4 : Memref sig .tc .vmem S1x2304 .f32) (harg4 : arg4.IsWhole) (arg5 : Memref sig .tc .vmem S1x12x256x64 .bf16) (harg5 : arg5.IsWhole)
    (arg6 : Memref sig .tc .vmem S1x12x256x64 .bf16) (harg6 : arg6.IsWhole) (arg7 : Memref sig .tc .vmem S1x12x256x64 .bf16) (harg7 : arg7.IsWhole)
    (x0 : Vec F S1x256x768 .f32) (x1 : Vec F S768x2304 .bf16) (x2 : Vec F S1x2304 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_O _)
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The region's proof data -/

/-- The proof data of the region on core `c`: the arrays as the region finds them; after the body at point `t` each
    input's buffer still at its block and the q, k, v buffers at the body's results on the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Run.lean ====
/- The whole program as a run: three stretches of host operations (transposes and casts of the two weights, reshapes of
   the two biases, the additive key bias from the mask) alternate with the three kernel regions. Between two items a core
   holds every unscoped buffer at contents computed from the launch memory: a host stretch applies its operations, a region
   replaces each of its windows' arrays by what its write-backs leave and touches nothing else. Regions 1 and 2 enter only
   through the facts a region's proof data must satisfy (arrays read off the entry contents, full shares, nothing owed, the
   body obligation, the invariant in and out), so this module is independent of how those are proved. The run ends with every
   unscoped buffer at the last contents; the six argument arrays walk back through the items to the launch memory. -/
import proofs.«109941_j17609365914550_2_alg».proof.Proof.Kernel.Region0
import proofs.«109941_j17609365914550_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Nothing owed, into and out of a region's dues -/

/-- A core that owes nothing meets the dues of proof data that owe nothing and bound nothing at `t`. -/
theorem owesAt_of_zero {cfg : Cfg sig Λ₀} {c : Dev nD} (dat : Dat τ (Elt F) Unit ℕ (UR sig nD τ) ℕ cfg c) (t : Fin (cfg.N + 1))
    (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound; rw [h, hr]
  iintro ⟨%W, HO⟩; iexists W; isplitr; · ipureintro; exact fun _ _ => Or.inl trivial
  iexact HO

/-- And the dues of proof data that owe nothing at `t` leave the core owing nothing. -/
theorem zero_of_owesAt {cfg : Cfg sig Λ₀} {c : Dev nD} (dat : Dat τ (Elt F) Unit ℕ (UR sig nD τ) ℕ cfg c) (t : Fin (cfg.N + 1))
    (h : dat.owed t = 0) :
    dat.owesAt () t ⊢ (iprop(∃ W, owes (c : Thread nD τ) (0 : CellTallies nD τ sig Unit) W) : sProp 𝕄) := by
  unfold Pipeline.Dat.owesAt Pipeline.owesWithin; rw [h]
  iintro ⟨%W, -, HO⟩; iexists W; iexact HO

/-! ## What a region's proof data must satisfy -/

/-- Region 1's proof data, as a function of the entry contents, is good: its arrays are read off the entry contents, it
    holds full shares and owes nothing, the body meets its obligation at every point, and its invariant is entered from and
    left to the scoped rest beside the generator register. -/
structure Good1 (D1 : ((c : Dev nD) → (b : Ref sig .tc) → Buf (Elt F) ((c : Thread nD τ).loc b)) → (c : Dev nD) → Dat τ (Elt F) Unit ℕ (UR sig nD τ) ℕ cfg1 c) : Prop where
  hA : ∀ V c w, (D1 V c).A w = V c (Pipeline.arrRef spec1 w)
  hq : ∀ V c w, (D1 V c).q w = fullShare
  howed : ∀ V c t, (D1 V c).owed t = 0
  hrec : ∀ V c t, (D1 V c).recorded t = Set.univ
  hbody : ∀ V c, BodyObligation (D1 V c) (defs₀ (F := F)) Variants.none () Set.univ
  hin : ∀ V c, Pipeline.ΦA spec1 c ⊢ (D1 V c).Φ 0
  hout : ∀ V c, (D1 V c).Φ (Fin.last cfg1.N) ⊢ Pipeline.ΦA spec1 c

/-- The same for region 2. -/
structure Good2 (D2 : ((c : Dev nD) → (b : Ref sig .tc) → Buf (Elt F) ((c : Thread nD τ).loc b)) → (c : Dev nD) → Dat τ (Elt F) Unit ℕ (UR sig nD τ) ℕ cfg2 c) : Prop where
  hA : ∀ V c w, (D2 V c).A w = V c (Pipeline.arrRef spec2 w)
  hq : ∀ V c w, (D2 V c).q w = fullShare
  howed : ∀ V c t, (D2 V c).owed t = 0
  hrec : ∀ V c t, (D2 V c).recorded t = Set.univ
  hbody : ∀ V c, BodyObligation (D2 V c) (defs₀ (F := F)) Variants.none () Set.univ
  hin : ∀ V c, Pipeline.ΦA spec2 c ⊢ (D2 V c).Φ 0
  hout : ∀ V c, (D2 V c).Φ (Fin.last cfg2.N) ⊢ Pipeline.ΦA spec2 c

variable (D1 : ((c : Dev nD) → (b : Ref sig .tc) → Buf (Elt F) ((c : Thread nD τ).loc b)) → (c : Dev nD) → Dat τ (Elt F) Unit ℕ (UR sig nD τ) ℕ cfg1 c)
variable (D2 : ((c : Dev nD) → (b : Ref sig .tc) → Buf (Elt F) ((c : Thread nD τ).loc b)) → (c : Dev nD) → Dat τ (Elt F) Unit ℕ (UR sig nD τ) ℕ cfg2 c)
variable (m : (ℓ : Loc nD τ sig) → Buf (Elt F) ℓ) (ρ : Dev nD → PrngReg)

/-! ## The buffer contents between items: a fold through the program -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1. -/
def W4 (c : Dev nD) : Valuation τ sig (Elt F) :=
  Pipeline.withArrays spec1 c (W3 m ρ c) fun w => (D1 (V3 m ρ) c).arrAt w cfg1.N
theorem W4_arr (c : Dev nD) (w : Fin cfg1.W) :
    W4 D1 m ρ c (Proc.devRef .tc (Pipeline.arrRef spec1 w)) = (D1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 D1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 D1 m ρ c b
theorem hF1 (c : Dev nD) (w : Fin cfg1.W) : (D1 (V3 m ρ) c).arrAt w cfg1.N = V4 D1 m ρ c (Pipeline.arrRef spec1 w) :=
  (W4_arr D1 m ρ c w).symm
theorem hrest1 (c : Dev nD) : ∀ b, b ∉ Finset.univ.image (Pipeline.arrRef spec1) → V4 D1 m ρ c b = V3 m ρ c b :=
  fun b hb => W4_of_ne D1 m ρ c b fun w e => hb (Finset.mem_image.mpr ⟨w, Finset.mem_univ _, e⟩)

/-- After the third host stretch (region 2's entry). -/
abbrev W5 : Dev nD → Valuation τ sig (Elt F) := fun c => StableHlo.after hostOps2 (W4 D1 m ρ c)
abbrev V5 : (c : Dev nD) → (b : Ref sig .tc) → Buf (Elt F) ((c : Thread nD τ).loc b) := fun c b => W5 D1 m ρ c b
/-- After region 2: the program's end. -/
def W6 (c : Dev nD) : Valuation τ sig (Elt F) :=
  Pipeline.withArrays spec2 c (W5 D1 m ρ c) fun w => (D2 (V5 D1 m ρ) c).arrAt w cfg2.N
theorem W6_arr (c : Dev nD) (w : Fin cfg2.W) :
    W6 D1 D2 m ρ c (Proc.devRef .tc (Pipeline.arrRef spec2 w)) = (D2 (V5 D1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 D1 D2 m ρ c (Proc.devRef .tc b) = W5 D1 m ρ c (Proc.devRef .tc b) := by
  unfold W6; exact Pipeline.withArrays_of_ne spec2 c _ _ b hb
abbrev V6 : (c : Dev nD) → (b : Ref sig .tc) → Buf (Elt F) ((c : Thread nD τ).loc b) := fun c b => W6 D1 D2 m ρ c b
theorem hF2 (c : Dev nD) (w : Fin cfg2.W) : (D2 (V5 D1 m ρ) c).arrAt w cfg2.N = V6 D1 D2 m ρ c (Pipeline.arrRef spec2 w) :=
  (W6_arr D1 D2 m ρ c w).symm
theorem hrest2 (c : Dev nD) : ∀ b, b ∉ Finset.univ.image (Pipeline.arrRef spec2) → V6 D1 D2 m ρ c b = V5 D1 m ρ c b :=
  fun b hb => W6_of_ne D1 D2 m ρ c b fun w e => hb (Finset.mem_image.mpr ⟨w, Finset.mem_univ _, e⟩)

/-! ### The arguments end as launched: no host operation writes one, region 0 reads the input through a window and every
    other region bypasses them -/

theorem W6_main_arg0 (c : Dev nD) : W6 D1 D2 m ρ c (Proc.devRef .tc main_arg0) = m ((c : Thread nD τ).loc main_arg0) :=
  calc W6 D1 D2 m ρ c (Proc.devRef .tc main_arg0)
    _ = W5 D1 m ρ c (Proc.devRef .tc main_arg0) := W6_of_ne D1 D2 m ρ c main_arg0 (by decide)
    _ = W4 D1 m ρ c (Proc.devRef .tc main_arg0) := StableHlo.after_of_writes_sub hostOps2 _ hostOps2_writes (show (main_arg0 : Ref sig .tc) ∉ hostOps2_W from by decide)
    _ = W3 m ρ c (Proc.devRef .tc main_arg0) := W4_of_ne D1 m ρ c main_arg0 (by decide)
    _ = W2 m ρ c (Proc.devRef .tc main_arg0) := StableHlo.after_of_writes_sub hostOps1 _ hostOps1_writes (show (main_arg0 : Ref sig .tc) ∉ hostOps1_W from by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (show (main_arg0 : Ref sig .tc) ∉ hostOps0_W from by decide)
    _ = m ((c : Thread nD τ).loc main_arg0) := rfl

theorem W6_main_arg1 (c : Dev nD) : W6 D1 D2 m ρ c (Proc.devRef .tc main_arg1) = m ((c : Thread nD τ).loc main_arg1) :=
  calc W6 D1 D2 m ρ c (Proc.devRef .tc main_arg1)
    _ = W5 D1 m ρ c (Proc.devRef .tc main_arg1) := W6_of_ne D1 D2 m ρ c main_arg1 (by decide)
    _ = W4 D1 m ρ c (Proc.devRef .tc main_arg1) := StableHlo.after_of_writes_sub hostOps2 _ hostOps2_writes (show (main_arg1 : Ref sig .tc) ∉ hostOps2_W from by decide)
    _ = W3 m ρ c (Proc.devRef .tc main_arg1) := W4_of_ne D1 m ρ c main_arg1 (by decide)
    _ = W2 m ρ c (Proc.devRef .tc main_arg1) := StableHlo.after_of_writes_sub hostOps1 _ hostOps1_writes (show (main_arg1 : Ref sig .tc) ∉ hostOps1_W from by decide)
    _ = W1 m ρ c (Proc.devRef .tc main_arg1) := W2_of_ne m ρ c main_arg1 (by decide)
    _ = W0 m ρ c (Proc.devRef .tc main_arg1) := StableHlo.after_of_writes_sub hostOps0 _ hostOps0_writes (show (main_arg1 : Ref sig .tc) ∉ hostOps0_W from by decide)
    _ = m ((c : Thread nD τ).loc main_arg1) := rfl

theorem W6_main_arg2 (c : Dev nD) : W6 D1 D2 m ρ c (Proc.devRef .tc main_arg2) = m ((c : Thread nD τ).loc main_arg2) :=
  calc W6 D1 D2 m ρ c (Proc.devRef .tc main_arg2)
    _ = W5 D1 m ρ c (Proc.devRef .tc main_arg2) := W6_of_ne D1 D2 m ρ c main_arg2 (by decide)
    _ = W4 D1 m ρ c (Proc.devRef .tc main_arg2) := StableHlo.after_of_writes_sub hostOps2 _ hostOps2_writes (show (main_arg2 : Ref sig .tc) ∉ hostOps2_W from by decide)
    _ = W3 m ρ c (Proc.devRef .tc main_arg2) := W4_of_ne D1 m ρ c main_arg2 (by decide)
    _ = W2 m ρ c (Proc.devRef .tc main_arg2) := StableHlo.after_of_writes_sub hostOps1 _ hostOps1_writes (show (main_arg2 : Ref sig .tc) ∉ hostOps1_W from by decide)
    _ = W1 m ρ c (Proc.devRef .tc main_arg2) := W2_of_ne m ρ c main_arg2 (by decide)
    _ = W0 m ρ c (Proc.devRef .tc main_arg2) := StableHlo.after_of_writes_sub hostOps0 _ hostOps0_writes (show (main_arg2 : Ref sig .tc) ∉ hostOps0_W from by decide)
    _ = m ((c : Thread nD τ).loc main_arg2) := rfl

theorem W6_main_arg3 (c : Dev nD) : W6 D1 D2 m ρ c (Proc.devRef .tc main_arg3) = m ((c : Thread nD τ).loc main_arg3) :=
  calc W6 D1 D2 m ρ c (Proc.devRef .tc main_arg3)
    _ = W5 D1 m ρ c (Proc.devRef .tc main_arg3) := W6_of_ne D1 D2 m ρ c main_arg3 (by decide)
    _ = W4 D1 m ρ c (Proc.devRef .tc main_arg3) := StableHlo.after_of_writes_sub hostOps2 _ hostOps2_writes (show (main_arg3 : Ref sig .tc) ∉ hostOps2_W from by decide)
    _ = W3 m ρ c (Proc.devRef .tc main_arg3) := W4_of_ne D1 m ρ c main_arg3 (by decide)
    _ = W2 m ρ c (Proc.devRef .tc main_arg3) := StableHlo.after_of_writes_sub hostOps1 _ hostOps1_writes (show (main_arg3 : Ref sig .tc) ∉ hostOps1_W from by decide)
    _ = W1 m ρ c (Proc.devRef .tc main_arg3) := W2_of_ne m ρ c main_arg3 (by decide)
    _ = W0 m ρ c (Proc.devRef .tc main_arg3) := StableHlo.after_of_writes_sub hostOps0 _ hostOps0_writes (show (main_arg3 : Ref sig .tc) ∉ hostOps0_W from by decide)
    _ = m ((c : Thread nD τ).loc main_arg3) := rfl

theorem W6_main_arg4 (c : Dev nD) : W6 D1 D2 m ρ c (Proc.devRef .tc main_arg4) = m ((c : Thread nD τ).loc main_arg4) :=
  calc W6 D1 D2 m ρ c (Proc.devRef .tc main_arg4)
    _ = W5 D1 m ρ c (Proc.devRef .tc main_arg4) := W6_of_ne D1 D2 m ρ c main_arg4 (by decide)
    _ = W4 D1 m ρ c (Proc.devRef .tc main_arg4) := StableHlo.after_of_writes_sub hostOps2 _ hostOps2_writes (show (main_arg4 : Ref sig .tc) ∉ hostOps2_W from by decide)
    _ = W3 m ρ c (Proc.devRef .tc main_arg4) := W4_of_ne D1 m ρ c main_arg4 (by decide)
    _ = W2 m ρ c (Proc.devRef .tc main_arg4) := StableHlo.after_of_writes_sub hostOps1 _ hostOps1_writes (show (main_arg4 : Ref sig .tc) ∉ hostOps1_W from by decide)
    _ = W1 m ρ c (Proc.devRef .tc main_arg4) := W2_of_ne m ρ c main_arg4 (by decide)
    _ = W0 m ρ c (Proc.devRef .tc main_arg4) := StableHlo.after_of_writes_sub hostOps0 _ hostOps0_writes (show (main_arg4 : Ref sig .tc) ∉ hostOps0_W from by decide)
    _ = m ((c : Thread nD τ).loc main_arg4) := rfl

theorem W6_main_arg5 (c : Dev nD) : W6 D1 D2 m ρ c (Proc.devRef .tc main_arg5) = m ((c : Thread nD τ).loc main_arg5) :=
  calc W6 D1 D2 m ρ c (Proc.devRef .tc main_arg5)
    _ = W5 D1 m ρ c (Proc.devRef .tc main_arg5) := W6_of_ne D1 D2 m ρ c main_arg5 (by decide)
    _ = W4 D1 m ρ c (Proc.devRef .tc main_arg5) := StableHlo.after_of_writes_sub hostOps2 _ hostOps2_writes (show (main_arg5 : Ref sig .tc) ∉ hostOps2_W from by decide)
    _ = W3 m ρ c (Proc.devRef .tc main_arg5) := W4_of_ne D1 m ρ c main_arg5 (by decide)
    _ = W2 m ρ c (Proc.devRef .tc main_arg5) := StableHlo.after_of_writes_sub hostOps1 _ hostOps1_writes (show (main_arg5 : Ref sig .tc) ∉ hostOps1_W from by decide)
    _ = W1 m ρ c (Proc.devRef .tc main_arg5) := W2_of_ne m ρ c main_arg5 (by decide)
    _ = W0 m ρ c (Proc.devRef .tc main_arg5) := StableHlo.after_of_writes_sub hostOps0 _ hostOps0_writes (show (main_arg5 : Ref sig .tc) ∉ hostOps0_W from by decide)
    _ = m ((c : Thread nD τ).loc main_arg5) := rfl

/-! ## The proof data family and the thread state -/

/-- No region has a prefetched table. -/
abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => D1 (V3 m ρ) c
  | ⟨2, _⟩ => fun c => D2 (V5 D1 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 D1 D2 m ρ c) ∗ ∃ r, prngReg c r)

/-! ## The regions as segments -/

variable (G1 : Good1 D1) (G2 : Good2 D2)

set_option backward.isDefEq.respectTransparency.types false in
/-- Region 0 over the thread state: entered from every unscoped buffer at the contents before it, left at the contents
    after it; its arrays split out of the unscoped buffers and put back at what the write-backs leave; the generator
    register into the region's invariant and out; nothing owed; no semaphore of the kernel's own. -/
def reg0 : Pipeline.RegionSeg (pcfgs (F := F)) adm (pdats D1 D2 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 (fun _ _ => rfl)
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats D1 D2 m ρ) launch0.win launch0.arr_whole c
      ((pdats D1 D2 m ρ 0 c).share_full (fun _ => rfl)) (V1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats D1 D2 m ρ 0 c) 0 rfl rfl); iexact HO
    isplitl [Hp]; · iexact Hp
    iexact Hrest
  hin c := by
    rw [show (pdats D1 D2 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D1 D2 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D1 D2 m ρ) ((pdats D1 D2 m ρ 0 c).share_full (fun _ => rfl))
      (V1 m ρ c) (V2 m ρ c) ((pdats D1 D2 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats D1 D2 m ρ 0 c) (Fin.last _) rfl); iexact HO

set_option backward.isDefEq.respectTransparency.types false in
/-- Region 1 over the thread state: entered from every unscoped buffer at the contents before it, left at the contents
    after it; its arrays split out of the unscoped buffers and put back at what the write-backs leave; the generator
    register into the region's invariant and out; nothing owed; no semaphore of the kernel's own. -/
def reg1 : Pipeline.RegionSeg (pcfgs (F := F)) adm (pdats D1 D2 m ρ) () defs₀ 𝒱₀ L lv 1 where
  win := launch1.win.to₀
  block_pos := launch1.block_pos
  stage_whole := launch1.stage_whole
  K := PEmpty
  osem k := k.elim
  ho := Pipeline.OwnSemFacts.none _
  hbody c := (G1.hbody (V3 m ρ) c).loose
  hwaits := Pipeline.hwaits_of_owed_zero _ _ _ _ L lv 1 (fun c t => G1.howed (V3 m ρ) c t)
  pre c := iprop(StableHlo.held (c : Thread nD τ) (Pipeline.ucRefs τ sig) (W3 m ρ c) ∗ R c)
  post c := iprop(StableHlo.held (c : Thread nD τ) (Pipeline.ucRefs τ sig) (W4 D1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats D1 D2 m ρ) launch1.win launch1.arr_whole c
      ((pdats D1 D2 m ρ 1 c).share_full (fun w => G1.hq (V3 m ρ) c w)) (V3 m ρ c) (fun w => G1.hA (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats D1 D2 m ρ 1 c) 0 (G1.howed (V3 m ρ) c _) (G1.hrec (V3 m ρ) c _)); iexact HO
    isplitl [Hp]; · iexact Hp
    iexact Hrest
  hin c := by
    refine .trans ?_ (G1.hin (V3 m ρ) c)
    unfold Pipeline.ΦA
    iintro ⟨Hp, -, Hr⟩
    isplitl [Hr]; · iexact Hr
    iexact Hp
  hout c := by
    rw [Pipeline.ownSems0_none]
    refine (show (pdats D1 D2 m ρ 1 c).Φ (Fin.last _) ⊢ Pipeline.ΦA spec1 c from G1.hout (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D1 D2 m ρ) ((pdats D1 D2 m ρ 1 c).share_full (fun w => G1.hq (V3 m ρ) c w))
      (V3 m ρ c) (V4 D1 m ρ c) ((pdats D1 D2 m ρ 1 c).arrAt · cfg1.N) (hF1 D1 m ρ c) (hrest1 D1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats D1 D2 m ρ 1 c) (Fin.last _) (G1.howed (V3 m ρ) c _)); iexact HO

set_option backward.isDefEq.respectTransparency.types false in
/-- Region 2 over the thread state: entered from every unscoped buffer at the contents before it, left at the contents
    after it; its arrays split out of the unscoped buffers and put back at what the write-backs leave; the generator
    register into the region's invariant and out; nothing owed; no semaphore of the kernel's own. -/
def reg2 : Pipeline.RegionSeg (pcfgs (F := F)) adm (pdats D1 D2 m ρ) () defs₀ 𝒱₀ L lv 2 where
  win := launch2.win.to₀
  block_pos := launch2.block_pos
  stage_whole := launch2.stage_whole
  K := PEmpty
  osem k := k.elim
  ho := Pipeline.OwnSemFacts.none _
  hbody c := (G2.hbody (V5 D1 m ρ) c).loose
  hwaits := Pipeline.hwaits_of_owed_zero _ _ _ _ L lv 2 (fun c t => G2.howed (V5 D1 m ρ) c t)
  pre c := iprop(StableHlo.held (c : Thread nD τ) (Pipeline.ucRefs τ sig) (W5 D1 m ρ c) ∗ R c)
  post c := iprop(Tₙ D1 D2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 D1 m ρ c)
  hentry c := by
    rw [Pipeline.ownSems0_none]
    have hsplit := Pipeline.arrays_of_unscopedBufs (p := 2) (pcfgs (F := F)) adm (pdats D1 D2 m ρ) launch2.win launch2.arr_whole c
      ((pdats D1 D2 m ρ 2 c).share_full (fun w => G2.hq (V5 D1 m ρ) c w)) (V5 D1 m ρ c) (fun w => G2.hA (V5 D1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats D1 D2 m ρ 2 c) 0 (G2.howed (V5 D1 m ρ) c _) (G2.hrec (V5 D1 m ρ) c _)); iexact HO
    isplitl [Hp]; · iexact Hp
    iexact Hrest
  hin c := by
    refine .trans ?_ (G2.hin (V5 D1 m ρ) c)
    unfold Pipeline.ΦA
    iintro ⟨Hp, -, Hr⟩
    isplitl [Hr]; · iexact Hr
    iexact Hp
  hout c := by
    rw [Pipeline.ownSems0_none]
    refine (show (pdats D1 D2 m ρ 2 c).Φ (Fin.last _) ⊢ Pipeline.ΦA spec2 c from G2.hout (V5 D1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D1 D2 m ρ) ((pdats D1 D2 m ρ 2 c).share_full (fun w => G2.hq (V5 D1 m ρ) c w))
      (V5 D1 m ρ c) (V6 D1 D2 m ρ c) ((pdats D1 D2 m ρ 2 c).arrAt · cfg2.N) (hF2 D1 D2 m ρ c) (hrest2 D1 D2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (zero_of_owesAt (pdats D1 D2 m ρ 2 c) (Fin.last _) (G2.howed (V5 D1 m ρ) c _)); iexact HO

/-! ## The program as segments, and the run -/

abbrev segs : List (Pipeline.Seg (pcfgs (F := F)) adm (pdats D1 D2 m ρ) () defs₀ 𝒱₀ L lv) :=
  [ .host (hseg hostOps0 hostOps0_sub hostOps0_fresh (W0 m ρ)),
    .region (reg0 D1 D2 m ρ),
    .host (hseg hostOps1 hostOps1_sub hostOps1_fresh (W2 m ρ)),
    .region (reg1 D1 D2 m ρ G1),
    .host (hseg hostOps2 hostOps2_sub hostOps2_fresh (W4 D1 m ρ)),
    .region (reg2 D1 D2 m ρ G2) ]
theorem main_run (c : Dev nD) : main (F := F) c = Pipeline.Seg.run (segs D1 D2 m ρ G1 G2) := (main_chain c).trans (by chain_rfl)

include G1 G2 in
set_option backward.isDefEq.respectTransparency.types false in
/-- THE RUN. From any memory with zero counters every weakly fair execution of the program terminates, nothing faulting,
    and the final state holds every unscoped buffer at the last contents of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 D1 D2 m ρ c b) :=
  Pipeline.θ_run_regions_kit (pcfgs (F := F)) adm (pdats D1 D2 m ρ) () cellOf_inj emb₁ defs₀ 𝒱₀ L lv m ρ main (segs D1 D2 m ρ G1 G2)
    (fun c Q => by rw [main_run D1 D2 m ρ G1 G2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D1 D2 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 D1 D2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 D1 D2 m ρ c) s')
      isplitl [Hh] <;> iassumption)
    (hQ := fun s h c => h c)

end Cert.Kernel.Fr

end
-- ==== Proof.Kernel.Region1Runs.lean ====
/- Region 1 (the attention kernel, grid 2 x 12 x 4) of the three-kernel program, frame half, shared part.
   Stated at arbitrary contents V of the core's buffers on entry to the region and at an arbitrary float
   instance: the blocks the four input windows read off their arrays; that an input's staging buffer holds
   its block at every point whether or not it was fetched there; the two branch conditions of the body in
   closed form over the 96 grid points (the first holds where the innermost coordinate is 0, the second
   where it is 3); where the output window is idle and not written back; the staging and scratch memrefs;
   and the region invariant with the three scratch buffers split out of the chain of scoped buffers. -/
import proofs.«109941_j17609365914550_2_alg».proof.Proof.Gen.Kernel.Launch
import proofs.«109941_j17609365914550_2_alg».proof.Proof.Gen.Kernel.Skeleton
import proofs.«109941_j17609365914550_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first branch condition of the body: the innermost grid coordinate is 0. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch condition of the body: the innermost grid coordinate is 3. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where only the first condition holds the output window is idle, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- Where neither holds the output window is idle, -/
theorem idleAt1_4_B : ∀ t : Fin cfg1.N, ¬cond1_0 (grid1.coords t) → ¬cond1_1 (grid1.coords t) → cfg1.idle 4 (grid1.coords t) = true := by decide +kernel
/-- and its block is not written back there. -/
theorem noFlush1_4_B : ∀ t : Fin cfg1.N, ¬cond1_0 (grid1.coords t) → ¬cond1_1 (grid1.coords t) → (cfg1.win 4).flush t = false := by decide +kernel
/-- Where only the second condition holds the output window is live: the body stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S1x1x2048x64 .bf16 := (Memref.whole cc1_stg4_0 : Memref sig .tc .vmem S1x1x2048x64 .bf16).view
/-- Each window's current staging memref at point `t`, and its wholeness. -/
abbrev ms1_0 (t : Fin cfg1.N) : Memref sig .tc .vmem S1x1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2048x64 .bf16 := win1_4.stage (cfg1.slots t 4)
abbrev hs1_4 (t : Fin cfg1.N) : (ms1_4 t).IsWhole := hstage1_4 ((cfg1.slots t 4).cast nbuf1_4)
/-- The three scratch operands: whole scoped buffers, carried from point to point. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x64 .f32 := Memref.whole cc1_scratch2
/-- The same as views: what each holds is stated through them. -/
abbrev VS1_0 : View sig .tc .vmem S2048x1 .f32 := scM1_0.view
abbrev VS1_1 : View sig .tc .vmem S2048x1 .f32 := scM1_1.view
abbrev VS1_2 : View sig .tc .vmem S2048x64 .f32 := scM1_2.view

/-! ## The region invariant with the scratch buffers split out -/

/-- The scoped buffers of the other two regions (their staging buffers and the third region's scratch), each
    whole at some contents: the part of the region invariant this region's body never touches. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_scratch0), ((c : Thread nD τ).loc cc2_scratch0) ↦{fullShare} f))

/-- The region invariant: the chain of the core's scoped buffers that are no staging buffer of this region, the
    three scratch operands among them as memrefs owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg1_1), ((c : Thread nD τ).loc cc2_stg1_1) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)
        ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl

/-- The invariant hands out the three scratch operands, the other regions' buffers and the register, -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ (∃ d, owns (c : Thread nD τ) scM1_2 fullShare d)
          ∗ others1 c ∗ (∃ r, prngReg c r)) := by
  rw [PhiA1_eq]; unfold others1
  iintro ⟨⟨R0, R1, R2, R3, R4, R5, R6, R7, R8, R9, HS0, HS1, HS2, R13, R14, R15, R16, R17, R18, R19, R20⟩, Hg⟩
  isplitl [HS0]; · iexact HS0
  isplitl [HS1]; · iexact HS1
  isplitl [HS2]; · iexact HS2
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R13]; · iexact R13
  isplitl [R14]; · iexact R14
  isplitl [R15]; · iexact R15
  isplitl [R16]; · iexact R16
  isplitl [R17]; · iexact R17
  isplitl [R18]; · iexact R18
  isplitl [R19]; · iexact R19
  iexact R20

/-- and takes them back. -/
theorem PhiA1_join (c : Dev nD) :
    iprop((∃ d, owns (c : Thread nD τ) scM1_0 fullShare d) ∗ (∃ d, owns (c : Thread nD τ) scM1_1 fullShare d) ∗ (∃ d, owns (c : Thread nD τ) scM1_2 fullShare d)
          ∗ others1 c ∗ (∃ r, prngReg c r))
      ⊢ (Pipeline.ΦA spec1 c : sProp 𝕄) := by
  rw [PhiA1_eq]; unfold others1
  iintro ⟨HS0, HS1, HS2, ⟨R0, R1, R2, R3, R4, R5, R6, R7, R8, R9, R13, R14, R15, R16, R17, R18, R19, R20⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS0]; · iexact HS0
  isplitl [HS1]; · iexact HS1
  isplitl [HS2]; · iexact HS2
  isplitl [R13]; · iexact R13
  isplitl [R14]; · iexact R14
  isplitl [R15]; · iexact R15
  isplitl [R16]; · iexact R16
  isplitl [R17]; · iexact R17
  isplitl [R18]; · iexact R18
  isplitl [R19]; · iexact R19
  iexact R20

end Cert.Kernel.Fr

end
-- ==== Proof.Kernel.Region1RunA.lean ====
/- Region 1, the run of the body where only the first branch condition holds (innermost coordinate 0): the
   three scratch operands are first stored whole with their initial values, the four inputs are loaded, and
   each scratch operand is stored whole once more; nothing is stored into the output window. The run's witness
   is, per stored buffer, the list of pieces its stores wrote. -/
import proofs.«109941_j17609365914550_2_alg».proof.Proof.Kernel.Region1Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in each scratch operand (last store
    first) in this case, with the proof that on whole memrefs, the inputs' at their contents, the body runs to a
    continuation that holds the inputs' as they were and every stored buffer with its pieces written. -/
noncomputable def kernelRun1_A (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) :
    Σ' (L4 : List (View.Piece (Elt F) S1x1x2048x64 .bf16)) (LS0 : List (View.Piece (Elt F) S2048x1 .f32)) (LS1 : List (View.Piece (Elt F) S2048x1 .f32)), { LS2 : List (View.Piece (Elt F) S2048x64 .f32) //
      ∀ (xi4 : Vec F S1x1x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Fr

end
-- ==== Proof.Kernel.Region1RunB.lean ====
/- Region 1, the run of the body where neither branch condition holds (innermost coordinate 1 or 2): the four
   inputs and the three scratch operands (at what the point before left) are loaded and each scratch operand
   is stored whole once; nothing is stored into the output window. The run's witness is, per stored buffer,
   the list of pieces its stores wrote. -/
import proofs.«109941_j17609365914550_2_alg».proof.Proof.Kernel.Region1RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in each scratch operand (last store
    first) in this case, with the proof that on whole memrefs, the inputs' at their contents, the body runs to a
    continuation that holds the inputs' as they were and every stored buffer with its pieces written. -/
noncomputable def kernelRun1_B (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32)
    (xs0 : Vec F S2048x1 .f32) (xs1 : Vec F S2048x1 .f32) (xs2 : Vec F S2048x64 .f32) :
    Σ' (L4 : List (View.Piece (Elt F) S1x1x2048x64 .bf16)) (LS0 : List (View.Piece (Elt F) S2048x1 .f32)) (LS1 : List (View.Piece (Elt F) S2048x1 .f32)), { LS2 : List (View.Piece (Elt F) S2048x64 .f32) //
      ∀ (xi4 : Vec F S1x1x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Fr

end
-- ==== Proof.Kernel.Region1RunC.lean ====
/- Region 1, the run of the body where only the second branch condition holds (innermost coordinate 3): the four
   inputs and the three scratch operands (at what the point before left) are loaded, each scratch operand is
   stored whole once, and the quotient of the last two is stored over the whole output window. The run's
   witness is, per stored buffer, the list of pieces its stores wrote. -/
import proofs.«109941_j17609365914550_2_alg».proof.Proof.Kernel.Region1RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in each scratch operand (last store
    first) in this case, with the proof that on whole memrefs, the inputs' at their contents, the body runs to a
    continuation that holds the inputs' as they were and every stored buffer with its pieces written. -/
noncomputable def kernelRun1_C (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32)
    (xs0 : Vec F S2048x1 .f32) (xs1 : Vec F S2048x1 .f32) (xs2 : Vec F S2048x64 .f32) :
    Σ' (L4 : List (View.Piece (Elt F) S1x1x2048x64 .bf16)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Fr

end
-- ==== Proof.Kernel.Region1.lean ====
/- Region 1 (the attention kernel) of the three-kernel program, frame half, the rest: per case of the body's two
   branch conditions, what the stores leave in the output window and in the three scratch operands (the pieces
   read back; the pieces tile, hence cover, each stored buffer); point by point over the 96 grid points, what the
   output window and the scratch operands hold after the body; the region invariant (before the first point the
   class's, afterwards the scratch operands at the previous point's contents); the region's proof data at entry
   contents V; the body obligation; and that the invariant is entered from and returns to the class's. Stated at
   an arbitrary float instance. -/
import proofs.«109941_j17609365914550_2_alg».proof.Proof.Kernel.Region1RunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-- The output window's buffer where only the first condition holds: nothing is stored into it, the window is idle there and is not
    written back; a placeholder (junk read back through no pieces) that nothing consults. -/
def out1_A_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S1x1x2048x64 .bf16 :=
  VO1_4.read (Elt F) (VO1_4.writes (Elt F) VO1_4.junk (kernelRun1_A c i arg3 harg3 arg4 harg4 arg5 harg5 arg6 harg6 arg7 harg7 arg8 harg8 arg9 harg9 arg10 harg10 hc0 hc1 x0 x1 x2 x3).1)

/-- Where only the first condition holds the stores into scratch operand 0 tile it, so their pieces cover it. -/
theorem scover1_A_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) (y : S2048x1.Idx) :
    ∃ pc ∈ (kernelRun1_A c i arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.1 S2048x1.size (by sl_kernel_rfl) y

/-- What the body leaves in scratch operand 0 there: its pieces read back over junk. -/
def sout1_A_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S2048x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).2.1)

/-- Where only the first condition holds the stores into scratch operand 1 tile it, so their pieces cover it. -/
theorem scover1_A_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) (y : S2048x1.Idx) :
    ∃ pc ∈ (kernelRun1_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.1 S2048x1.size (by sl_kernel_rfl) y

/-- What the body leaves in scratch operand 1 there: its pieces read back over junk. -/
def sout1_A_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.2.1)

/-- Where only the first condition holds the stores into scratch operand 2 tile it, so their pieces cover it. -/
theorem scover1_A_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) (y : S2048x64.Idx) :
    ∃ pc ∈ (kernelRun1_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.2.1 S2048x64.size (by sl_kernel_rfl) y

/-- What the body leaves in scratch operand 2 there: its pieces read back over junk. -/
def sout1_A_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S2048x64 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.2.1)

/-- The output window's buffer where neither condition holds: nothing is stored into it, the window is idle there and is not
    written back; a placeholder (junk read back through no pieces) that nothing consults. -/
def out1_B_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S1x1x2048x64 .bf16 :=
  VO1_4.read (Elt F) (VO1_4.writes (Elt F) VO1_4.junk (kernelRun1_B c i arg3 harg3 arg4 harg4 arg5 harg5 arg6 harg6 arg7 harg7 arg8 harg8 arg9 harg9 arg10 harg10 hc0 hc1 x0 x1 x2 x3 xs0 xs1 xs2).1)

/-- Where neither condition holds the stores into scratch operand 0 tile it, so their pieces cover it. -/
theorem scover1_B_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.1 S2048x1.size (by sl_kernel_rfl) y

/-- What the body leaves in scratch operand 0 there: its pieces read back over junk. -/
def sout1_B_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).2.1)

/-- Where neither condition holds the stores into scratch operand 1 tile it, so their pieces cover it. -/
theorem scover1_B_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S2048x1.size (by sl_kernel_rfl) y

/-- What the body leaves in scratch operand 1 there: its pieces read back over junk. -/
def sout1_B_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.2.1)

/-- Where neither condition holds the stores into scratch operand 2 tile it, so their pieces cover it. -/
theorem scover1_B_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x64.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.2.1 S2048x64.size (by sl_kernel_rfl) y

/-- What the body leaves in scratch operand 2 there: its pieces read back over junk. -/
def sout1_B_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.2.1)

/-- Where only the second condition holds the one store into the output window tiles its block, so its pieces cover it. -/
theorem cover1_C_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S1x1x2048x64.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).1 S1x1x2048x64.size (by sl_kernel_rfl) y

/-- What the body leaves in the output window's staging buffer there: its pieces read back over junk. -/
def out1_C_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S1x1x2048x64 .bf16 :=
  VO1_4.read (Elt F) (VO1_4.writes (Elt F) VO1_4.junk (kernelRun1_C c i arg3 harg3 arg4 harg4 arg5 harg5 arg6 harg6 arg7 harg7 arg8 harg8 arg9 harg9 arg10 harg10 hc0 hc1 x0 x1 x2 x3 xs0 xs1 xs2).1)

/-- Where only the second condition holds the stores into scratch operand 0 tile it, so their pieces cover it. -/
theorem scover1_C_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.1 S2048x1.size (by sl_kernel_rfl) y

/-- What the body leaves in scratch operand 0 there: its pieces read back over junk. -/
def sout1_C_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 xs0 xs1 xs2).2.1)

/-- Where only the second condition holds the stores into scratch operand 1 tile it, so their pieces cover it. -/
theorem scover1_C_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.1 S2048x1.size (by sl_kernel_rfl) y

/-- What the body leaves in scratch operand 1 there: its pieces read back over junk. -/
def sout1_C_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 xs0 xs1 xs2).2.2.1)

/-- Where only the second condition holds the stores into scratch operand 2 tile it, so their pieces cover it. -/
theorem scover1_C_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x64.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.2.1 S2048x64.size (by sl_kernel_rfl) y

/-- What the body leaves in scratch operand 2 there: its pieces read back over junk. -/
def sout1_C_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 x3 xs0 xs1 xs2).2.2.2.1)

/-! ## What the output window and the scratch operands hold after each point -/

/-- What the output window's staging buffer and the three scratch operands hold after the body at position `n`
    (a tuple: the output window's buffer, then the scratch operands in order): the case the closed forms select
    at `n`, run at the point's memrefs and input blocks, the scratch operands at what position `n - 1` left in
    them. The two conditions never hold together. -/
def outsAt1 (c : Dev nD) : (n : ℕ) → n < cfg1.N → Vec F S1x1x2048x64 .bf16 × Vec F S2048x1 .f32 × Vec F S2048x1 .f32 × Vec F S2048x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by have hN : n + 1 < 96 := lt_of_lt_of_eq hn (show cfg1.N = 96 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point where only the first condition holds. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point where neither condition holds: over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point where only the second condition holds: over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant point by point -/

/-- The region invariant before position `n`: before the first point the class's (every scoped buffer that is no
    staging buffer of this region at some contents, and the generator register at some state); afterwards each of
    the three scratch operands at what the point before left in it, the other regions' buffers at some contents,
    and the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)
      ∗ others1 c ∗ (∃ r, prngReg c r))

theorem PhiS1_zero (c : Dev nD) (n : ℕ) (h : n ≤ cfg1.N) (hz : n = 0) : PhiS1 V c n h = Pipeline.ΦA spec1 c := by
  subst hz; rfl

/-- After point `n`: the scratch operands at that point's contents. -/
theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)
      ∗ others1 c ∗ (∃ r, prngReg c r)) := rfl

/-- Before a point that is not the first: the scratch operands at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)
      ∗ others1 c ∗ (∃ r, prngReg c r)) := by
  cases n with
  | zero => exact absurd rfl hz
  | succ n => rfl

/-! ## The region's proof data -/

/-- The proof data of the region on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the scratch operands at what the point before left (at anything at the first
    point) and takes them back at this point's contents, their pieces covering them; the other regions' buffers,
    the generator register and what the core owes pass through untouched; where the output window is idle its
    buffer is handed back as found, where it is stored its pieces cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        icases (PhiA1_split c) $$ HΦ with ⟨HS0, HS1, HS2, Hr, Hg⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HS0, HS1, HS2, Hr, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨HS0, HS1, HS2, Hr, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨HS0, HS1, HS2, Hr, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch operands' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HS1, HS2, Hr, Hg⟩
  iapply (PhiA1_join c)
  isplitl [HS0]; · iexists _; iexact HS0
  isplitl [HS1]; · iexists _; iexact HS1
  isplitl [HS2]; · iexists _; iexact HS2
  isplitl [Hr]; · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Region1

end Cert.Kernel.Fr

end
-- ==== Proof.Kernel.Region2Runs.lean ====
/- Region 2 of the three-region attention layer, the output projection: over the grid (2, 4, 12) it accumulates,
   in a scratch buffer carried from point to point, the products of the attention output's blocks with the weight's
   blocks, clearing the scratch where the last grid coordinate is 0 and, where it is 11, adding the bias row and
   storing the sum into the output block. This module holds what the three control cases share: each window's block
   read off the array contents found at the region's entry; the two branch conditions in closed form over the 96
   points; where the output window is idle and where it is written back; the staging and scratch memrefs; and the
   region's invariant with the scratch buffer split out of the core's other scoped buffers. Everything is stated at
   any float instance and at arbitrary entry contents. -/
import proofs.«109941_j17609365914550_2_alg».proof.Proof.Gen.Kernel.Launch
import proofs.«109941_j17609365914550_2_alg».proof.Proof.Gen.Kernel.Skeleton
import proofs.«109941_j17609365914550_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (where it did not, the block index has not moved), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (where it did not, the block index has not moved), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (where it did not, the block index has not moved), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first branch condition: the last grid coordinate is 0 (the scalar chain the body computes, substituted). -/
abbrev cond2_0 (i : grid2.Coords) : Prop := (Scalar.cmpi .ne (Scalar.extui (Scalar.cmpi .eq (BitVec.ofNat 32 (i 2).val) 0#32)) 0#32) = 1#1
/-- It holds exactly at the points ≡ 0 (mod 12). -/
theorem hcond2_0 : ∀ t : Fin cfg2.N, cond2_0 (grid2.coords t) ↔ t.val % 12 = 0 :=
  (by decide +kernel : ∀ t : Fin grid2.N, cond2_0 (grid2.coords t) ↔ t.val % 12 = 0)

/-- The second branch condition: the last grid coordinate is 11. -/
abbrev cond2_1 (i : grid2.Coords) : Prop := k2_cond2 i = 1#1
/-- It holds exactly at the points ≡ 11 (mod 12). -/
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where only the first condition holds the output window is idle: nothing is stored into it, -/
theorem idleAt2_3_A : ∀ t : Fin cfg2.N, cond2_0 (grid2.coords t) → ¬cond2_1 (grid2.coords t) → cfg2.idle 3 (grid2.coords t) = true := by decide +kernel
/-- and its block is not written back. -/
theorem noFlush2_3_A : ∀ t : Fin cfg2.N, cond2_0 (grid2.coords t) → ¬cond2_1 (grid2.coords t) → (cfg2.win 3).flush t = false := by decide +kernel
/-- Where neither condition holds the output window is idle, -/
theorem idleAt2_3_B : ∀ t : Fin cfg2.N, ¬cond2_0 (grid2.coords t) → ¬cond2_1 (grid2.coords t) → cfg2.idle 3 (grid2.coords t) = true := by decide +kernel
/-- and its block is not written back. -/
theorem noFlush2_3_B : ∀ t : Fin cfg2.N, ¬cond2_0 (grid2.coords t) → ¬cond2_1 (grid2.coords t) → (cfg2.win 3).flush t = false := by decide +kernel
/-- Where only the second condition holds the output window is live: the body stores its block. -/
theorem liveAt2_3_C : ∀ t : Fin cfg2.N, ¬cond2_0 (grid2.coords t) → cond2_1 (grid2.coords t) → cfg2.idle 3 (grid2.coords t) = false := by decide +kernel

/-! ## The staging and scratch memrefs -/

/-- One staging buffer of the output window, through which its contents are stated (which one does not matter:
    a whole buffer covered by the pieces written reads back the same through any view of its shape). -/
abbrev VO2_3 : View sig .tc .vmem S1x512x768 .f32 := (Memref.whole cc2_stg3_0 : Memref sig .tc .vmem S1x512x768 .f32).view
/-- Each window's current staging memref at point `t`, as the pipeline passes it to the body, and its wholeness. -/
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x768 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x768 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x768 .f32 := win2_3.stage (cfg2.slots t 3)
abbrev hs2_3 (t : Fin cfg2.N) : (ms2_3 t).IsWhole := hstage2_3 ((cfg2.slots t 3).cast nbuf2_3)
/-- The scratch operand: a whole scoped buffer of the region's own, passed beside the windows. -/
abbrev scM2_0 : Memref sig .tc .vmem S512x768 .f32 := Memref.whole cc2_scratch0
/-- The same as a view: what the scratch holds between points is stated through it. -/
abbrev VS2_0 : View sig .tc .vmem S512x768 .f32 := scM2_0.view

/-! ## The region's invariant, the scratch split out -/

/-- The core's scoped buffers that belong to the other two regions (their staging buffers and scratch), each whole
    at some contents: region 2 never touches them. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- Two assertions that entail each other are equal (assertions are predicates on resources, compared pointwise). -/
theorem eq_of_entails2 {P Q : sProp 𝕄} (h1 : P ⊢ Q) (h2 : Q ⊢ P) : P = Q :=
  Idealize.SL.BI.Entails.antisymm h1 h2

/-- What the launch hands the region — every scoped buffer that is no staging buffer of region 2 at some contents,
    and the generator register at some state — with the scratch operand as a memref owned at some contents, first. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA; rw [scopedRest2_eq]; unfold others2; simp only [scM2_0, owns_whole]
  refine eq_of_entails2 ?_ ?_
  · iintro ⟨⟨HR0, HR1, HR2, HR3, HR4, HR5, HR6, HR7, HR8, HR9, HR10, HR11, HR12, HR13, HR14, HR15, HR16, HR17, HR18, HR19, HR20, HR21, HR22, HS0⟩, Hg⟩
    isplitr [Hg]
    · isplitl [HS0]; · iexact HS0
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexact HR22
    iexact Hg
  · iintro ⟨⟨HS0, HR0, HR1, HR2, HR3, HR4, HR5, HR6, HR7, HR8, HR9, HR10, HR11, HR12, HR13, HR14, HR15, HR16, HR17, HR18, HR19, HR20, HR21, HR22⟩, Hg⟩
    isplitr [Hg]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      iexact HS0
    iexact Hg

end Cert.Kernel.Fr

end
-- ==== Proof.Kernel.Region2RunA.lean ====
/- Region 2's body where the last grid coordinate is 0 (and is not 11): the scratch is cleared, the product of the
   attention block with the weight block is added to it, and nothing is stored into the output block. The body's
   triple on arbitrary whole memrefs, found by symbolic execution: the witness is the list of pieces each buffer ends
   with (none for the output, two for the scratch). -/
import proofs.«109941_j17609365914550_2_alg».proof.Proof.Kernel.Region2Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole memrefs — the inputs' at contents `x·`, the output's at contents `xi3` handed back untouched, the scratch
    at anything — the body, both conditions decided (`hc0`, `hc1`), runs to a continuation that is given the inputs' and
    the output's as they were and the scratch with the pieces `LS0` written over what it held. -/
noncomputable def kernelRun2_A (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) :
    Σ' (L3 : List (View.Piece (Elt F) S1x512x768 .f32)), { LS0 : List (View.Piece (Elt F) S512x768 .f32) //
      ∀ (xi3 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.Kernel.Region2RunB.lean ====
/- Region 2's body where the last grid coordinate is neither 0 nor 11: the product of the attention block with the
   weight block is added to what the scratch held after the point before, and nothing is stored into the output block.
   The body's triple on arbitrary whole memrefs, found by symbolic execution: the witness is the list of pieces each
   buffer ends with (none for the output, one for the scratch). -/
import proofs.«109941_j17609365914550_2_alg».proof.Proof.Kernel.Region2RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole memrefs — the inputs' at contents `x·`, the output's at contents `xi3` handed back untouched, the scratch
    at the contents `xs0` the point before left — the body, both conditions decided, runs to a continuation that is
    given the inputs' and the output's as they were and the scratch with the pieces `LS0` written. -/
noncomputable def kernelRun2_B (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) :
    Σ' (L3 : List (View.Piece (Elt F) S1x512x768 .f32)), { LS0 : List (View.Piece (Elt F) S512x768 .f32) //
      ∀ (xi3 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.Kernel.Region2RunC.lean ====
/- Region 2's body where the last grid coordinate is 11 (and is not 0): the product of the attention block with the
   weight block is added to what the scratch held after the point before, and the sum plus the bias row is stored
   into the output block. The body's triple on arbitrary whole memrefs, found by symbolic execution: the witness is
   the list of pieces each buffer ends with (one for the output, one for the scratch). -/
import proofs.«109941_j17609365914550_2_alg».proof.Proof.Kernel.Region2RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole memrefs — the inputs' at contents `x·`, the output's at anything, the scratch at the contents `xs0` the
    point before left — the body, both conditions decided, runs to a continuation that is given the inputs' as they
    were, the output's with the pieces `L3` written and the scratch with the pieces `LS0` written. -/
noncomputable def kernelRun2_C (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) :
    Σ' (L3 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨?_, ?_, fun E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.Kernel.Region2.lean ====
/- Region 2 of the three-region attention layer (the output projection), the rest of its frame half: what each
   control case leaves in the output block and in the carried scratch, as the pieces the runs found read back; the
   accumulation point by point over the 96 points of the grid (at each point the case its position modulo 12 selects,
   run over what the point before left in the scratch); the invariant between points (the scratch at that value, the
   other regions' scoped buffers and the generator register at anything); the pipeline's proof data at arbitrary entry
   contents; and the body obligation: at every point the body, called on the current staging buffers holding the input
   blocks, leaves the inputs in place, the output block stored where the last grid coordinate is 11 and untouched
   elsewhere, and the invariant advanced by one point. -/
import proofs.«109941_j17609365914550_2_alg».proof.Proof.Kernel.Region2RunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where only the first condition holds nothing is stored into the output block: no pieces. Read back over junk this is a placeholder
    nothing consults, the window being neither written back at these points nor read at the next. -/
def out2_A_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) : Vec F S1x512x768 .f32 :=
  VO2_3.read (Elt F) (VO2_3.writes (Elt F) VO2_3.junk (kernelRun2_A c i arg3 harg3 arg4 harg4 arg5 harg5 arg6 harg6 arg7 harg7 hc0 hc1 x0 x1 x2).1)

/-- The pieces stored into the scratch where only the first condition holds tile it, so they cover it. -/
theorem scover2_A_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) (y : S512x768.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x768.size (by sl_kernel_rfl) y

/-- What the body leaves in the scratch there: its pieces read back over junk. -/
def sout2_A_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) : Vec F S512x768 .f32 :=
  VS2_0.read (Elt F) (VS2_0.writes (Elt F) VS2_0.junk (kernelRun2_A c i arg3 harg3 arg4 harg4 arg5 harg5 arg6 harg6 arg7 harg7 hc0 hc1 x0 x1 x2).2.1)

/-- Where neither condition holds nothing is stored into the output block: no pieces. Read back over junk this is a placeholder
    nothing consults, the window being neither written back at these points nor read at the next. -/
def out2_B_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) : Vec F S1x512x768 .f32 :=
  VO2_3.read (Elt F) (VO2_3.writes (Elt F) VO2_3.junk (kernelRun2_B c i arg3 harg3 arg4 harg4 arg5 harg5 arg6 harg6 arg7 harg7 hc0 hc1 x0 x1 x2 xs0).1)

/-- The pieces stored into the scratch where neither condition holds tile it, so they cover it. -/
theorem scover2_B_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) (y : S512x768.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x768.size (by sl_kernel_rfl) y

/-- What the body leaves in the scratch there: its pieces read back over junk. -/
def sout2_B_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) : Vec F S512x768 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- Where only the second condition holds the one piece stored into the output block tiles it, so it covers it. -/
theorem cover2_C_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) (y : S1x512x768.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x512x768.size (by sl_kernel_rfl) y

/-- What the body leaves in the output block there: its pieces read back over junk. -/
def out2_C_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) : Vec F S1x512x768 .f32 :=
  VO2_3.read (Elt F) (VO2_3.writes (Elt F) VO2_3.junk (kernelRun2_C c i arg3 harg3 arg4 harg4 arg5 harg5 arg6 harg6 arg7 harg7 hc0 hc1 x0 x1 x2 xs0).1)

/-- The pieces stored into the scratch where only the second condition holds tile it, so they cover it. -/
theorem scover2_C_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) (y : S512x768.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x768.size (by sl_kernel_rfl) y

/-- What the body leaves in the scratch there: its pieces read back over junk. -/
def sout2_C_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) : Vec F S512x768 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output block and the scratch hold after each point -/

/-- The accumulation: what the output's staging buffer and the carried scratch hold after the body at position `n`
    (a pair: the output, then the scratch) — the case `n` modulo 12 selects, run at the point's memrefs and input
    blocks, over the scratch as position `n - 1` left it. Both conditions at once is no case. -/
def outsAt2 (c : Dev nD) : (n : ℕ) → n < cfg2.N → Vec F S1x512x768 .f32 × Vec F S512x768 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 12 = 0 then
      if h1 : (n + 1) % 12 = 11 then
        False.elim (by have hN : n + 1 < 96 := lt_of_lt_of_eq hn (show cfg2.N = 96 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 12 = 11 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point ≡ 0 (mod 12): the first case's contents. -/
theorem outsAt2_A (c : Dev nD) (t : Fin cfg2.N) (h0 : t.val % 12 = 0) (h1 : ¬t.val % 12 = 11) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point ≡ 1, …, 10 (mod 12): the middle case's contents, over what the point before left. -/
theorem outsAt2_B (c : Dev nD) (t : Fin cfg2.N) (h0 : ¬t.val % 12 = 0) (h1 : ¬t.val % 12 = 11) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point ≡ 11 (mod 12): the last case's contents, over what the point before left. -/
theorem outsAt2_C (c : Dev nD) (t : Fin cfg2.N) (h0 : ¬t.val % 12 = 0) (h1 : t.val % 12 = 11) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant before position `n`: before the first point what the launch hands the region (every scoped
    buffer outside its staging at anything, the generator register at some state); afterwards the scratch at what the
    point before left in it, the other regions' scoped buffers at anything, the register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

/-- After point `n`: the scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The pipeline's proof data -/

/-- The proof data of region 2's pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the point's position modulo 12 says which case it is
    in, so that case's run applies; the invariant hands the body the scratch at what the point before left (at anything
    at the first point) and takes it back at this point's contents, the pieces covering it; the other regions' buffers,
    the generator register and the core's dues pass through untouched; the output block is handed back as found where
    it is idle, and with its piece written (which covers it) where it is stored. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 96 := lt_of_lt_of_eq t.isLt (show cfg2.N = 96 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 12 = 0
  · by_cases h1 : t.val % 12 = 11
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 12 = 11
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the scratch's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitr [Hg]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 96 := N_2; omega)

end Cert.Kernel.Fr

end
-- ==== Proof.Kernel.Frame.lean ====
/- The program's frame and the run with its result named. The three regions' proof data meet what the run of the whole
   program asks of them, so every weakly fair execution terminates without a fault with every unscoped buffer at the last
   contents of the fold through the program; read at the six argument arrays, those contents are the launch memory's. -/
import proofs.«109941_j17609365914550_2_alg».proof.Proof.Kernel.Run
import proofs.«109941_j17609365914550_2_alg».proof.Proof.Kernel.Region1
import proofs.«109941_j17609365914550_2_alg».proof.Proof.Kernel.Region2

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

/-- Region 1's proof data meet the run's requirements. -/
theorem good1 : Good1 (F := F) (fun V c => dat1 V c) where
  hA := A_eq1
  hq := fun _ _ _ => rfl
  howed := fun _ _ _ => rfl
  hrec := fun _ _ _ => rfl
  hbody := body_obligation1
  hin := hin1
  hout := hout1

/-- Region 2's proof data meet the run's requirements. -/
theorem good2 : Good2 (F := F) (fun V c => dat2 V c) where
  hA := A_eq2
  hq := fun _ _ _ => rfl
  howed := fun _ _ _ => rfl
  hrec := fun _ _ _ => rfl
  hbody := body_obligation2
  hin := hin2
  hout := hout2

variable (m : (ℓ : Loc nD τ sig) → Buf (Elt F) ℓ) (ρ : Dev nD → PrngReg)

/-- The contents every unscoped buffer ends at. -/
abbrev Wend : Dev nD → Valuation τ sig (Elt F) := W6 (fun V c => dat1 V c) (fun V c => dat2 V c) m ρ

/-- THE RUN of the whole program: it terminates, nothing faults, and every unscoped buffer ends at `Wend`. -/
theorem run_named : θ_run defs (onTc (τ := τ) (main (F := F))) ⟨m, fun _ => 0, ρ⟩
    (fun r => ∀ c : Dev nD, ∀ b ∈ Pipeline.ucRefs τ sig, r.2.mem (((c : Thread nD τ)).1, b) = Wend m ρ c b) :=
  run_all (fun V c => dat1 V c) (fun V c => dat2 V c) m ρ good1 good2

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 (fun V c => dat1 V c) (fun V c => dat2 V c) m ρ c),
      (h c _ (mem_uc main_arg1 (by decide))).trans (W6_main_arg1 (fun V c => dat1 V c) (fun V c => dat2 V c) m ρ c),
      (h c _ (mem_uc main_arg2 (by decide))).trans (W6_main_arg2 (fun V c => dat1 V c) (fun V c => dat2 V c) m ρ c),
      (h c _ (mem_uc main_arg3 (by decide))).trans (W6_main_arg3 (fun V c => dat1 V c) (fun V c => dat2 V c) m ρ c),
      (h c _ (mem_uc main_arg4 (by decide))).trans (W6_main_arg4 (fun V c => dat1 V c) (fun V c => dat2 V c) m ρ c),
      (h c _ (mem_uc main_arg5 (by decide))).trans (W6_main_arg5 (fun V c => dat1 V c) (fun V c => dat2 V c) m ρ c)⟩)
    (run_named m ρ)

end Cert.Kernel.Fr

end
-- ==== Proof.KernelIdeal.Region0.lean ====
/- Region 0, the fused q/k/v projection: at every grid point (b, s) the body reads a 256-row block of the input, the whole
   768 × 2304 weight and the bias row, forms block · weight + bias once, and writes its three 768-column thirds, each split
   into 12 heads of 64 and re-laid head-major, into the q, k and v blocks. Stated here, for any contents `V` of the core's
   buffers at the region's entry and at every float instance: what each output block holds after the body as a function of
   the three input blocks, and that the body's run at a point is exactly that. -/
import proofs.«109941_j17609365914550_2_alg».proof.Proof.Gen.KernelIdeal.Launch
import proofs.«109941_j17609365914550_2_alg».proof.Proof.Gen.KernelIdeal.Skeleton
import proofs.«109941_j17609365914550_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block's staging buffer holds the block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the weight, fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the bias row, fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev rX0 : Rect S1x256x768 := Rect.unit (s := S1x256x768) ![0, 0, 0] S1x256x768.size inb_S1x256x768_S1x256x768_0_0_0
abbrev rW0 : Rect S768x2304 := Rect.unit (s := S768x2304) ![0, 0] S768x2304.size inb_S768x2304_S768x2304_0_0
abbrev rB0 : Rect S1x2304 := Rect.unit (s := S1x2304) ![0, 0] S1x2304.size inb_S1x2304_S1x2304_0_0
abbrev rO0 : Rect S1x12x256x64 := Rect.unit (s := S1x12x256x64) ![0, 0, 0, 0] S1x12x256x64.size inb_S1x12x256x64_S1x12x256x64_0_0_0_0

/-! ## What the body leaves in each output block -/

/-- The q block after the body: one whole store of the first third, split into heads. -/
def out0_3 (x0 : Vec F S1x256x768 .f32) (x1 : Vec F S768x2304 .bf16) (x2 : Vec F S1x2304 .f32) : Vec F S1x12x256x64 .bf16 :=
  View.canon [⟨rO0, k0_pay2 (View.ld x0 rX0) (View.ld x1 rW0) (View.ld x2 rB0)⟩]
/-- The k block: the second third. -/
def out0_4 (x0 : Vec F S1x256x768 .f32) (x1 : Vec F S768x2304 .bf16) (x2 : Vec F S1x2304 .f32) : Vec F S1x12x256x64 .bf16 :=
  View.canon [⟨rO0, k0_pay3 (View.ld x0 rX0) (View.ld x1 rW0) (View.ld x2 rB0)⟩]
/-- The v block: the last third. -/
def out0_5 (x0 : Vec F S1x256x768 .f32) (x1 : Vec F S768x2304 .bf16) (x2 : Vec F S1x2304 .f32) : Vec F S1x12x256x64 .bf16 :=
  View.canon [⟨rO0, k0_pay4 (View.ld x0 rX0) (View.ld x1 rW0) (View.ld x2 rB0)⟩]

/-- One whole store covers the block. -/
theorem cover0_O (p0 : Vec F S1x12x256x64 .bf16) (y : S1x12x256x64.Idx) :
    ∃ pc ∈ ([⟨rO0, p0⟩] : List (View.Piece (Elt F) S1x12x256x64 .bf16)), y ∈ pc.1.set :=
  View.cover_of_tiled [⟨rO0, p0⟩] S1x12x256x64.size (by rfl) y

/-! ## The body's triple -/

set_option maxHeartbeats 1000000 in
/-- The body on whole staging memrefs, the inputs' at contents `x0 x1 x2` and the outputs' at anything, runs to the
    continuation holding the inputs' as they were and the three outputs' at `out0_3 / out0_4 / out0_5` of the inputs'. -/
theorem sound_kernel0 (c : Dev nD) (E : Set ℕ) (i : grid0.Coords)
    (arg2 : Memref sig .tc .vmem S1x256x768 .f32) (harg2 : arg2.IsWhole) (arg3 : Memref sig .tc .vmem S768x2304 .bf16) (harg3 : arg3.IsWhole)
    (arg4 : Memref sig .tc .vmem S1x2304 .f32) (harg4 : arg4.IsWhole) (arg5 : Memref sig .tc .vmem S1x12x256x64 .bf16) (harg5 : arg5.IsWhole)
    (arg6 : Memref sig .tc .vmem S1x12x256x64 .bf16) (harg6 : arg6.IsWhole) (arg7 : Memref sig .tc .vmem S1x12x256x64 .bf16) (harg7 : arg7.IsWhole)
    (x0 : Vec F S1x256x768 .f32) (x1 : Vec F S768x2304 .bf16) (x2 : Vec F S1x2304 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_O _)
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The region's proof data -/

/-- The proof data of the region on core `c`: the arrays as the region finds them; after the body at point `t` each
    input's buffer still at its block and the q, k, v buffers at the body's results on the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Run.lean ====
/- The whole program as a run: three stretches of host operations (transposes and casts of the two weights, reshapes of
   the two biases, the additive key bias from the mask) alternate with the three kernel regions. Between two items a core
   holds every unscoped buffer at contents computed from the launch memory: a host stretch applies its operations, a region
   replaces each of its windows' arrays by what its write-backs leave and touches nothing else. Regions 1 and 2 enter only
   through the facts a region's proof data must satisfy (arrays read off the entry contents, full shares, nothing owed, the
   body obligation, the invariant in and out), so this module is independent of how those are proved. The run ends with every
   unscoped buffer at the last contents; the six argument arrays walk back through the items to the launch memory. -/
import proofs.«109941_j17609365914550_2_alg».proof.Proof.KernelIdeal.Region0
import proofs.«109941_j17609365914550_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Nothing owed, into and out of a region's dues -/

/-- A core that owes nothing meets the dues of proof data that owe nothing and bound nothing at `t`. -/
theorem owesAt_of_zero {cfg : Cfg sig Λ₀} {c : Dev nD} (dat : Dat τ (Elt F) Unit ℕ (UR sig nD τ) ℕ cfg c) (t : Fin (cfg.N + 1))
    (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound; rw [h, hr]
  iintro ⟨%W, HO⟩; iexists W; isplitr; · ipureintro; exact fun _ _ => Or.inl trivial
  iexact HO

/-- And the dues of proof data that owe nothing at `t` leave the core owing nothing. -/
theorem zero_of_owesAt {cfg : Cfg sig Λ₀} {c : Dev nD} (dat : Dat τ (Elt F) Unit ℕ (UR sig nD τ) ℕ cfg c) (t : Fin (cfg.N + 1))
    (h : dat.owed t = 0) :
    dat.owesAt () t ⊢ (iprop(∃ W, owes (c : Thread nD τ) (0 : CellTallies nD τ sig Unit) W) : sProp 𝕄) := by
  unfold Pipeline.Dat.owesAt Pipeline.owesWithin; rw [h]
  iintro ⟨%W, -, HO⟩; iexists W; iexact HO

/-! ## What a region's proof data must satisfy -/

/-- Region 1's proof data, as a function of the entry contents, is good: its arrays are read off the entry contents, it
    holds full shares and owes nothing, the body meets its obligation at every point, and its invariant is entered from and
    left to the scoped rest beside the generator register. -/
structure Good1 (D1 : ((c : Dev nD) → (b : Ref sig .tc) → Buf (Elt F) ((c : Thread nD τ).loc b)) → (c : Dev nD) → Dat τ (Elt F) Unit ℕ (UR sig nD τ) ℕ cfg1 c) : Prop where
  hA : ∀ V c w, (D1 V c).A w = V c (Pipeline.arrRef spec1 w)
  hq : ∀ V c w, (D1 V c).q w = fullShare
  howed : ∀ V c t, (D1 V c).owed t = 0
  hrec : ∀ V c t, (D1 V c).recorded t = Set.univ
  hbody : ∀ V c, BodyObligation (D1 V c) (defs₀ (F := F)) Variants.none () Set.univ
  hin : ∀ V c, Pipeline.ΦA spec1 c ⊢ (D1 V c).Φ 0
  hout : ∀ V c, (D1 V c).Φ (Fin.last cfg1.N) ⊢ Pipeline.ΦA spec1 c

/-- The same for region 2. -/
structure Good2 (D2 : ((c : Dev nD) → (b : Ref sig .tc) → Buf (Elt F) ((c : Thread nD τ).loc b)) → (c : Dev nD) → Dat τ (Elt F) Unit ℕ (UR sig nD τ) ℕ cfg2 c) : Prop where
  hA : ∀ V c w, (D2 V c).A w = V c (Pipeline.arrRef spec2 w)
  hq : ∀ V c w, (D2 V c).q w = fullShare
  howed : ∀ V c t, (D2 V c).owed t = 0
  hrec : ∀ V c t, (D2 V c).recorded t = Set.univ
  hbody : ∀ V c, BodyObligation (D2 V c) (defs₀ (F := F)) Variants.none () Set.univ
  hin : ∀ V c, Pipeline.ΦA spec2 c ⊢ (D2 V c).Φ 0
  hout : ∀ V c, (D2 V c).Φ (Fin.last cfg2.N) ⊢ Pipeline.ΦA spec2 c

variable (D1 : ((c : Dev nD) → (b : Ref sig .tc) → Buf (Elt F) ((c : Thread nD τ).loc b)) → (c : Dev nD) → Dat τ (Elt F) Unit ℕ (UR sig nD τ) ℕ cfg1 c)
variable (D2 : ((c : Dev nD) → (b : Ref sig .tc) → Buf (Elt F) ((c : Thread nD τ).loc b)) → (c : Dev nD) → Dat τ (Elt F) Unit ℕ (UR sig nD τ) ℕ cfg2 c)
variable (m : (ℓ : Loc nD τ sig) → Buf (Elt F) ℓ) (ρ : Dev nD → PrngReg)

/-! ## The buffer contents between items: a fold through the program -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1. -/
def W4 (c : Dev nD) : Valuation τ sig (Elt F) :=
  Pipeline.withArrays spec1 c (W3 m ρ c) fun w => (D1 (V3 m ρ) c).arrAt w cfg1.N
theorem W4_arr (c : Dev nD) (w : Fin cfg1.W) :
    W4 D1 m ρ c (Proc.devRef .tc (Pipeline.arrRef spec1 w)) = (D1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 D1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 D1 m ρ c b
theorem hF1 (c : Dev nD) (w : Fin cfg1.W) : (D1 (V3 m ρ) c).arrAt w cfg1.N = V4 D1 m ρ c (Pipeline.arrRef spec1 w) :=
  (W4_arr D1 m ρ c w).symm
theorem hrest1 (c : Dev nD) : ∀ b, b ∉ Finset.univ.image (Pipeline.arrRef spec1) → V4 D1 m ρ c b = V3 m ρ c b :=
  fun b hb => W4_of_ne D1 m ρ c b fun w e => hb (Finset.mem_image.mpr ⟨w, Finset.mem_univ _, e⟩)

/-- After the third host stretch (region 2's entry). -/
abbrev W5 : Dev nD → Valuation τ sig (Elt F) := fun c => StableHlo.after hostOps2 (W4 D1 m ρ c)
abbrev V5 : (c : Dev nD) → (b : Ref sig .tc) → Buf (Elt F) ((c : Thread nD τ).loc b) := fun c b => W5 D1 m ρ c b
/-- After region 2: the program's end. -/
def W6 (c : Dev nD) : Valuation τ sig (Elt F) :=
  Pipeline.withArrays spec2 c (W5 D1 m ρ c) fun w => (D2 (V5 D1 m ρ) c).arrAt w cfg2.N
theorem W6_arr (c : Dev nD) (w : Fin cfg2.W) :
    W6 D1 D2 m ρ c (Proc.devRef .tc (Pipeline.arrRef spec2 w)) = (D2 (V5 D1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 D1 D2 m ρ c (Proc.devRef .tc b) = W5 D1 m ρ c (Proc.devRef .tc b) := by
  unfold W6; exact Pipeline.withArrays_of_ne spec2 c _ _ b hb
abbrev V6 : (c : Dev nD) → (b : Ref sig .tc) → Buf (Elt F) ((c : Thread nD τ).loc b) := fun c b => W6 D1 D2 m ρ c b
theorem hF2 (c : Dev nD) (w : Fin cfg2.W) : (D2 (V5 D1 m ρ) c).arrAt w cfg2.N = V6 D1 D2 m ρ c (Pipeline.arrRef spec2 w) :=
  (W6_arr D1 D2 m ρ c w).symm
theorem hrest2 (c : Dev nD) : ∀ b, b ∉ Finset.univ.image (Pipeline.arrRef spec2) → V6 D1 D2 m ρ c b = V5 D1 m ρ c b :=
  fun b hb => W6_of_ne D1 D2 m ρ c b fun w e => hb (Finset.mem_image.mpr ⟨w, Finset.mem_univ _, e⟩)

/-! ### The arguments end as launched: no host operation writes one, region 0 reads the input through a window and every
    other region bypasses them -/

theorem W6_main_arg0 (c : Dev nD) : W6 D1 D2 m ρ c (Proc.devRef .tc main_arg0) = m ((c : Thread nD τ).loc main_arg0) :=
  calc W6 D1 D2 m ρ c (Proc.devRef .tc main_arg0)
    _ = W5 D1 m ρ c (Proc.devRef .tc main_arg0) := W6_of_ne D1 D2 m ρ c main_arg0 (by decide)
    _ = W4 D1 m ρ c (Proc.devRef .tc main_arg0) := StableHlo.after_of_writes_sub hostOps2 _ hostOps2_writes (show (main_arg0 : Ref sig .tc) ∉ hostOps2_W from by decide)
    _ = W3 m ρ c (Proc.devRef .tc main_arg0) := W4_of_ne D1 m ρ c main_arg0 (by decide)
    _ = W2 m ρ c (Proc.devRef .tc main_arg0) := StableHlo.after_of_writes_sub hostOps1 _ hostOps1_writes (show (main_arg0 : Ref sig .tc) ∉ hostOps1_W from by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (show (main_arg0 : Ref sig .tc) ∉ hostOps0_W from by decide)
    _ = m ((c : Thread nD τ).loc main_arg0) := rfl

theorem W6_main_arg1 (c : Dev nD) : W6 D1 D2 m ρ c (Proc.devRef .tc main_arg1) = m ((c : Thread nD τ).loc main_arg1) :=
  calc W6 D1 D2 m ρ c (Proc.devRef .tc main_arg1)
    _ = W5 D1 m ρ c (Proc.devRef .tc main_arg1) := W6_of_ne D1 D2 m ρ c main_arg1 (by decide)
    _ = W4 D1 m ρ c (Proc.devRef .tc main_arg1) := StableHlo.after_of_writes_sub hostOps2 _ hostOps2_writes (show (main_arg1 : Ref sig .tc) ∉ hostOps2_W from by decide)
    _ = W3 m ρ c (Proc.devRef .tc main_arg1) := W4_of_ne D1 m ρ c main_arg1 (by decide)
    _ = W2 m ρ c (Proc.devRef .tc main_arg1) := StableHlo.after_of_writes_sub hostOps1 _ hostOps1_writes (show (main_arg1 : Ref sig .tc) ∉ hostOps1_W from by decide)
    _ = W1 m ρ c (Proc.devRef .tc main_arg1) := W2_of_ne m ρ c main_arg1 (by decide)
    _ = W0 m ρ c (Proc.devRef .tc main_arg1) := StableHlo.after_of_writes_sub hostOps0 _ hostOps0_writes (show (main_arg1 : Ref sig .tc) ∉ hostOps0_W from by decide)
    _ = m ((c : Thread nD τ).loc main_arg1) := rfl

theorem W6_main_arg2 (c : Dev nD) : W6 D1 D2 m ρ c (Proc.devRef .tc main_arg2) = m ((c : Thread nD τ).loc main_arg2) :=
  calc W6 D1 D2 m ρ c (Proc.devRef .tc main_arg2)
    _ = W5 D1 m ρ c (Proc.devRef .tc main_arg2) := W6_of_ne D1 D2 m ρ c main_arg2 (by decide)
    _ = W4 D1 m ρ c (Proc.devRef .tc main_arg2) := StableHlo.after_of_writes_sub hostOps2 _ hostOps2_writes (show (main_arg2 : Ref sig .tc) ∉ hostOps2_W from by decide)
    _ = W3 m ρ c (Proc.devRef .tc main_arg2) := W4_of_ne D1 m ρ c main_arg2 (by decide)
    _ = W2 m ρ c (Proc.devRef .tc main_arg2) := StableHlo.after_of_writes_sub hostOps1 _ hostOps1_writes (show (main_arg2 : Ref sig .tc) ∉ hostOps1_W from by decide)
    _ = W1 m ρ c (Proc.devRef .tc main_arg2) := W2_of_ne m ρ c main_arg2 (by decide)
    _ = W0 m ρ c (Proc.devRef .tc main_arg2) := StableHlo.after_of_writes_sub hostOps0 _ hostOps0_writes (show (main_arg2 : Ref sig .tc) ∉ hostOps0_W from by decide)
    _ = m ((c : Thread nD τ).loc main_arg2) := rfl

theorem W6_main_arg3 (c : Dev nD) : W6 D1 D2 m ρ c (Proc.devRef .tc main_arg3) = m ((c : Thread nD τ).loc main_arg3) :=
  calc W6 D1 D2 m ρ c (Proc.devRef .tc main_arg3)
    _ = W5 D1 m ρ c (Proc.devRef .tc main_arg3) := W6_of_ne D1 D2 m ρ c main_arg3 (by decide)
    _ = W4 D1 m ρ c (Proc.devRef .tc main_arg3) := StableHlo.after_of_writes_sub hostOps2 _ hostOps2_writes (show (main_arg3 : Ref sig .tc) ∉ hostOps2_W from by decide)
    _ = W3 m ρ c (Proc.devRef .tc main_arg3) := W4_of_ne D1 m ρ c main_arg3 (by decide)
    _ = W2 m ρ c (Proc.devRef .tc main_arg3) := StableHlo.after_of_writes_sub hostOps1 _ hostOps1_writes (show (main_arg3 : Ref sig .tc) ∉ hostOps1_W from by decide)
    _ = W1 m ρ c (Proc.devRef .tc main_arg3) := W2_of_ne m ρ c main_arg3 (by decide)
    _ = W0 m ρ c (Proc.devRef .tc main_arg3) := StableHlo.after_of_writes_sub hostOps0 _ hostOps0_writes (show (main_arg3 : Ref sig .tc) ∉ hostOps0_W from by decide)
    _ = m ((c : Thread nD τ).loc main_arg3) := rfl

theorem W6_main_arg4 (c : Dev nD) : W6 D1 D2 m ρ c (Proc.devRef .tc main_arg4) = m ((c : Thread nD τ).loc main_arg4) :=
  calc W6 D1 D2 m ρ c (Proc.devRef .tc main_arg4)
    _ = W5 D1 m ρ c (Proc.devRef .tc main_arg4) := W6_of_ne D1 D2 m ρ c main_arg4 (by decide)
    _ = W4 D1 m ρ c (Proc.devRef .tc main_arg4) := StableHlo.after_of_writes_sub hostOps2 _ hostOps2_writes (show (main_arg4 : Ref sig .tc) ∉ hostOps2_W from by decide)
    _ = W3 m ρ c (Proc.devRef .tc main_arg4) := W4_of_ne D1 m ρ c main_arg4 (by decide)
    _ = W2 m ρ c (Proc.devRef .tc main_arg4) := StableHlo.after_of_writes_sub hostOps1 _ hostOps1_writes (show (main_arg4 : Ref sig .tc) ∉ hostOps1_W from by decide)
    _ = W1 m ρ c (Proc.devRef .tc main_arg4) := W2_of_ne m ρ c main_arg4 (by decide)
    _ = W0 m ρ c (Proc.devRef .tc main_arg4) := StableHlo.after_of_writes_sub hostOps0 _ hostOps0_writes (show (main_arg4 : Ref sig .tc) ∉ hostOps0_W from by decide)
    _ = m ((c : Thread nD τ).loc main_arg4) := rfl

theorem W6_main_arg5 (c : Dev nD) : W6 D1 D2 m ρ c (Proc.devRef .tc main_arg5) = m ((c : Thread nD τ).loc main_arg5) :=
  calc W6 D1 D2 m ρ c (Proc.devRef .tc main_arg5)
    _ = W5 D1 m ρ c (Proc.devRef .tc main_arg5) := W6_of_ne D1 D2 m ρ c main_arg5 (by decide)
    _ = W4 D1 m ρ c (Proc.devRef .tc main_arg5) := StableHlo.after_of_writes_sub hostOps2 _ hostOps2_writes (show (main_arg5 : Ref sig .tc) ∉ hostOps2_W from by decide)
    _ = W3 m ρ c (Proc.devRef .tc main_arg5) := W4_of_ne D1 m ρ c main_arg5 (by decide)
    _ = W2 m ρ c (Proc.devRef .tc main_arg5) := StableHlo.after_of_writes_sub hostOps1 _ hostOps1_writes (show (main_arg5 : Ref sig .tc) ∉ hostOps1_W from by decide)
    _ = W1 m ρ c (Proc.devRef .tc main_arg5) := W2_of_ne m ρ c main_arg5 (by decide)
    _ = W0 m ρ c (Proc.devRef .tc main_arg5) := StableHlo.after_of_writes_sub hostOps0 _ hostOps0_writes (show (main_arg5 : Ref sig .tc) ∉ hostOps0_W from by decide)
    _ = m ((c : Thread nD τ).loc main_arg5) := rfl

/-! ## The proof data family and the thread state -/

/-- No region has a prefetched table. -/
abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => D1 (V3 m ρ) c
  | ⟨2, _⟩ => fun c => D2 (V5 D1 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 D1 D2 m ρ c) ∗ ∃ r, prngReg c r)

/-! ## The regions as segments -/

variable (G1 : Good1 D1) (G2 : Good2 D2)

set_option backward.isDefEq.respectTransparency.types false in
/-- Region 0 over the thread state: entered from every unscoped buffer at the contents before it, left at the contents
    after it; its arrays split out of the unscoped buffers and put back at what the write-backs leave; the generator
    register into the region's invariant and out; nothing owed; no semaphore of the kernel's own. -/
def reg0 : Pipeline.RegionSeg (pcfgs (F := F)) adm (pdats D1 D2 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 (fun _ _ => rfl)
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats D1 D2 m ρ) launch0.win launch0.arr_whole c
      ((pdats D1 D2 m ρ 0 c).share_full (fun _ => rfl)) (V1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats D1 D2 m ρ 0 c) 0 rfl rfl); iexact HO
    isplitl [Hp]; · iexact Hp
    iexact Hrest
  hin c := by
    rw [show (pdats D1 D2 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D1 D2 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D1 D2 m ρ) ((pdats D1 D2 m ρ 0 c).share_full (fun _ => rfl))
      (V1 m ρ c) (V2 m ρ c) ((pdats D1 D2 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats D1 D2 m ρ 0 c) (Fin.last _) rfl); iexact HO

set_option backward.isDefEq.respectTransparency.types false in
/-- Region 1 over the thread state: entered from every unscoped buffer at the contents before it, left at the contents
    after it; its arrays split out of the unscoped buffers and put back at what the write-backs leave; the generator
    register into the region's invariant and out; nothing owed; no semaphore of the kernel's own. -/
def reg1 : Pipeline.RegionSeg (pcfgs (F := F)) adm (pdats D1 D2 m ρ) () defs₀ 𝒱₀ L lv 1 where
  win := launch1.win.to₀
  block_pos := launch1.block_pos
  stage_whole := launch1.stage_whole
  K := PEmpty
  osem k := k.elim
  ho := Pipeline.OwnSemFacts.none _
  hbody c := (G1.hbody (V3 m ρ) c).loose
  hwaits := Pipeline.hwaits_of_owed_zero _ _ _ _ L lv 1 (fun c t => G1.howed (V3 m ρ) c t)
  pre c := iprop(StableHlo.held (c : Thread nD τ) (Pipeline.ucRefs τ sig) (W3 m ρ c) ∗ R c)
  post c := iprop(StableHlo.held (c : Thread nD τ) (Pipeline.ucRefs τ sig) (W4 D1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats D1 D2 m ρ) launch1.win launch1.arr_whole c
      ((pdats D1 D2 m ρ 1 c).share_full (fun w => G1.hq (V3 m ρ) c w)) (V3 m ρ c) (fun w => G1.hA (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats D1 D2 m ρ 1 c) 0 (G1.howed (V3 m ρ) c _) (G1.hrec (V3 m ρ) c _)); iexact HO
    isplitl [Hp]; · iexact Hp
    iexact Hrest
  hin c := by
    refine .trans ?_ (G1.hin (V3 m ρ) c)
    unfold Pipeline.ΦA
    iintro ⟨Hp, -, Hr⟩
    isplitl [Hr]; · iexact Hr
    iexact Hp
  hout c := by
    rw [Pipeline.ownSems0_none]
    refine (show (pdats D1 D2 m ρ 1 c).Φ (Fin.last _) ⊢ Pipeline.ΦA spec1 c from G1.hout (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D1 D2 m ρ) ((pdats D1 D2 m ρ 1 c).share_full (fun w => G1.hq (V3 m ρ) c w))
      (V3 m ρ c) (V4 D1 m ρ c) ((pdats D1 D2 m ρ 1 c).arrAt · cfg1.N) (hF1 D1 m ρ c) (hrest1 D1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats D1 D2 m ρ 1 c) (Fin.last _) (G1.howed (V3 m ρ) c _)); iexact HO

set_option backward.isDefEq.respectTransparency.types false in
/-- Region 2 over the thread state: entered from every unscoped buffer at the contents before it, left at the contents
    after it; its arrays split out of the unscoped buffers and put back at what the write-backs leave; the generator
    register into the region's invariant and out; nothing owed; no semaphore of the kernel's own. -/
def reg2 : Pipeline.RegionSeg (pcfgs (F := F)) adm (pdats D1 D2 m ρ) () defs₀ 𝒱₀ L lv 2 where
  win := launch2.win.to₀
  block_pos := launch2.block_pos
  stage_whole := launch2.stage_whole
  K := PEmpty
  osem k := k.elim
  ho := Pipeline.OwnSemFacts.none _
  hbody c := (G2.hbody (V5 D1 m ρ) c).loose
  hwaits := Pipeline.hwaits_of_owed_zero _ _ _ _ L lv 2 (fun c t => G2.howed (V5 D1 m ρ) c t)
  pre c := iprop(StableHlo.held (c : Thread nD τ) (Pipeline.ucRefs τ sig) (W5 D1 m ρ c) ∗ R c)
  post c := iprop(Tₙ D1 D2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 D1 m ρ c)
  hentry c := by
    rw [Pipeline.ownSems0_none]
    have hsplit := Pipeline.arrays_of_unscopedBufs (p := 2) (pcfgs (F := F)) adm (pdats D1 D2 m ρ) launch2.win launch2.arr_whole c
      ((pdats D1 D2 m ρ 2 c).share_full (fun w => G2.hq (V5 D1 m ρ) c w)) (V5 D1 m ρ c) (fun w => G2.hA (V5 D1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats D1 D2 m ρ 2 c) 0 (G2.howed (V5 D1 m ρ) c _) (G2.hrec (V5 D1 m ρ) c _)); iexact HO
    isplitl [Hp]; · iexact Hp
    iexact Hrest
  hin c := by
    refine .trans ?_ (G2.hin (V5 D1 m ρ) c)
    unfold Pipeline.ΦA
    iintro ⟨Hp, -, Hr⟩
    isplitl [Hr]; · iexact Hr
    iexact Hp
  hout c := by
    rw [Pipeline.ownSems0_none]
    refine (show (pdats D1 D2 m ρ 2 c).Φ (Fin.last _) ⊢ Pipeline.ΦA spec2 c from G2.hout (V5 D1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D1 D2 m ρ) ((pdats D1 D2 m ρ 2 c).share_full (fun w => G2.hq (V5 D1 m ρ) c w))
      (V5 D1 m ρ c) (V6 D1 D2 m ρ c) ((pdats D1 D2 m ρ 2 c).arrAt · cfg2.N) (hF2 D1 D2 m ρ c) (hrest2 D1 D2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (zero_of_owesAt (pdats D1 D2 m ρ 2 c) (Fin.last _) (G2.howed (V5 D1 m ρ) c _)); iexact HO

/-! ## The program as segments, and the run -/

abbrev segs : List (Pipeline.Seg (pcfgs (F := F)) adm (pdats D1 D2 m ρ) () defs₀ 𝒱₀ L lv) :=
  [ .host (hseg hostOps0 hostOps0_sub hostOps0_fresh (W0 m ρ)),
    .region (reg0 D1 D2 m ρ),
    .host (hseg hostOps1 hostOps1_sub hostOps1_fresh (W2 m ρ)),
    .region (reg1 D1 D2 m ρ G1),
    .host (hseg hostOps2 hostOps2_sub hostOps2_fresh (W4 D1 m ρ)),
    .region (reg2 D1 D2 m ρ G2) ]
theorem main_run (c : Dev nD) : main (F := F) c = Pipeline.Seg.run (segs D1 D2 m ρ G1 G2) := (main_chain c).trans (by chain_rfl)

include G1 G2 in
set_option backward.isDefEq.respectTransparency.types false in
/-- THE RUN. From any memory with zero counters every weakly fair execution of the program terminates, nothing faulting,
    and the final state holds every unscoped buffer at the last contents of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 D1 D2 m ρ c b) :=
  Pipeline.θ_run_regions_kit (pcfgs (F := F)) adm (pdats D1 D2 m ρ) () cellOf_inj emb₁ defs₀ 𝒱₀ L lv m ρ main (segs D1 D2 m ρ G1 G2)
    (fun c Q => by rw [main_run D1 D2 m ρ G1 G2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D1 D2 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 D1 D2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 D1 D2 m ρ c) s')
      isplitl [Hh] <;> iassumption)
    (hQ := fun s h c => h c)

end Cert.KernelIdeal.Fr

end
-- ==== Proof.KernelIdeal.Region1Runs.lean ====
/- Region 1 (the attention kernel, grid 2 x 12 x 4) of the three-kernel program, frame half, shared part.
   Stated at arbitrary contents V of the core's buffers on entry to the region and at an arbitrary float
   instance: the blocks the four input windows read off their arrays; that an input's staging buffer holds
   its block at every point whether or not it was fetched there; the two branch conditions of the body in
   closed form over the 96 grid points (the first holds where the innermost coordinate is 0, the second
   where it is 3); where the output window is idle and not written back; the staging and scratch memrefs;
   and the region invariant with the three scratch buffers split out of the chain of scoped buffers. -/
import proofs.«109941_j17609365914550_2_alg».proof.Proof.Gen.KernelIdeal.Launch
import proofs.«109941_j17609365914550_2_alg».proof.Proof.Gen.KernelIdeal.Skeleton
import proofs.«109941_j17609365914550_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first branch condition of the body: the innermost grid coordinate is 0. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch condition of the body: the innermost grid coordinate is 3. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where only the first condition holds the output window is idle, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- Where neither holds the output window is idle, -/
theorem idleAt1_4_B : ∀ t : Fin cfg1.N, ¬cond1_0 (grid1.coords t) → ¬cond1_1 (grid1.coords t) → cfg1.idle 4 (grid1.coords t) = true := by decide +kernel
/-- and its block is not written back there. -/
theorem noFlush1_4_B : ∀ t : Fin cfg1.N, ¬cond1_0 (grid1.coords t) → ¬cond1_1 (grid1.coords t) → (cfg1.win 4).flush t = false := by decide +kernel
/-- Where only the second condition holds the output window is live: the body stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S1x1x2048x64 .bf16 := (Memref.whole cc1_stg4_0 : Memref sig .tc .vmem S1x1x2048x64 .bf16).view
/-- Each window's current staging memref at point `t`, and its wholeness. -/
abbrev ms1_0 (t : Fin cfg1.N) : Memref sig .tc .vmem S1x1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2048x64 .bf16 := win1_4.stage (cfg1.slots t 4)
abbrev hs1_4 (t : Fin cfg1.N) : (ms1_4 t).IsWhole := hstage1_4 ((cfg1.slots t 4).cast nbuf1_4)
/-- The three scratch operands: whole scoped buffers, carried from point to point. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x64 .f32 := Memref.whole cc1_scratch2
/-- The same as views: what each holds is stated through them. -/
abbrev VS1_0 : View sig .tc .vmem S2048x1 .f32 := scM1_0.view
abbrev VS1_1 : View sig .tc .vmem S2048x1 .f32 := scM1_1.view
abbrev VS1_2 : View sig .tc .vmem S2048x64 .f32 := scM1_2.view

/-! ## The region invariant with the scratch buffers split out -/

/-- The scoped buffers of the other two regions (their staging buffers and the third region's scratch), each
    whole at some contents: the part of the region invariant this region's body never touches. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_scratch0), ((c : Thread nD τ).loc cc2_scratch0) ↦{fullShare} f))

/-- The region invariant: the chain of the core's scoped buffers that are no staging buffer of this region, the
    three scratch operands among them as memrefs owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg1_1), ((c : Thread nD τ).loc cc2_stg1_1) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)
        ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl

/-- The invariant hands out the three scratch operands, the other regions' buffers and the register, -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ (∃ d, owns (c : Thread nD τ) scM1_2 fullShare d)
          ∗ others1 c ∗ (∃ r, prngReg c r)) := by
  rw [PhiA1_eq]; unfold others1
  iintro ⟨⟨R0, R1, R2, R3, R4, R5, R6, R7, R8, R9, HS0, HS1, HS2, R13, R14, R15, R16, R17, R18, R19, R20⟩, Hg⟩
  isplitl [HS0]; · iexact HS0
  isplitl [HS1]; · iexact HS1
  isplitl [HS2]; · iexact HS2
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R13]; · iexact R13
  isplitl [R14]; · iexact R14
  isplitl [R15]; · iexact R15
  isplitl [R16]; · iexact R16
  isplitl [R17]; · iexact R17
  isplitl [R18]; · iexact R18
  isplitl [R19]; · iexact R19
  iexact R20

/-- and takes them back. -/
theorem PhiA1_join (c : Dev nD) :
    iprop((∃ d, owns (c : Thread nD τ) scM1_0 fullShare d) ∗ (∃ d, owns (c : Thread nD τ) scM1_1 fullShare d) ∗ (∃ d, owns (c : Thread nD τ) scM1_2 fullShare d)
          ∗ others1 c ∗ (∃ r, prngReg c r))
      ⊢ (Pipeline.ΦA spec1 c : sProp 𝕄) := by
  rw [PhiA1_eq]; unfold others1
  iintro ⟨HS0, HS1, HS2, ⟨R0, R1, R2, R3, R4, R5, R6, R7, R8, R9, R13, R14, R15, R16, R17, R18, R19, R20⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS0]; · iexact HS0
  isplitl [HS1]; · iexact HS1
  isplitl [HS2]; · iexact HS2
  isplitl [R13]; · iexact R13
  isplitl [R14]; · iexact R14
  isplitl [R15]; · iexact R15
  isplitl [R16]; · iexact R16
  isplitl [R17]; · iexact R17
  isplitl [R18]; · iexact R18
  isplitl [R19]; · iexact R19
  iexact R20

end Cert.KernelIdeal.Fr

end
-- ==== Proof.KernelIdeal.Region1RunA.lean ====
/- Region 1, the run of the body where only the first branch condition holds (innermost coordinate 0): the
   three scratch operands are first stored whole with their initial values, the four inputs are loaded, and
   each scratch operand is stored whole once more; nothing is stored into the output window. The run's witness
   is, per stored buffer, the list of pieces its stores wrote. -/
import proofs.«109941_j17609365914550_2_alg».proof.Proof.KernelIdeal.Region1Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in each scratch operand (last store
    first) in this case, with the proof that on whole memrefs, the inputs' at their contents, the body runs to a
    continuation that holds the inputs' as they were and every stored buffer with its pieces written. -/
noncomputable def kernelRun1_A (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) :
    Σ' (L4 : List (View.Piece (Elt F) S1x1x2048x64 .bf16)) (LS0 : List (View.Piece (Elt F) S2048x1 .f32)) (LS1 : List (View.Piece (Elt F) S2048x1 .f32)), { LS2 : List (View.Piece (Elt F) S2048x64 .f32) //
      ∀ (xi4 : Vec F S1x1x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Fr

end
-- ==== Proof.KernelIdeal.Region1RunB.lean ====
/- Region 1, the run of the body where neither branch condition holds (innermost coordinate 1 or 2): the four
   inputs and the three scratch operands (at what the point before left) are loaded and each scratch operand
   is stored whole once; nothing is stored into the output window. The run's witness is, per stored buffer,
   the list of pieces its stores wrote. -/
import proofs.«109941_j17609365914550_2_alg».proof.Proof.KernelIdeal.Region1RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in each scratch operand (last store
    first) in this case, with the proof that on whole memrefs, the inputs' at their contents, the body runs to a
    continuation that holds the inputs' as they were and every stored buffer with its pieces written. -/
noncomputable def kernelRun1_B (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32)
    (xs0 : Vec F S2048x1 .f32) (xs1 : Vec F S2048x1 .f32) (xs2 : Vec F S2048x64 .f32) :
    Σ' (L4 : List (View.Piece (Elt F) S1x1x2048x64 .bf16)) (LS0 : List (View.Piece (Elt F) S2048x1 .f32)) (LS1 : List (View.Piece (Elt F) S2048x1 .f32)), { LS2 : List (View.Piece (Elt F) S2048x64 .f32) //
      ∀ (xi4 : Vec F S1x1x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Fr

end
-- ==== Proof.KernelIdeal.Region1RunC.lean ====
/- Region 1, the run of the body where only the second branch condition holds (innermost coordinate 3): the four
   inputs and the three scratch operands (at what the point before left) are loaded, each scratch operand is
   stored whole once, and the quotient of the last two is stored over the whole output window. The run's
   witness is, per stored buffer, the list of pieces its stores wrote. -/
import proofs.«109941_j17609365914550_2_alg».proof.Proof.KernelIdeal.Region1RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in each scratch operand (last store
    first) in this case, with the proof that on whole memrefs, the inputs' at their contents, the body runs to a
    continuation that holds the inputs' as they were and every stored buffer with its pieces written. -/
noncomputable def kernelRun1_C (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32)
    (xs0 : Vec F S2048x1 .f32) (xs1 : Vec F S2048x1 .f32) (xs2 : Vec F S2048x64 .f32) :
    Σ' (L4 : List (View.Piece (Elt F) S1x1x2048x64 .bf16)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KernelIdeal.Region1.lean ====
/- Region 1 (the attention kernel) of the three-kernel program, frame half, the rest: per case of the body's two
   branch conditions, what the stores leave in the output window and in the three scratch operands (the pieces
   read back; the pieces tile, hence cover, each stored buffer); point by point over the 96 grid points, what the
   output window and the scratch operands hold after the body; the region invariant (before the first point the
   class's, afterwards the scratch operands at the previous point's contents); the region's proof data at entry
   contents V; the body obligation; and that the invariant is entered from and returns to the class's. Stated at
   an arbitrary float instance. -/
import proofs.«109941_j17609365914550_2_alg».proof.Proof.KernelIdeal.Region1RunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-- The output window's buffer where only the first condition holds: nothing is stored into it, the window is idle there and is not
    written back; a placeholder (junk read back through no pieces) that nothing consults. -/
def out1_A_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S1x1x2048x64 .bf16 :=
  VO1_4.read (Elt F) (VO1_4.writes (Elt F) VO1_4.junk (kernelRun1_A c i arg3 harg3 arg4 harg4 arg5 harg5 arg6 harg6 arg7 harg7 arg8 harg8 arg9 harg9 arg10 harg10 hc0 hc1 x0 x1 x2 x3).1)

/-- Where only the first condition holds the stores into scratch operand 0 tile it, so their pieces cover it. -/
theorem scover1_A_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) (y : S2048x1.Idx) :
    ∃ pc ∈ (kernelRun1_A c i arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.1 S2048x1.size (by sl_kernel_rfl) y

/-- What the body leaves in scratch operand 0 there: its pieces read back over junk. -/
def sout1_A_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S2048x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).2.1)

/-- Where only the first condition holds the stores into scratch operand 1 tile it, so their pieces cover it. -/
theorem scover1_A_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) (y : S2048x1.Idx) :
    ∃ pc ∈ (kernelRun1_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.1 S2048x1.size (by sl_kernel_rfl) y

/-- What the body leaves in scratch operand 1 there: its pieces read back over junk. -/
def sout1_A_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.2.1)

/-- Where only the first condition holds the stores into scratch operand 2 tile it, so their pieces cover it. -/
theorem scover1_A_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) (y : S2048x64.Idx) :
    ∃ pc ∈ (kernelRun1_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.2.1 S2048x64.size (by sl_kernel_rfl) y

/-- What the body leaves in scratch operand 2 there: its pieces read back over junk. -/
def sout1_A_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i)
    (x0 : Vec F S1x1x2048x64 .bf16) (x1 : Vec F S1x1x512x64 .bf16) (x2 : Vec F S1x1x512x64 .bf16) (x3 : Vec F S1x1x512 .f32) : Vec F S2048x64 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.2.1)

/-- The output window's buffer where neither condition holds: nothing is stored into it, the window is idle there and is not
    written back; a placeholder (junk read back through no pieces) that nothing consults. -/
def out1_B_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S1x1x2048x64 .bf16 :=
  VO1_4.read (Elt F) (VO1_4.writes (Elt F) VO1_4.junk (kernelRun1_B c i arg3 harg3 arg4 harg4 arg5 harg5 arg6 harg6 arg7 harg7 arg8 harg8 arg9 harg9 arg10 harg10 hc0 hc1 x0 x1 x2 x3 xs0 xs1 xs2).1)

/-- Where neither condition holds the stores into scratch operand 0 tile it, so their pieces cover it. -/
theorem scover1_B_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.1 S2048x1.size (by sl_kernel_rfl) y

/-- What the body leaves in scratch operand 0 there: its pieces read back over junk. -/
def sout1_B_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).2.1)

/-- Where neither condition holds the stores into scratch operand 1 tile it, so their pieces cover it. -/
theorem scover1_B_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S2048x1.size (by sl_kernel_rfl) y

/-- What the body leaves in scratch operand 1 there: its pieces read back over junk. -/
def sout1_B_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.2.1)

/-- Where neither condition holds the stores into scratch operand 2 tile it, so their pieces cover it. -/
theorem scover1_B_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x64.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.2.1 S2048x64.size (by sl_kernel_rfl) y

/-- What the body leaves in scratch operand 2 there: its pieces read back over junk. -/
def sout1_B_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.2.1)

/-- Where only the second condition holds the one store into the output window tiles its block, so its pieces cover it. -/
theorem cover1_C_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S1x1x2048x64.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).1 S1x1x2048x64.size (by sl_kernel_rfl) y

/-- What the body leaves in the output window's staging buffer there: its pieces read back over junk. -/
def out1_C_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S1x1x2048x64 .bf16 :=
  VO1_4.read (Elt F) (VO1_4.writes (Elt F) VO1_4.junk (kernelRun1_C c i arg3 harg3 arg4 harg4 arg5 harg5 arg6 harg6 arg7 harg7 arg8 harg8 arg9 harg9 arg10 harg10 hc0 hc1 x0 x1 x2 x3 xs0 xs1 xs2).1)

/-- Where only the second condition holds the stores into scratch operand 0 tile it, so their pieces cover it. -/
theorem scover1_C_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.1 S2048x1.size (by sl_kernel_rfl) y

/-- What the body leaves in scratch operand 0 there: its pieces read back over junk. -/
def sout1_C_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 xs0 xs1 xs2).2.1)

/-- Where only the second condition holds the stores into scratch operand 1 tile it, so their pieces cover it. -/
theorem scover1_C_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.1 S2048x1.size (by sl_kernel_rfl) y

/-- What the body leaves in scratch operand 1 there: its pieces read back over junk. -/
def sout1_C_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 xs0 xs1 xs2).2.2.1)

/-- Where only the second condition holds the stores into scratch operand 2 tile it, so their pieces cover it. -/
theorem scover1_C_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) (y : S2048x64.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.2.1 S2048x64.size (by sl_kernel_rfl) y

/-- What the body leaves in scratch operand 2 there: its pieces read back over junk. -/
def sout1_C_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i)
    (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 x3 xs0 xs1 xs2).2.2.2.1)

/-! ## What the output window and the scratch operands hold after each point -/

/-- What the output window's staging buffer and the three scratch operands hold after the body at position `n`
    (a tuple: the output window's buffer, then the scratch operands in order): the case the closed forms select
    at `n`, run at the point's memrefs and input blocks, the scratch operands at what position `n - 1` left in
    them. The two conditions never hold together. -/
def outsAt1 (c : Dev nD) : (n : ℕ) → n < cfg1.N → Vec F S1x1x2048x64 .bf16 × Vec F S2048x1 .f32 × Vec F S2048x1 .f32 × Vec F S2048x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by have hN : n + 1 < 96 := lt_of_lt_of_eq hn (show cfg1.N = 96 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point where only the first condition holds. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point where neither condition holds: over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point where only the second condition holds: over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant point by point -/

/-- The region invariant before position `n`: before the first point the class's (every scoped buffer that is no
    staging buffer of this region at some contents, and the generator register at some state); afterwards each of
    the three scratch operands at what the point before left in it, the other regions' buffers at some contents,
    and the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)
      ∗ others1 c ∗ (∃ r, prngReg c r))

theorem PhiS1_zero (c : Dev nD) (n : ℕ) (h : n ≤ cfg1.N) (hz : n = 0) : PhiS1 V c n h = Pipeline.ΦA spec1 c := by
  subst hz; rfl

/-- After point `n`: the scratch operands at that point's contents. -/
theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)
      ∗ others1 c ∗ (∃ r, prngReg c r)) := rfl

/-- Before a point that is not the first: the scratch operands at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)
      ∗ others1 c ∗ (∃ r, prngReg c r)) := by
  cases n with
  | zero => exact absurd rfl hz
  | succ n => rfl

/-! ## The region's proof data -/

/-- The proof data of the region on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the scratch operands at what the point before left (at anything at the first
    point) and takes them back at this point's contents, their pieces covering them; the other regions' buffers,
    the generator register and what the core owes pass through untouched; where the output window is idle its
    buffer is handed back as found, where it is stored its pieces cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        icases (PhiA1_split c) $$ HΦ with ⟨HS0, HS1, HS2, Hr, Hg⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HS0, HS1, HS2, Hr, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨HS0, HS1, HS2, Hr, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨HS0, HS1, HS2, Hr, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch operands' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HS1, HS2, Hr, Hg⟩
  iapply (PhiA1_join c)
  isplitl [HS0]; · iexists _; iexact HS0
  isplitl [HS1]; · iexists _; iexact HS1
  isplitl [HS2]; · iexists _; iexact HS2
  isplitl [Hr]; · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Region1

end Cert.KernelIdeal.Fr

end
-- ==== Proof.KernelIdeal.Region2Runs.lean ====
/- Region 2 of the three-region attention layer, the output projection: over the grid (2, 4, 12) it accumulates,
   in a scratch buffer carried from point to point, the products of the attention output's blocks with the weight's
   blocks, clearing the scratch where the last grid coordinate is 0 and, where it is 11, adding the bias row and
   storing the sum into the output block. This module holds what the three control cases share: each window's block
   read off the array contents found at the region's entry; the two branch conditions in closed form over the 96
   points; where the output window is idle and where it is written back; the staging and scratch memrefs; and the
   region's invariant with the scratch buffer split out of the core's other scoped buffers. Everything is stated at
   any float instance and at arbitrary entry contents. -/
import proofs.«109941_j17609365914550_2_alg».proof.Proof.Gen.KernelIdeal.Launch
import proofs.«109941_j17609365914550_2_alg».proof.Proof.Gen.KernelIdeal.Skeleton
import proofs.«109941_j17609365914550_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (where it did not, the block index has not moved), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (where it did not, the block index has not moved), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (where it did not, the block index has not moved), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first branch condition: the last grid coordinate is 0 (the scalar chain the body computes, substituted). -/
abbrev cond2_0 (i : grid2.Coords) : Prop := (Scalar.cmpi .ne (Scalar.extui (Scalar.cmpi .eq (BitVec.ofNat 32 (i 2).val) 0#32)) 0#32) = 1#1
/-- It holds exactly at the points ≡ 0 (mod 12). -/
theorem hcond2_0 : ∀ t : Fin cfg2.N, cond2_0 (grid2.coords t) ↔ t.val % 12 = 0 :=
  (by decide +kernel : ∀ t : Fin grid2.N, cond2_0 (grid2.coords t) ↔ t.val % 12 = 0)

/-- The second branch condition: the last grid coordinate is 11. -/
abbrev cond2_1 (i : grid2.Coords) : Prop := k2_cond2 i = 1#1
/-- It holds exactly at the points ≡ 11 (mod 12). -/
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where only the first condition holds the output window is idle: nothing is stored into it, -/
theorem idleAt2_3_A : ∀ t : Fin cfg2.N, cond2_0 (grid2.coords t) → ¬cond2_1 (grid2.coords t) → cfg2.idle 3 (grid2.coords t) = true := by decide +kernel
/-- and its block is not written back. -/
theorem noFlush2_3_A : ∀ t : Fin cfg2.N, cond2_0 (grid2.coords t) → ¬cond2_1 (grid2.coords t) → (cfg2.win 3).flush t = false := by decide +kernel
/-- Where neither condition holds the output window is idle, -/
theorem idleAt2_3_B : ∀ t : Fin cfg2.N, ¬cond2_0 (grid2.coords t) → ¬cond2_1 (grid2.coords t) → cfg2.idle 3 (grid2.coords t) = true := by decide +kernel
/-- and its block is not written back. -/
theorem noFlush2_3_B : ∀ t : Fin cfg2.N, ¬cond2_0 (grid2.coords t) → ¬cond2_1 (grid2.coords t) → (cfg2.win 3).flush t = false := by decide +kernel
/-- Where only the second condition holds the output window is live: the body stores its block. -/
theorem liveAt2_3_C : ∀ t : Fin cfg2.N, ¬cond2_0 (grid2.coords t) → cond2_1 (grid2.coords t) → cfg2.idle 3 (grid2.coords t) = false := by decide +kernel

/-! ## The staging and scratch memrefs -/

/-- One staging buffer of the output window, through which its contents are stated (which one does not matter:
    a whole buffer covered by the pieces written reads back the same through any view of its shape). -/
abbrev VO2_3 : View sig .tc .vmem S1x512x768 .f32 := (Memref.whole cc2_stg3_0 : Memref sig .tc .vmem S1x512x768 .f32).view
/-- Each window's current staging memref at point `t`, as the pipeline passes it to the body, and its wholeness. -/
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x768 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x768 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x768 .f32 := win2_3.stage (cfg2.slots t 3)
abbrev hs2_3 (t : Fin cfg2.N) : (ms2_3 t).IsWhole := hstage2_3 ((cfg2.slots t 3).cast nbuf2_3)
/-- The scratch operand: a whole scoped buffer of the region's own, passed beside the windows. -/
abbrev scM2_0 : Memref sig .tc .vmem S512x768 .f32 := Memref.whole cc2_scratch0
/-- The same as a view: what the scratch holds between points is stated through it. -/
abbrev VS2_0 : View sig .tc .vmem S512x768 .f32 := scM2_0.view

/-! ## The region's invariant, the scratch split out -/

/-- The core's scoped buffers that belong to the other two regions (their staging buffers and scratch), each whole
    at some contents: region 2 never touches them. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- Two assertions that entail each other are equal (assertions are predicates on resources, compared pointwise). -/
theorem eq_of_entails2 {P Q : sProp 𝕄} (h1 : P ⊢ Q) (h2 : Q ⊢ P) : P = Q :=
  Idealize.SL.BI.Entails.antisymm h1 h2

/-- What the launch hands the region — every scoped buffer that is no staging buffer of region 2 at some contents,
    and the generator register at some state — with the scratch operand as a memref owned at some contents, first. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA; rw [scopedRest2_eq]; unfold others2; simp only [scM2_0, owns_whole]
  refine eq_of_entails2 ?_ ?_
  · iintro ⟨⟨HR0, HR1, HR2, HR3, HR4, HR5, HR6, HR7, HR8, HR9, HR10, HR11, HR12, HR13, HR14, HR15, HR16, HR17, HR18, HR19, HR20, HR21, HR22, HS0⟩, Hg⟩
    isplitr [Hg]
    · isplitl [HS0]; · iexact HS0
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexact HR22
    iexact Hg
  · iintro ⟨⟨HS0, HR0, HR1, HR2, HR3, HR4, HR5, HR6, HR7, HR8, HR9, HR10, HR11, HR12, HR13, HR14, HR15, HR16, HR17, HR18, HR19, HR20, HR21, HR22⟩, Hg⟩
    isplitr [Hg]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      iexact HS0
    iexact Hg

end Cert.KernelIdeal.Fr

end
-- ==== Proof.KernelIdeal.Region2RunA.lean ====
/- Region 2's body where the last grid coordinate is 0 (and is not 11): the scratch is cleared, the product of the
   attention block with the weight block is added to it, and nothing is stored into the output block. The body's
   triple on arbitrary whole memrefs, found by symbolic execution: the witness is the list of pieces each buffer ends
   with (none for the output, two for the scratch). -/
import proofs.«109941_j17609365914550_2_alg».proof.Proof.KernelIdeal.Region2Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole memrefs — the inputs' at contents `x·`, the output's at contents `xi3` handed back untouched, the scratch
    at anything — the body, both conditions decided (`hc0`, `hc1`), runs to a continuation that is given the inputs' and
    the output's as they were and the scratch with the pieces `LS0` written over what it held. -/
noncomputable def kernelRun2_A (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) :
    Σ' (L3 : List (View.Piece (Elt F) S1x512x768 .f32)), { LS0 : List (View.Piece (Elt F) S512x768 .f32) //
      ∀ (xi3 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KernelIdeal.Region2RunB.lean ====
/- Region 2's body where the last grid coordinate is neither 0 nor 11: the product of the attention block with the
   weight block is added to what the scratch held after the point before, and nothing is stored into the output block.
   The body's triple on arbitrary whole memrefs, found by symbolic execution: the witness is the list of pieces each
   buffer ends with (none for the output, one for the scratch). -/
import proofs.«109941_j17609365914550_2_alg».proof.Proof.KernelIdeal.Region2RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole memrefs — the inputs' at contents `x·`, the output's at contents `xi3` handed back untouched, the scratch
    at the contents `xs0` the point before left — the body, both conditions decided, runs to a continuation that is
    given the inputs' and the output's as they were and the scratch with the pieces `LS0` written. -/
noncomputable def kernelRun2_B (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) :
    Σ' (L3 : List (View.Piece (Elt F) S1x512x768 .f32)), { LS0 : List (View.Piece (Elt F) S512x768 .f32) //
      ∀ (xi3 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KernelIdeal.Region2RunC.lean ====
/- Region 2's body where the last grid coordinate is 11 (and is not 0): the product of the attention block with the
   weight block is added to what the scratch held after the point before, and the sum plus the bias row is stored
   into the output block. The body's triple on arbitrary whole memrefs, found by symbolic execution: the witness is
   the list of pieces each buffer ends with (one for the output, one for the scratch). -/
import proofs.«109941_j17609365914550_2_alg».proof.Proof.KernelIdeal.Region2RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole memrefs — the inputs' at contents `x·`, the output's at anything, the scratch at the contents `xs0` the
    point before left — the body, both conditions decided, runs to a continuation that is given the inputs' as they
    were, the output's with the pieces `L3` written and the scratch with the pieces `LS0` written. -/
noncomputable def kernelRun2_C (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) :
    Σ' (L3 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨?_, ?_, fun E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KernelIdeal.Region2.lean ====
/- Region 2 of the three-region attention layer (the output projection), the rest of its frame half: what each
   control case leaves in the output block and in the carried scratch, as the pieces the runs found read back; the
   accumulation point by point over the 96 points of the grid (at each point the case its position modulo 12 selects,
   run over what the point before left in the scratch); the invariant between points (the scratch at that value, the
   other regions' scoped buffers and the generator register at anything); the pipeline's proof data at arbitrary entry
   contents; and the body obligation: at every point the body, called on the current staging buffers holding the input
   blocks, leaves the inputs in place, the output block stored where the last grid coordinate is 11 and untouched
   elsewhere, and the invariant advanced by one point. -/
import proofs.«109941_j17609365914550_2_alg».proof.Proof.KernelIdeal.Region2RunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where only the first condition holds nothing is stored into the output block: no pieces. Read back over junk this is a placeholder
    nothing consults, the window being neither written back at these points nor read at the next. -/
def out2_A_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) : Vec F S1x512x768 .f32 :=
  VO2_3.read (Elt F) (VO2_3.writes (Elt F) VO2_3.junk (kernelRun2_A c i arg3 harg3 arg4 harg4 arg5 harg5 arg6 harg6 arg7 harg7 hc0 hc1 x0 x1 x2).1)

/-- The pieces stored into the scratch where only the first condition holds tile it, so they cover it. -/
theorem scover2_A_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) (y : S512x768.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x768.size (by sl_kernel_rfl) y

/-- What the body leaves in the scratch there: its pieces read back over junk. -/
def sout2_A_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) : Vec F S512x768 .f32 :=
  VS2_0.read (Elt F) (VS2_0.writes (Elt F) VS2_0.junk (kernelRun2_A c i arg3 harg3 arg4 harg4 arg5 harg5 arg6 harg6 arg7 harg7 hc0 hc1 x0 x1 x2).2.1)

/-- Where neither condition holds nothing is stored into the output block: no pieces. Read back over junk this is a placeholder
    nothing consults, the window being neither written back at these points nor read at the next. -/
def out2_B_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) : Vec F S1x512x768 .f32 :=
  VO2_3.read (Elt F) (VO2_3.writes (Elt F) VO2_3.junk (kernelRun2_B c i arg3 harg3 arg4 harg4 arg5 harg5 arg6 harg6 arg7 harg7 hc0 hc1 x0 x1 x2 xs0).1)

/-- The pieces stored into the scratch where neither condition holds tile it, so they cover it. -/
theorem scover2_B_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) (y : S512x768.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x768.size (by sl_kernel_rfl) y

/-- What the body leaves in the scratch there: its pieces read back over junk. -/
def sout2_B_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) : Vec F S512x768 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- Where only the second condition holds the one piece stored into the output block tiles it, so it covers it. -/
theorem cover2_C_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) (y : S1x512x768.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x512x768.size (by sl_kernel_rfl) y

/-- What the body leaves in the output block there: its pieces read back over junk. -/
def out2_C_3 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) : Vec F S1x512x768 .f32 :=
  VO2_3.read (Elt F) (VO2_3.writes (Elt F) VO2_3.junk (kernelRun2_C c i arg3 harg3 arg4 harg4 arg5 harg5 arg6 harg6 arg7 harg7 hc0 hc1 x0 x1 x2 xs0).1)

/-- The pieces stored into the scratch where only the second condition holds tile it, so they cover it. -/
theorem scover2_C_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) (y : S512x768.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x768.size (by sl_kernel_rfl) y

/-- What the body leaves in the scratch there: its pieces read back over junk. -/
def sout2_C_0 (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) : Vec F S512x768 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output block and the scratch hold after each point -/

/-- The accumulation: what the output's staging buffer and the carried scratch hold after the body at position `n`
    (a pair: the output, then the scratch) — the case `n` modulo 12 selects, run at the point's memrefs and input
    blocks, over the scratch as position `n - 1` left it. Both conditions at once is no case. -/
def outsAt2 (c : Dev nD) : (n : ℕ) → n < cfg2.N → Vec F S1x512x768 .f32 × Vec F S512x768 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 12 = 0 then
      if h1 : (n + 1) % 12 = 11 then
        False.elim (by have hN : n + 1 < 96 := lt_of_lt_of_eq hn (show cfg2.N = 96 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 12 = 11 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point ≡ 0 (mod 12): the first case's contents. -/
theorem outsAt2_A (c : Dev nD) (t : Fin cfg2.N) (h0 : t.val % 12 = 0) (h1 : ¬t.val % 12 = 11) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point ≡ 1, …, 10 (mod 12): the middle case's contents, over what the point before left. -/
theorem outsAt2_B (c : Dev nD) (t : Fin cfg2.N) (h0 : ¬t.val % 12 = 0) (h1 : ¬t.val % 12 = 11) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point ≡ 11 (mod 12): the last case's contents, over what the point before left. -/
theorem outsAt2_C (c : Dev nD) (t : Fin cfg2.N) (h0 : ¬t.val % 12 = 0) (h1 : t.val % 12 = 11) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant before position `n`: before the first point what the launch hands the region (every scoped
    buffer outside its staging at anything, the generator register at some state); afterwards the scratch at what the
    point before left in it, the other regions' scoped buffers at anything, the register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

/-- After point `n`: the scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The pipeline's proof data -/

/-- The proof data of region 2's pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the point's position modulo 12 says which case it is
    in, so that case's run applies; the invariant hands the body the scratch at what the point before left (at anything
    at the first point) and takes it back at this point's contents, the pieces covering it; the other regions' buffers,
    the generator register and the core's dues pass through untouched; the output block is handed back as found where
    it is idle, and with its piece written (which covers it) where it is stored. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 96 := lt_of_lt_of_eq t.isLt (show cfg2.N = 96 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 12 = 0
  · by_cases h1 : t.val % 12 = 11
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 12 = 11
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitr [Hg]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the scratch's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitr [Hg]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 96 := N_2; omega)

end Cert.KernelIdeal.Fr

end
-- ==== Proof.KernelIdeal.Frame.lean ====
/- The program's frame and the run with its result named. The three regions' proof data meet what the run of the whole
   program asks of them, so every weakly fair execution terminates without a fault with every unscoped buffer at the last
   contents of the fold through the program; read at the six argument arrays, those contents are the launch memory's. -/
import proofs.«109941_j17609365914550_2_alg».proof.Proof.KernelIdeal.Run
import proofs.«109941_j17609365914550_2_alg».proof.Proof.KernelIdeal.Region1
import proofs.«109941_j17609365914550_2_alg».proof.Proof.KernelIdeal.Region2

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

/-- Region 1's proof data meet the run's requirements. -/
theorem good1 : Good1 (F := F) (fun V c => dat1 V c) where
  hA := A_eq1
  hq := fun _ _ _ => rfl
  howed := fun _ _ _ => rfl
  hrec := fun _ _ _ => rfl
  hbody := body_obligation1
  hin := hin1
  hout := hout1

/-- Region 2's proof data meet the run's requirements. -/
theorem good2 : Good2 (F := F) (fun V c => dat2 V c) where
  hA := A_eq2
  hq := fun _ _ _ => rfl
  howed := fun _ _ _ => rfl
  hrec := fun _ _ _ => rfl
  hbody := body_obligation2
  hin := hin2
  hout := hout2

variable (m : (ℓ : Loc nD τ sig) → Buf (Elt F) ℓ) (ρ : Dev nD → PrngReg)

/-- The contents every unscoped buffer ends at. -/
abbrev Wend : Dev nD → Valuation τ sig (Elt F) := W6 (fun V c => dat1 V c) (fun V c => dat2 V c) m ρ

/-- THE RUN of the whole program: it terminates, nothing faults, and every unscoped buffer ends at `Wend`. -/
theorem run_named : θ_run defs (onTc (τ := τ) (main (F := F))) ⟨m, fun _ => 0, ρ⟩
    (fun r => ∀ c : Dev nD, ∀ b ∈ Pipeline.ucRefs τ sig, r.2.mem (((c : Thread nD τ)).1, b) = Wend m ρ c b) :=
  run_all (fun V c => dat1 V c) (fun V c => dat2 V c) m ρ good1 good2

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 (fun V c => dat1 V c) (fun V c => dat2 V c) m ρ c),
      (h c _ (mem_uc main_arg1 (by decide))).trans (W6_main_arg1 (fun V c => dat1 V c) (fun V c => dat2 V c) m ρ c),
      (h c _ (mem_uc main_arg2 (by decide))).trans (W6_main_arg2 (fun V c => dat1 V c) (fun V c => dat2 V c) m ρ c),
      (h c _ (mem_uc main_arg3 (by decide))).trans (W6_main_arg3 (fun V c => dat1 V c) (fun V c => dat2 V c) m ρ c),
      (h c _ (mem_uc main_arg4 (by decide))).trans (W6_main_arg4 (fun V c => dat1 V c) (fun V c => dat2 V c) m ρ c),
      (h c _ (mem_uc main_arg5 (by decide))).trans (W6_main_arg5 (fun V c => dat1 V c) (fun V c => dat2 V c) m ρ c)⟩)
    (run_named m ρ)

end Cert.KernelIdeal.Fr

end
-- ==== Proof.KernelIdeal.HostReads.lean ====
/-
  What the three stretches of host operations leave, read at an index, at the extended reals.

  Before region 0 the fused weight is transposed (and its format changed, which is the identity here) and the
  fused bias gets a leading unit axis; before region 1 the integer mask is converted exactly, multiplied by the
  most negative finite f32 and reshaped to [2, 1, 2048]; before region 2 the output weight is transposed and the
  output bias gets a leading unit axis. Every other buffer passes a stretch unchanged, and a region replaces
  exactly the arrays of its windows: so the three regions' input arrays are read back to the launch memory
  and to the previous region's output arrays.
-/
import proofs.«109941_j17609365914550_2_alg».proof.Proof.KernelIdeal.Frame
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-! ## Region 0's inputs -/

/-- The input array enters region 0 as launched. -/
theorem entry0_x : V1 m ρ c main_arg0 = m ((c : Thread nD τ).loc main_arg0) :=
  StableHlo.after_of_writes_sub hostOps0 _ hostOps0_writes (show (main_arg0 : Ref sig .tc) ∉ hostOps0_W from by decide)

/-- The transposed fused weight at `(e, f)` is the launched weight at `(f, e)`. -/
theorem entry0_w (e : Fin 768) (f : Fin 2304) :
    (V1 m ρ c main_v1 : S768x2304.Idx → EReal) (ix2 e f) = (m ((c : Thread nD τ).loc main_arg2) : S2304x768.Idx → EReal) (ix2 f e) := by
  have h : (V1 m ρ c main_v1 : S768x2304.Idx → EReal)
      = (truncf (F := Ideal) .bf16 (transpose S768x2304 [1, 0] (m ((c : Thread nD τ).loc main_arg2) : FVec Ideal S2304x768 .f32) transposes_S2304x768_S768x2304_1_0) bitsLt_bf16_f32 : FVec Ideal S768x2304 .bf16) := by
    show StableHlo.after hostOps0 (W0 m ρ c) (Proc.devRef .tc main_v1) = _
    after_results
    try rfl
  rw [h, truncf_apply]
  exact transpose_apply _ _ _ _ _ (fun b => by match b with | ⟨0, _⟩ => rfl | ⟨1, _⟩ => rfl)

/-- The fused bias with a leading unit axis at `(0, f)` is the launched bias at `f`. -/
theorem entry0_b (f : Fin 2304) :
    (V1 m ρ c main_v2 : S1x2304.Idx → EReal) (ix2 0 f) = (m ((c : Thread nD τ).loc main_arg3) : S2304.Idx → EReal) (ix1 f) := by
  have h : (V1 m ρ c main_v2 : S1x2304.Idx → EReal)
      = (shapeCast S1x2304 (m ((c : Thread nD τ).loc main_arg3) : FVec Ideal S2304 .f32) shapeCasts_S2304_S1x2304 : FVec Ideal S1x2304 .f32) := by
    show StableHlo.after hostOps0 (W0 m ρ c) (Proc.devRef .tc main_v2) = _
    after_results
    try rfl
  rw [h]
  refine shapeCast_apply (s := S2304) (t := S1x2304) _ _ _ (ix1 f) ?_
  show (S2304.rowMajor (ix1 f)).val = (S1x2304.rowMajor (ix2 0 f)).val
  rw [Shape.rowMajor_val_one, Shape.rowMajor_val_two]
  show f.val = 0 * _ + f.val
  omega

/-! ## Region 1's inputs -/

/-- The query, key and value arrays enter region 1 as region 0 left them. -/
theorem entry1_q : V3 m ρ c main_v3_0 = (dat0 (V1 m ρ) c).arrAt 3 cfg0.N :=
  (StableHlo.after_of_writes_sub hostOps1 _ hostOps1_writes (show (main_v3_0 : Ref sig .tc) ∉ hostOps1_W from by decide)).trans (W2_arr m ρ c 3)
theorem entry1_k : V3 m ρ c main_v3_1 = (dat0 (V1 m ρ) c).arrAt 4 cfg0.N :=
  (StableHlo.after_of_writes_sub hostOps1 _ hostOps1_writes (show (main_v3_1 : Ref sig .tc) ∉ hostOps1_W from by decide)).trans (W2_arr m ρ c 4)
theorem entry1_v : V3 m ρ c main_v3_2 = (dat0 (V1 m ρ) c).arrAt 5 cfg0.N :=
  (StableHlo.after_of_writes_sub hostOps1 _ hostOps1_writes (show (main_v3_2 : Ref sig .tc) ∉ hostOps1_W from by decide)).trans (W2_arr m ρ c 5)

/-- The mask passes the first stretch and region 0 unchanged. -/
theorem mask_after0 : W2 m ρ c (Proc.devRef .tc main_arg1) = m ((c : Thread nD τ).loc main_arg1) :=
  (W2_of_ne m ρ c main_arg1 (by decide)).trans
    (StableHlo.after_of_writes_sub hostOps0 _ hostOps0_writes (show (main_arg1 : Ref sig .tc) ∉ hostOps0_W from by decide))

/-- The additive key bias at `(b, 0, j)`: the mask word at `(b, j)` converted exactly, times the most negative finite f32. -/
theorem entry1_kb (b : Fin 2) (j : Fin 2048) :
    (V3 m ρ c main_v7 : S2x1x2048.Idx → EReal) (ix3 b 0 j)
      = FloatOps.sitofp (F := Ideal) .f32 ((m ((c : Thread nD τ).loc main_arg1) : S2x2048.Idx → BitVec 32) (ix2 b j)) * Ideal.ofBits .f32 0xFF7FFFFF#32 := by
  have h : (V3 m ρ c main_v7 : S2x1x2048.Idx → EReal)
      = (shapeCast S2x1x2048 (mulf (sitofp (F := Ideal) .f32 (W2 m ρ c (Proc.devRef .tc main_arg1) : IVec S2x2048 32))
          (broadcastInDim S2x2048 ![] bcast_S_S2x2048 (constant (F := Ideal) S_ .f32 0xFF7FFFFF#32))) shapeCasts_S2x2048_S2x1x2048 : FVec Ideal S2x1x2048 .f32) := by
    show StableHlo.after hostOps1 (W2 m ρ c) (Proc.devRef .tc main_v7) = _
    after_results
    try rfl
  rw [h, mask_after0]
  have e : (shapeCast S2x1x2048 (mulf (sitofp (F := Ideal) .f32 (m ((c : Thread nD τ).loc main_arg1) : IVec S2x2048 32))
          (broadcastInDim S2x2048 ![] bcast_S_S2x2048 (constant (F := Ideal) S_ .f32 0xFF7FFFFF#32))) shapeCasts_S2x2048_S2x1x2048 : FVec Ideal S2x1x2048 .f32) (ix3 b 0 j)
      = (mulf (sitofp (F := Ideal) .f32 (m ((c : Thread nD τ).loc main_arg1) : IVec S2x2048 32))
          (broadcastInDim S2x2048 ![] bcast_S_S2x2048 (constant (F := Ideal) S_ .f32 0xFF7FFFFF#32)) : FVec Ideal S2x2048 .f32) (ix2 b j) := by
    refine shapeCast_apply (s := S2x2048) (t := S2x1x2048) _ _ _ (ix2 b j) ?_
    show (S2x2048.rowMajor (ix2 b j)).val = (S2x1x2048.rowMajor (ix3 b 0 j)).val
    rw [Shape.rowMajor_val_two, Shape.rowMajor_val_three]
    show b.val * 2048 + j.val = (b.val * 1 + 0) * 2048 + j.val
    omega
  rw [e, mulf_apply, sitofp_apply, broadcastInDim_scalar_apply, constant_apply]

/-! ## Region 2's inputs -/

/-- The attention output enters region 2 as region 1 left it. -/
theorem entry2_a : V5 (fun V c => dat1 V c) m ρ c main_v8 = (dat1 (V3 m ρ) c).arrAt 4 cfg1.N :=
  (StableHlo.after_of_writes_sub hostOps2 _ hostOps2_writes (show (main_v8 : Ref sig .tc) ∉ hostOps2_W from by decide)).trans
    (W4_arr (fun V c => dat1 V c) m ρ c 4)

/-- The output weight and bias pass the first two stretches and regions 0 and 1 unchanged. -/
theorem wproj_after1 : W4 (fun V c => dat1 V c) m ρ c (Proc.devRef .tc main_arg4) = m ((c : Thread nD τ).loc main_arg4) :=
  calc W4 (fun V c => dat1 V c) m ρ c (Proc.devRef .tc main_arg4)
    _ = W3 m ρ c (Proc.devRef .tc main_arg4) := W4_of_ne (fun V c => dat1 V c) m ρ c main_arg4 (by decide)
    _ = W2 m ρ c (Proc.devRef .tc main_arg4) := StableHlo.after_of_writes_sub hostOps1 _ hostOps1_writes (show (main_arg4 : Ref sig .tc) ∉ hostOps1_W from by decide)
    _ = W1 m ρ c (Proc.devRef .tc main_arg4) := W2_of_ne m ρ c main_arg4 (by decide)
    _ = m ((c : Thread nD τ).loc main_arg4) := StableHlo.after_of_writes_sub hostOps0 _ hostOps0_writes (show (main_arg4 : Ref sig .tc) ∉ hostOps0_W from by decide)
theorem bproj_after1 : W4 (fun V c => dat1 V c) m ρ c (Proc.devRef .tc main_arg5) = m ((c : Thread nD τ).loc main_arg5) :=
  calc W4 (fun V c => dat1 V c) m ρ c (Proc.devRef .tc main_arg5)
    _ = W3 m ρ c (Proc.devRef .tc main_arg5) := W4_of_ne (fun V c => dat1 V c) m ρ c main_arg5 (by decide)
    _ = W2 m ρ c (Proc.devRef .tc main_arg5) := StableHlo.after_of_writes_sub hostOps1 _ hostOps1_writes (show (main_arg5 : Ref sig .tc) ∉ hostOps1_W from by decide)
    _ = W1 m ρ c (Proc.devRef .tc main_arg5) := W2_of_ne m ρ c main_arg5 (by decide)
    _ = m ((c : Thread nD τ).loc main_arg5) := StableHlo.after_of_writes_sub hostOps0 _ hostOps0_writes (show (main_arg5 : Ref sig .tc) ∉ hostOps0_W from by decide)

/-- The transposed output weight at `(e, f)` is the launched weight at `(f, e)`. -/
theorem entry2_w (e f : Fin 768) :
    (V5 (fun V c => dat1 V c) m ρ c main_v10 : S768x768.Idx → EReal) (ix2 e f) = (m ((c : Thread nD τ).loc main_arg4) : S768x768.Idx → EReal) (ix2 f e) := by
  have h : (V5 (fun V c => dat1 V c) m ρ c main_v10 : S768x768.Idx → EReal)
      = (truncf (F := Ideal) .bf16 (transpose S768x768 [1, 0] (W4 (fun V c => dat1 V c) m ρ c (Proc.devRef .tc main_arg4) : FVec Ideal S768x768 .f32) transposes_S768x768_S768x768_1_0) bitsLt_bf16_f32 : FVec Ideal S768x768 .bf16) := by
    show StableHlo.after hostOps2 (W4 (fun V c => dat1 V c) m ρ c) (Proc.devRef .tc main_v10) = _
    after_results
    try rfl
  rw [h, wproj_after1, truncf_apply]
  exact transpose_apply _ _ _ _ _ (fun b => by match b with | ⟨0, _⟩ => rfl | ⟨1, _⟩ => rfl)

/-- The output bias with a leading unit axis at `(0, f)` is the launched bias at `f`. -/
theorem entry2_b (f : Fin 768) :
    (V5 (fun V c => dat1 V c) m ρ c main_v11 : S1x768.Idx → EReal) (ix2 0 f) = (m ((c : Thread nD τ).loc main_arg5) : S768.Idx → EReal) (ix1 f) := by
  have h : (V5 (fun V c => dat1 V c) m ρ c main_v11 : S1x768.Idx → EReal)
      = (shapeCast S1x768 (W4 (fun V c => dat1 V c) m ρ c (Proc.devRef .tc main_arg5) : FVec Ideal S768 .f32) shapeCasts_S768_S1x768 : FVec Ideal S1x768 .f32) := by
    show StableHlo.after hostOps2 (W4 (fun V c => dat1 V c) m ρ c) (Proc.devRef .tc main_v11) = _
    after_results
    try rfl
  rw [h, bproj_after1]
  refine shapeCast_apply (s := S768) (t := S1x768) _ _ _ (ix1 f) ?_
  show (S768.rowMajor (ix1 f)).val = (S1x768.rowMajor (ix2 0 f)).val
  rw [Shape.rowMajor_val_one, Shape.rowMajor_val_two]
  show f.val = 0 * _ + f.val
  omega

/-- The program's result buffer ends at region 2's output array. -/
theorem result_arr : Wend m ρ c (Proc.devRef .tc main_v12) = (dat2 (V5 (fun V c => dat1 V c) m ρ) c).arrAt 3 cfg2.N :=
  W6_arr (fun V c => dat1 V c) (fun V c => dat2 V c) m ρ c 3

end Cert.KernelIdeal.Val

end
-- ==== Proof.Spec.lean ====
/-
  The mathematical specification both programs are proved against: multi-head softmax attention with a
  key mask, as a function of coordinates, over the extended reals.

  Sizes: batch 2, sequence 2048, model width 768 = 12 heads × 64, fused q/k/v width 2304 = 3 × 768.

    qkv[b, s, f]      = (∑ e, x[b, s, e] · W[f, e]) + bq[f]
    head_w[b, h, s, d] = qkv[b, s, w·768 + h·64 + d]            (w = 0, 1, 2 for q, k, v)
    score[b, h, i, j] = (∑ d, q[b, h, i, d] · k[b, h, j, d]) · c + mask[b, j] · c'
    M[b, h, i]        = max(-∞, max_j-fold from -∞ of score[b, h, i, j])
    attn[b, h, i, j]  = exp(score[b, h, i, j] − M[b, h, i]) / ∑ j', exp(score[b, h, i, j'] − M[b, h, i])
    ctx[b, h, i, d]   = ∑ j, attn[b, h, i, j] · v[b, h, j, d]
    out[b, s, f]      = (∑ e, ctx[b, e / 64, s, e % 64] · Wp[f, e]) + bp[f]

  The constants c, c' and -∞ are kept as the f32 bit patterns 0x3E000000 (2⁻³), 0xFF7FFFFF (the most
  negative finite f32) and 0xFF800000; they are never evaluated here.
-/
import Idealize.ShloMosaic.PureOps.Ideal
import Idealize.ShloMosaic.Lib.ValueIdx

noncomputable section

open scoped BigOperators

namespace Cert.Spec

open Idealize.ShloMosaic Idealize.ShloMosaic.ValueIdx

/-- The fused projection: row `s` of batch `b` against row `f` of the weight, plus the bias. -/
def qkvAt (x : Fin 2 → Fin 2048 → Fin 768 → EReal) (W : Fin 2304 → Fin 768 → EReal) (bq : Fin 2304 → EReal) :
    Fin 2 → Fin 2048 → Fin 2304 → EReal :=
  fun b s f => (∑ e : Fin 768, x b s e * W f e) + bq f

/-- The feature `which · 768 + h · 64 + d` of the fused projection's 2304. -/
def featOf (which : Fin 3) (h : Fin 12) (d : Fin 64) : Fin 2304 :=
  ⟨which.val * 768 + h.val * 64 + d.val, by
    have h0 : which.val < 3 := which.isLt
    have h1 : h.val < 12 := h.isLt
    have h2 : d.val < 64 := d.isLt
    omega⟩

/-- Head `h` of the query (`which = 0`), key (`1`) or value (`2`) part of the fused projection. -/
def headAt (which : Fin 3) (x : Fin 2 → Fin 2048 → Fin 768 → EReal) (W : Fin 2304 → Fin 768 → EReal)
    (bq : Fin 2304 → EReal) : Fin 2 → Fin 12 → Fin 2048 → Fin 64 → EReal :=
  fun b h s d => qkvAt x W bq b s (featOf which h d)

/-- The scaled, masked score of query row `i` against key row `j` (`mask` already a float). -/
def scoreAt (q k : Fin 2 → Fin 12 → Fin 2048 → Fin 64 → EReal) (mask : Fin 2 → Fin 2048 → EReal) :
    Fin 2 → Fin 12 → Fin 2048 → Fin 2048 → EReal :=
  fun b h i j => (∑ d : Fin 64, q b h i d * k b h j d) * Ideal.ofBits .f32 0x3E000000#32
    + mask b j * Ideal.ofBits .f32 0xFF7FFFFF#32

/-- The row maximum over the keys: the fold of `max` from -∞ over the 2048 keys, and once more against -∞. -/
def rowMaxAt (sc : Fin 2 → Fin 12 → Fin 2048 → Fin 2048 → EReal) : Fin 2 → Fin 12 → Fin 2048 → EReal :=
  fun b h i => max (Ideal.ofBits .f32 0xFF800000#32)
    ((Finset.univ : Finset (Fin 2048)).fold max (Ideal.ofBits .f32 0xFF800000#32) (fun j => sc b h i j))

/-- The softmax over the keys. -/
def attnAt (sc : Fin 2 → Fin 12 → Fin 2048 → Fin 2048 → EReal) : Fin 2 → Fin 12 → Fin 2048 → Fin 2048 → EReal :=
  fun b h i j => Ideal.div (Ideal.exp (sc b h i j - rowMaxAt sc b h i))
    (∑ j' : Fin 2048, Ideal.exp (sc b h i j' - rowMaxAt sc b h i))

/-- The attention-weighted sum of the values. -/
def ctxAt (a : Fin 2 → Fin 12 → Fin 2048 → Fin 2048 → EReal) (v : Fin 2 → Fin 12 → Fin 2048 → Fin 64 → EReal) :
    Fin 2 → Fin 12 → Fin 2048 → Fin 64 → EReal :=
  fun b h i d => ∑ j : Fin 2048, a b h i j * v b h j d

/-- The head of model feature `e`: `e / 64`. -/
def headOf (e : Fin 768) : Fin 12 := ⟨e.val / 64, by have h := e.isLt; omega⟩
/-- The position of model feature `e` inside its head: `e % 64`. -/
def dimOf (e : Fin 768) : Fin 64 := ⟨e.val % 64, by omega⟩

/-- The output projection of the merged heads, plus the bias. -/
def outAt (ctx : Fin 2 → Fin 12 → Fin 2048 → Fin 64 → EReal) (Wp : Fin 768 → Fin 768 → EReal) (bp : Fin 768 → EReal) :
    Fin 2 → Fin 2048 → Fin 768 → EReal :=
  fun b s f => (∑ e : Fin 768, ctx b (headOf e) s (dimOf e) * Wp f e) + bp f

/-- The whole computation by coordinates, from the six arrays by coordinates (`mask` already a float). -/
def attention (x : Fin 2 → Fin 2048 → Fin 768 → EReal) (mask : Fin 2 → Fin 2048 → EReal)
    (W : Fin 2304 → Fin 768 → EReal) (bq : Fin 2304 → EReal) (Wp : Fin 768 → Fin 768 → EReal) (bp : Fin 768 → EReal) :
    Fin 2 → Fin 2048 → Fin 768 → EReal :=
  outAt (ctxAt (attnAt (scoreAt (headAt 0 x W bq) (headAt 1 x W bq) mask)) (headAt 2 x W bq)) Wp bp

/-- The result array as a function of the six argument arrays: the input [2, 2048, 768], the integer mask
    [2, 2048] (converted to a float exactly), the fused weight [2304, 768] and bias [2304], the output weight
    [768, 768] and bias [768]. -/
def G (x0 : (⟨3, ![2, 2048, 768]⟩ : Shape).Idx → EReal) (x1 : (⟨2, ![2, 2048]⟩ : Shape).Idx → BitVec 32)
    (x2 : (⟨2, ![2304, 768]⟩ : Shape).Idx → EReal) (x3 : (⟨1, ![2304]⟩ : Shape).Idx → EReal)
    (x4 : (⟨2, ![768, 768]⟩ : Shape).Idx → EReal) (x5 : (⟨1, ![768]⟩ : Shape).Idx → EReal) :
    (⟨3, ![2, 2048, 768]⟩ : Shape).Idx → EReal :=
  fun i => attention (fun b s e => x0 (ix3 b s e))
    (fun b j => FloatOps.sitofp (F := Ideal) .f32 (x1 (ix2 b j)))
    (fun f e => x2 (ix2 f e)) (fun f => x3 (ix1 f))
    (fun f e => x4 (ix2 f e)) (fun f => x5 (ix1 f)) (i 0) (i 1) (i 2)

end Cert.Spec

end
-- ==== Proof.KernelIdeal.Value0Pay.lean ====
/-
  Region 0's payloads read at an index, over the extended reals.

  The body forms, for a 256-row block x of the input, the whole 768 × 2304 weight w and the bias row b,
      y[r, f] = (∑ e, x[0, r, e] · w[e, f]) + b[0, f]
  and stores, for which = 0, 1, 2, the 768-column third of y at column offset which · 768, split into 12 heads
  of 64 columns and laid head-major with a leading unit axis:
      out_which[0, h, r, d] = y[r, which · 768 + h · 64 + d].
  At the ideal instance the narrowing format changes are the identity and the matrix product into the zero
  accumulator is the plain sum over the contraction index.
-/
import proofs.«109941_j17609365914550_2_alg».proof.Proof.KernelIdeal.Region0
import proofs.«109941_j17609365914550_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val0

open Cert.KernelIdeal Cert.KernelIdeal.Gen
open Idealize.ShloMosaic Idealize.ShloMosaic.TcCoe Idealize.ShloMosaic.ValueIdx
open scoped BigOperators

/-! ## The matrix product's operand indices -/

theorem lhs0_0 (j : S256x2304.Idx) (q : (dot_S256x768_S768x2304_S256x2304_1_0_0_1_n_n).contr.Idx) :
    ((dot_S256x768_S768x2304_S256x2304_1_0_0_1_n_n).lhsIdx j q 0).val = (j 0).val := by
  unfold DotDims.lhsIdx
  rw [dif_neg (show ¬(0 : Fin S256x768.rank) ∈ (dot_S256x768_S768x2304_S256x2304_1_0_0_1_n_n).lhsBatch by decide),
    dif_pos (show (0 : Fin S256x768.rank) ∈ (dot_S256x768_S768x2304_S256x2304_1_0_0_1_n_n).lhsNonContracting by decide)]
  rfl
theorem lhs0_1 (j : S256x2304.Idx) (q : (dot_S256x768_S768x2304_S256x2304_1_0_0_1_n_n).contr.Idx) :
    ((dot_S256x768_S768x2304_S256x2304_1_0_0_1_n_n).lhsIdx j q 1).val = (q ⟨0, by decide⟩).val :=
  (dot_S256x768_S768x2304_S256x2304_1_0_0_1_n_n).lhsIdx_val_of_single rfl j q
theorem rhs0_0 (j : S256x2304.Idx) (q : (dot_S256x768_S768x2304_S256x2304_1_0_0_1_n_n).contr.Idx) :
    ((dot_S256x768_S768x2304_S256x2304_1_0_0_1_n_n).rhsIdx j q 0).val = (q ⟨0, by decide⟩).val :=
  (dot_S256x768_S768x2304_S256x2304_1_0_0_1_n_n).rhsIdx_val_of_single rfl j q
theorem rhs0_1 (j : S256x2304.Idx) (q : (dot_S256x768_S768x2304_S256x2304_1_0_0_1_n_n).contr.Idx) :
    ((dot_S256x768_S768x2304_S256x2304_1_0_0_1_n_n).rhsIdx j q 1).val = (j 1).val := by
  unfold DotDims.rhsIdx
  rw [dif_neg (show ¬(1 : Fin S768x2304.rank) ∈ (dot_S256x768_S768x2304_S256x2304_1_0_0_1_n_n).rhsBatch by decide),
    dif_pos (show (1 : Fin S768x2304.rank) ∈ (dot_S256x768_S768x2304_S256x2304_1_0_0_1_n_n).rhsNonContracting by decide)]
  rfl

/-! ## The block product plus the bias, at (r, f) -/

/-- y[r, f] = (∑ e, x[0, r, e] · w[e, f]) + b[0, f]. -/
theorem pay1_apply (x0 : Vec Ideal S1x256x768 .f32) (x1 : Vec Ideal S768x2304 .bf16) (x2 : Vec Ideal S1x2304 .f32)
    (r : Fin 256) (f : Fin 2304) :
    k0_pay1 (F := Ideal) x0 x1 x2 (ix2 r f)
      = (∑ e : Fin 768, x0 (ix3 (0 : Fin 1) r e) * x1 (ix2 e f)) + x2 (ix2 (0 : Fin 1) f) := by
  unfold k0_pay1
  refine (addf_apply _ _ (ix2 r f)).trans ?_
  refine congrArg₂ (· + ·) ?_ ?_
  · refine (Ideal.matmul_constant_zero_apply dot_S256x768_S768x2304_S256x2304_1_0_0_1_n_n none _ _ (ix2 r f)).trans ?_
    rw [← Equiv.sum_comp (contrEquiv1 dot_S256x768_S768x2304_S256x2304_1_0_0_1_n_n 768 rfl rfl).symm]
    refine Finset.sum_congr rfl fun k _ => ?_
    have hk := contrEquiv1_symm_val dot_S256x768_S768x2304_S256x2304_1_0_0_1_n_n 768 rfl rfl k
    have el : (dot_S256x768_S768x2304_S256x2304_1_0_0_1_n_n).lhsIdx (ix2 r f) ((contrEquiv1 dot_S256x768_S768x2304_S256x2304_1_0_0_1_n_n 768 rfl rfl).symm k) = ix2 r k :=
      funext fun a => Fin.ext (by
        match a with
        | ⟨0, _⟩ => exact lhs0_0 _ _
        | ⟨1, _⟩ => exact (lhs0_1 _ _).trans hk)
    have er : (dot_S256x768_S768x2304_S256x2304_1_0_0_1_n_n).rhsIdx (ix2 r f) ((contrEquiv1 dot_S256x768_S768x2304_S256x2304_1_0_0_1_n_n 768 rfl rfl).symm k) = ix2 k f :=
      funext fun a => Fin.ext (by
        match a with
        | ⟨0, _⟩ => exact (rhs0_0 _ _).trans hk
        | ⟨1, _⟩ => exact rhs0_1 _ _)
    rw [el, er]
    refine congrArg₂ (· * ·) ?_ ?_
    · exact (truncf_apply (ψ := .bf16) (shapeCast S256x768 x0 shapeCasts_S1x256x768_S256x768) bitsLt_bf16_f32 (ix2 r k)).trans
        (shapeCast_1ab_ab_apply x0 shapeCasts_S1x256x768_S256x768 r k)
    · exact congrFun (shapeCast_self x1 _) _
  · refine (broadcastTo_1b_ab_apply _ _ r f).trans ?_
    exact congrFun (shapeCast_self x2 _) _

/-! ## A 768-column third, split into heads and laid head-major, at (0, h, r, d) -/

/-- The layout chain of each store: the slice of y at column offset o, narrowed (the identity here), reshaped
    [256, 768] → [256, 12, 64], transposed to [12, 256, 64] and given a leading unit axis, reads at (u, h, r, d)
    the entry of y at (r, o + h · 64 + d). -/
theorem heads_apply (o : Nat) (y : FVec Ideal S256x2304 .f32) (hs : S256x2304.Slices ![0, o] S256x768)
    (u : Fin 1) (h : Fin 12) (r : Fin 256) (d : Fin 64) (k : Fin 2304) (hk : k.val = o + (h.val * 64 + d.val)) :
    shapeCast S1x12x256x64
        (transpose S12x256x64 [1, 0, 2]
          (shapeCast S256x12x64 (truncf .bf16 (extractStridedSlice S256x768 ![0, o] y hs) bitsLt_bf16_f32)
            shapeCasts_S256x768_S256x12x64)
          transposes_S256x12x64_p1_0_2_S12x256x64)
        shapeCasts_S12x256x64_S1x12x256x64 (ix4 u h r d) = y (ix2 r k) := by
  have hc : h.val * 64 + d.val < 768 := by have := h.isLt; have := d.isLt; omega
  refine (shapeCast_abc_1abc_apply _ shapeCasts_S12x256x64_S1x12x256x64 u h r d).trans ?_
  refine (transpose_apply _ _ transposes_S256x12x64_p1_0_2_S12x256x64 (ix3 h r d) (ix3 r h d)
    (fun c => match c with | ⟨0, _⟩ => rfl | ⟨1, _⟩ => rfl | ⟨2, _⟩ => rfl)).trans ?_
  refine (shapeCast_apply _ shapeCasts_S256x768_S256x12x64 (ix3 r h d) (ix2 r ⟨h.val * 64 + d.val, hc⟩) (by
    rw [Shape.rowMajor_val_two, Shape.rowMajor_val_three]
    show r.val * 768 + (h.val * 64 + d.val) = (r.val * 12 + h.val) * 64 + d.val
    omega)).trans ?_
  refine (truncf_apply (ψ := .bf16) (extractStridedSlice S256x768 ![0, o] y hs) bitsLt_bf16_f32 _).trans ?_
  exact slice2_axis1_apply o y hs r ⟨h.val * 64 + d.val, hc⟩ k hk

/-! ## The three stores -/

/-- The query block: out[u, h, r, d] = y[r, 0 · 768 + h · 64 + d]. -/
theorem pay2_apply (x0 : Vec Ideal S1x256x768 .f32) (x1 : Vec Ideal S768x2304 .bf16) (x2 : Vec Ideal S1x2304 .f32)
    (u : Fin 1) (h : Fin 12) (r : Fin 256) (d : Fin 64) :
    k0_pay2 (F := Ideal) x0 x1 x2 (ix4 u h r d)
      = (∑ e : Fin 768, x0 (ix3 (0 : Fin 1) r e) * x1 (ix2 e (Cert.Spec.featOf 0 h d)))
        + x2 (ix2 (0 : Fin 1) (Cert.Spec.featOf 0 h d)) := by
  have hf : (Cert.Spec.featOf 0 h d).val = 0 + (h.val * 64 + d.val) := by
    show 0 * 768 + h.val * 64 + d.val = _
    omega
  unfold k0_pay2
  exact (heads_apply 0 (k0_pay1 x0 x1 x2) slices_S256x2304_o0_0_S256x768 u h r d (Cert.Spec.featOf 0 h d) hf).trans
    (pay1_apply x0 x1 x2 r (Cert.Spec.featOf 0 h d))

/-- The key block: out[u, h, r, d] = y[r, 1 · 768 + h · 64 + d]. -/
theorem pay3_apply (x0 : Vec Ideal S1x256x768 .f32) (x1 : Vec Ideal S768x2304 .bf16) (x2 : Vec Ideal S1x2304 .f32)
    (u : Fin 1) (h : Fin 12) (r : Fin 256) (d : Fin 64) :
    k0_pay3 (F := Ideal) x0 x1 x2 (ix4 u h r d)
      = (∑ e : Fin 768, x0 (ix3 (0 : Fin 1) r e) * x1 (ix2 e (Cert.Spec.featOf 1 h d)))
        + x2 (ix2 (0 : Fin 1) (Cert.Spec.featOf 1 h d)) := by
  have hf : (Cert.Spec.featOf 1 h d).val = 768 + (h.val * 64 + d.val) := by
    show 1 * 768 + h.val * 64 + d.val = _
    omega
  unfold k0_pay3
  exact (heads_apply 768 (k0_pay1 x0 x1 x2) slices_S256x2304_o0_768_S256x768 u h r d (Cert.Spec.featOf 1 h d) hf).trans
    (pay1_apply x0 x1 x2 r (Cert.Spec.featOf 1 h d))

/-- The value block: out[u, h, r, d] = y[r, 2 · 768 + h · 64 + d]. -/
theorem pay4_apply (x0 : Vec Ideal S1x256x768 .f32) (x1 : Vec Ideal S768x2304 .bf16) (x2 : Vec Ideal S1x2304 .f32)
    (u : Fin 1) (h : Fin 12) (r : Fin 256) (d : Fin 64) :
    k0_pay4 (F := Ideal) x0 x1 x2 (ix4 u h r d)
      = (∑ e : Fin 768, x0 (ix3 (0 : Fin 1) r e) * x1 (ix2 e (Cert.Spec.featOf 2 h d)))
        + x2 (ix2 (0 : Fin 1) (Cert.Spec.featOf 2 h d)) := by
  have hf : (Cert.Spec.featOf 2 h d).val = 1536 + (h.val * 64 + d.val) := by
    show 2 * 768 + h.val * 64 + d.val = _
    omega
  unfold k0_pay4
  exact (heads_apply 1536 (k0_pay1 x0 x1 x2) slices_S256x2304_o0_1536_S256x768 u h r d (Cert.Spec.featOf 2 h d) hf).trans
    (pay1_apply x0 x1 x2 r (Cert.Spec.featOf 2 h d))

end Cert.KernelIdeal.Val0

end
-- ==== Proof.KernelIdeal.Value0.lean ====
/-
  Region 0's three output arrays after the region, as one function of the three input arrays as the region
  finds them.

  The grid is 2 × 8: point t = (b, s) = (t / 8, t % 8) reads rows s · 256 … s · 256 + 255 of batch b of the input,
  the whole weight and the bias row, and writes block (b, 0, s, 0) of sizes [1, 12, 256, 64] of each of the three
  outputs. Its stored element at (0, h, r, d) is the fused projection of row (b, s · 256 + r) at column
  which · 768 + h · 64 + d, so every block is the restriction of ONE function of the whole arrays; the sixteen
  blocks tile the [2, 12, 2048, 64] array (the point covering (b, ·, s, ·) is b · 8 + s / 256).
-/
import proofs.«109941_j17609365914550_2_alg».proof.Proof.KernelIdeal.Value0Pay

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The function -/

/-- The fused projection laid out by heads: at (b, h, s, d) the row (b, s) of the input against column
    which · 768 + h · 64 + d of the (transposed) weight, plus that column's bias. -/
def qkvArr (which : Fin 3) (x : S2x2048x768.Idx → EReal) (w : S768x2304.Idx → EReal) (b : S1x2304.Idx → EReal) :
    S2x12x2048x64.Idx → EReal :=
  fun i => (∑ e : Fin 768, x (ix3 (i 0) (i 2) e) * w (ix2 e (Cert.Spec.featOf which (i 1) (i 3))))
    + b (ix2 0 (Cert.Spec.featOf which (i 1) (i 3)))

theorem qkvArr_apply (which : Fin 3) (x : S2x2048x768.Idx → EReal) (w : S768x2304.Idx → EReal) (b : S1x2304.Idx → EReal)
    (i : S2x12x2048x64.Idx) :
    qkvArr which x w b i = (∑ e : Fin 768, x (ix3 (i 0) (i 2) e) * w (ix2 e (Cert.Spec.featOf which (i 1) (i 3))))
      + b (ix2 0 (Cert.Spec.featOf which (i 1) (i 3))) := rfl

/-- The same at explicit coordinates, as the specification's head function of the three arrays by coordinates. -/
theorem qkvArr_ix4 (which : Fin 3) (x : S2x2048x768.Idx → EReal) (w : S768x2304.Idx → EReal) (b : S1x2304.Idx → EReal)
    (bb : Fin 2) (h : Fin 12) (s : Fin 2048) (d : Fin 64) :
    qkvArr which x w b (ix4 bb h s d)
      = Cert.Spec.headAt which (fun b s e => x (ix3 b s e)) (fun f e => w (ix2 e f)) (fun f => b (ix2 0 f)) bb h s d := rfl

/-! ## One stored element -/

/-- A payload that reads as the fused projection of its three blocks, on blocks that are block (bi, si) of the
    input, the whole weight and the whole bias row, holds at j the function of the whole arrays at the array
    index i under j. -/
theorem store_eq (which : Fin 3)
    (pay : Vec Ideal S1x256x768 .f32 → Vec Ideal S768x2304 .bf16 → Vec Ideal S1x2304 .f32 → FVec Ideal S1x12x256x64 .bf16)
    (hpay : ∀ (x0 : Vec Ideal S1x256x768 .f32) (x1 : Vec Ideal S768x2304 .bf16) (x2 : Vec Ideal S1x2304 .f32)
      (u : Fin 1) (h : Fin 12) (r : Fin 256) (d : Fin 64), pay x0 x1 x2 (ix4 u h r d)
        = (∑ e : Fin 768, x0 (ix3 (0 : Fin 1) r e) * x1 (ix2 e (Cert.Spec.featOf which h d)))
          + x2 (ix2 (0 : Fin 1) (Cert.Spec.featOf which h d)))
    (X : S2x2048x768.Idx → EReal) (W : S768x2304.Idx → EReal) (B : S1x2304.Idx → EReal)
    (x0 : Vec Ideal S1x256x768 .f32) (x1 : Vec Ideal S768x2304 .bf16) (x2 : Vec Ideal S1x2304 .f32)
    (bi si : Nat)
    (h0 : ∀ (r : Fin 256) (e : Fin 768) (k : S2x2048x768.Idx), (k 0).val = bi → (k 1).val = si * 256 + r.val →
      (k 2).val = e.val → x0 (ix3 (0 : Fin 1) r e) = X k)
    (h1 : ∀ k : S768x2304.Idx, x1 k = W k) (h2 : ∀ k : S1x2304.Idx, x2 k = B k)
    (j : S1x12x256x64.Idx) (i : S2x12x2048x64.Idx)
    (hi0 : (i 0).val = bi) (hi1 : (i 1).val = (j 1).val) (hi2 : (i 2).val = si * 256 + (j 2).val)
    (hi3 : (i 3).val = (j 3).val) :
    pay x0 x1 x2 j = qkvArr which X W B i := by
  obtain ⟨u, h, r, d, rfl⟩ : ∃ (u : Fin 1) (h : Fin 12) (r : Fin 256) (d : Fin 64), j = ix4 u h r d :=
    ⟨j 0, j 1, j 2, j 3, eq_ix4 j⟩
  have ef : Cert.Spec.featOf which h d = Cert.Spec.featOf which (i 1) (i 3) :=
    congrArg₂ (Cert.Spec.featOf which) (Fin.ext hi1.symm) (Fin.ext hi3.symm)
  refine (hpay x0 x1 x2 u h r d).trans ?_
  rw [qkvArr_apply, ← ef]
  refine congrArg₂ (· + ·) (Finset.sum_congr rfl fun e _ => ?_) (h2 _)
  exact congrArg₂ (· * ·) (h0 r e (ix3 (i 0) (i 2) e) hi0 hi2 rfl) (h1 _)

/-! ## The index maps over the sixteen points -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The input's block index at point t is (t / 8, t % 8, 0); the weight's and the bias row's are zero. -/
theorem idx_in0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Each output's block index at point t is (t / 8, 0, t % 8, 0). -/
theorem idx_out0_3 : ∀ t : Fin cfg0.N,
    win0_3.index t (0 : Fin 4) = t.val / 8 ∧ win0_3.index t (1 : Fin 4) = 0
    ∧ win0_3.index t (2 : Fin 4) = t.val % 8 ∧ win0_3.index t (3 : Fin 4) = 0 :=
  (by decide +kernel : ∀ t : Fin grid0.N, _)

theorem idx_out0_4 : ∀ t : Fin cfg0.N,
    win0_4.index t (0 : Fin 4) = t.val / 8 ∧ win0_4.index t (1 : Fin 4) = 0
    ∧ win0_4.index t (2 : Fin 4) = t.val % 8 ∧ win0_4.index t (3 : Fin 4) = 0 :=
  (by decide +kernel : ∀ t : Fin grid0.N, _)

theorem idx_out0_5 : ∀ t : Fin cfg0.N,
    win0_5.index t (0 : Fin 4) = t.val / 8 ∧ win0_5.index t (1 : Fin 4) = 0
    ∧ win0_5.index t (2 : Fin 4) = t.val % 8 ∧ win0_5.index t (3 : Fin 4) = 0 :=
  (by decide +kernel : ∀ t : Fin grid0.N, _)

/-! ## The input blocks, read where the whole arrays hold them -/

/-- Row r, column e of the input block at point t is the input at (t / 8, (t % 8) · 256 + r, e). -/
theorem iblk0_0_apply (c : Dev nD) (t : Fin cfg0.N) (r : Fin 256) (e : Fin 768) (k : S2x2048x768.Idx)
    (k0 : (k 0).val = t.val / 8) (k1 : (k 1).val = t.val % 8 * 256 + r.val) (k2 : (k 2).val = e.val) :
    Fr.iblk0 V c 0 t (ix3 (0 : Fin 1) r e) = V c (Pipeline.arrRef spec0 0) k := by
  obtain ⟨e0, e1, e2, -⟩ := idx_in0 t
  show V c (Pipeline.arrRef spec0 0) (((cfg0.win 0).blk t).view.emb (ix3 (0 : Fin 1) r e)) = V c (Pipeline.arrRef spec0 0) k
  refine congrArg _ (funext fun a => Fin.ext ?_)
  match a with
  | ⟨0, _⟩ => show win0_0.index t (0 : Fin 3) * 1 + 1 * 0 = (k 0).val; omega
  | ⟨1, _⟩ => show win0_0.index t (1 : Fin 3) * 256 + 1 * r.val = (k 1).val; omega
  | ⟨2, _⟩ => show win0_0.index t (2 : Fin 3) * 768 + 1 * e.val = (k 2).val; omega

/-- The weight block at any point is the whole weight. -/
theorem iblk0_1_apply (c : Dev nD) (t : Fin cfg0.N) (k : S768x2304.Idx) :
    Fr.iblk0 V c 1 t k = V c (Pipeline.arrRef spec0 1) k := by
  obtain ⟨-, -, -, e0, e1, -⟩ := idx_in0 t
  show V c (Pipeline.arrRef spec0 1) (((cfg0.win 1).blk t).view.emb k) = V c (Pipeline.arrRef spec0 1) k
  refine congrArg _ (funext fun a => Fin.ext ?_)
  match a with
  | ⟨0, _⟩ => show win0_1.index t (0 : Fin 2) * 768 + 1 * (k 0).val = (k 0).val; omega
  | ⟨1, _⟩ => show win0_1.index t (1 : Fin 2) * 2304 + 1 * (k 1).val = (k 1).val; omega

/-- The bias block at any point is the whole bias row. -/
theorem iblk0_2_apply (c : Dev nD) (t : Fin cfg0.N) (k : S1x2304.Idx) :
    Fr.iblk0 V c 2 t k = V c (Pipeline.arrRef spec0 2) k := by
  obtain ⟨-, -, -, -, -, e0, e1⟩ := idx_in0 t
  show V c (Pipeline.arrRef spec0 2) (((cfg0.win 2).blk t).view.emb k) = V c (Pipeline.arrRef spec0 2) k
  refine congrArg _ (funext fun a => Fin.ext ?_)
  match a with
  | ⟨0, _⟩ => show win0_2.index t (0 : Fin 2) * 1 + 1 * (k 0).val = (k 0).val; omega
  | ⟨1, _⟩ => show win0_2.index t (1 : Fin 2) * 2304 + 1 * (k 1).val = (k 1).val; omega

/-! ## Output window 3 -/

/-- What point t writes back is block t of the function of the whole arrays. -/
theorem flushed0_3_eq (c : Dev nD) (t : Fin cfg0.N) :
    (Fr.dat0 (F := Ideal) V c).flushed 3 t = ((cfg0.win 3).blk t).view.read (Elt Ideal)
      (qkvArr 0 (V c (Pipeline.arrRef spec0 0)) (V c (Pipeline.arrRef spec0 1)) (V c (Pipeline.arrRef spec0 2))) := by
  show (cfg0.win 3).cut (grid0.coords t) ((Fr.dat0 (F := Ideal) V c).after 3 t) = _
  rw [Fr.after0_3]
  unfold Fr.out0_3
  rw [View.canon_unit_zero hz4]
  simp only [View.ld_unit_zero (S := S1x256x768) hz3, View.ld_unit_zero (S := S768x2304) hz2,
    View.ld_unit_zero (S := S1x2304) hz2]
  obtain ⟨e0, e1, e2, e3⟩ := idx_out0_3 t
  funext j
  have hj0 : (j 0).val < 1 := (j 0).isLt
  have hj1 : (j 1).val < 12 := (j 1).isLt
  have hj2 : (j 2).val < 256 := (j 2).isLt
  have hj3 : (j 3).val < 64 := (j 3).isLt
  show k0_pay2 (Fr.iblk0 V c 0 t) (Fr.iblk0 V c 1 t) (Fr.iblk0 V c 2 t) j
    = qkvArr 0 (V c (Pipeline.arrRef spec0 0)) (V c (Pipeline.arrRef spec0 1)) (V c (Pipeline.arrRef spec0 2))
      (((cfg0.win 3).blk t).view.emb j)
  exact store_eq 0 k0_pay2 pay2_apply
    (V c (Pipeline.arrRef spec0 0)) (V c (Pipeline.arrRef spec0 1)) (V c (Pipeline.arrRef spec0 2))
    (Fr.iblk0 V c 0 t) (Fr.iblk0 V c 1 t) (Fr.iblk0 V c 2 t) (t.val / 8) (t.val % 8)
    (fun r e k k0 k1 k2 => iblk0_0_apply V c t r e k k0 k1 k2) (iblk0_1_apply V c t) (iblk0_2_apply V c t)
    j (((cfg0.win 3).blk t).view.emb j)
    (by show win0_3.index t (0 : Fin 4) * 1 + 1 * (j 0).val = t.val / 8; omega)
    (by show win0_3.index t (1 : Fin 4) * 12 + 1 * (j 1).val = (j 1).val; omega)
    (by show win0_3.index t (2 : Fin 4) * 256 + 1 * (j 2).val = t.val % 8 * 256 + (j 2).val; omega)
    (by show win0_3.index t (3 : Fin 4) * 64 + 1 * (j 3).val = (j 3).val; omega)

/-- An index of the array is in point t's block iff each coordinate is in the block's range on its axis. -/
theorem mem_blk0_3 (t : Fin cfg0.N) (i : S2x12x2048x64.Idx) :
    i ∈ ((cfg0.win 3).blk t).view.set ↔ ∀ a : Fin 4, win0_3.index t a * S1x12x256x64.size a ≤ (i a).val
      ∧ (i a).val < win0_3.index t a * S1x12x256x64.size a + S1x12x256x64.size a := by
  show i ∈ ((View.whole main_v3_0).slice (win0_3.rect t)).set ↔ _
  rw [View.set_slice_whole, Rect.mem_set_unit]
  exact Iff.rfl

/-- The sixteen blocks tile the array: (b, h, s, d) is in the block of point b · 8 + s / 256. -/
theorem cover0_3 (i : S2x12x2048x64.Idx) :
    ∃ t : Fin cfg0.N, (cfg0.win 3).flush t = true ∧ i ∈ ((cfg0.win 3).blk t).view.set := by
  have hi0 : (i 0).val < 2 := (i 0).isLt
  have hi1 : (i 1).val < 12 := (i 1).isLt
  have hi2 : (i 2).val < 2048 := (i 2).isLt
  have hi3 : (i 3).val < 64 := (i 3).isLt
  have hN : (i 0).val * 8 + (i 2).val / 256 < grid0.N := by rw [N_0]; omega
  obtain ⟨t, ht⟩ : ∃ t : Fin cfg0.N, t.val = (i 0).val * 8 + (i 2).val / 256 := ⟨⟨_, hN⟩, rfl⟩
  obtain ⟨e0, e1, e2, e3⟩ := idx_out0_3 t
  refine ⟨t, flush0_3 t, ?_⟩
  rw [mem_blk0_3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 12 ≤ (i 1).val ∧ (i 1).val < win0_3.index t (1 : Fin 4) * 12 + 12; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- The query array after the region. -/
theorem final0_3_arr (c : Dev nD) : (Fr.dat0 (F := Ideal) V c).arrAt 3 cfg0.N
    = qkvArr 0 (V c (Pipeline.arrRef spec0 0)) (V c (Pipeline.arrRef spec0 1)) (V c (Pipeline.arrRef spec0 2)) :=
  (Fr.dat0 (F := Ideal) V c).arrAt_eq_of_cover 3 _ (fun t _ => flushed0_3_eq V c t) cover0_3

/-- The same, by coordinates, as the specification's head function of the three arrays by coordinates. -/
theorem final0_3 (c : Dev nD) : ((Fr.dat0 (F := Ideal) V c).arrAt 3 cfg0.N : S2x12x2048x64.Idx → EReal)
    = fun i => Cert.Spec.headAt 0 (fun b s e => V c (Pipeline.arrRef spec0 0) (ix3 b s e))
      (fun f e => V c (Pipeline.arrRef spec0 1) (ix2 e f)) (fun f => V c (Pipeline.arrRef spec0 2) (ix2 0 f))
      (i 0) (i 1) (i 2) (i 3) :=
  (final0_3_arr V c).trans (funext fun i => rfl)

/-! ## Output window 4 -/

/-- What point t writes back is block t of the function of the whole arrays. -/
theorem flushed0_4_eq (c : Dev nD) (t : Fin cfg0.N) :
    (Fr.dat0 (F := Ideal) V c).flushed 4 t = ((cfg0.win 4).blk t).view.read (Elt Ideal)
      (qkvArr 1 (V c (Pipeline.arrRef spec0 0)) (V c (Pipeline.arrRef spec0 1)) (V c (Pipeline.arrRef spec0 2))) := by
  show (cfg0.win 4).cut (grid0.coords t) ((Fr.dat0 (F := Ideal) V c).after 4 t) = _
  rw [Fr.after0_4]
  unfold Fr.out0_4
  rw [View.canon_unit_zero hz4]
  simp only [View.ld_unit_zero (S := S1x256x768) hz3, View.ld_unit_zero (S := S768x2304) hz2,
    View.ld_unit_zero (S := S1x2304) hz2]
  obtain ⟨e0, e1, e2, e3⟩ := idx_out0_4 t
  funext j
  have hj0 : (j 0).val < 1 := (j 0).isLt
  have hj1 : (j 1).val < 12 := (j 1).isLt
  have hj2 : (j 2).val < 256 := (j 2).isLt
  have hj3 : (j 3).val < 64 := (j 3).isLt
  show k0_pay3 (Fr.iblk0 V c 0 t) (Fr.iblk0 V c 1 t) (Fr.iblk0 V c 2 t) j
    = qkvArr 1 (V c (Pipeline.arrRef spec0 0)) (V c (Pipeline.arrRef spec0 1)) (V c (Pipeline.arrRef spec0 2))
      (((cfg0.win 4).blk t).view.emb j)
  exact store_eq 1 k0_pay3 pay3_apply
    (V c (Pipeline.arrRef spec0 0)) (V c (Pipeline.arrRef spec0 1)) (V c (Pipeline.arrRef spec0 2))
    (Fr.iblk0 V c 0 t) (Fr.iblk0 V c 1 t) (Fr.iblk0 V c 2 t) (t.val / 8) (t.val % 8)
    (fun r e k k0 k1 k2 => iblk0_0_apply V c t r e k k0 k1 k2) (iblk0_1_apply V c t) (iblk0_2_apply V c t)
    j (((cfg0.win 4).blk t).view.emb j)
    (by show win0_4.index t (0 : Fin 4) * 1 + 1 * (j 0).val = t.val / 8; omega)
    (by show win0_4.index t (1 : Fin 4) * 12 + 1 * (j 1).val = (j 1).val; omega)
    (by show win0_4.index t (2 : Fin 4) * 256 + 1 * (j 2).val = t.val % 8 * 256 + (j 2).val; omega)
    (by show win0_4.index t (3 : Fin 4) * 64 + 1 * (j 3).val = (j 3).val; omega)

/-- An index of the array is in point t's block iff each coordinate is in the block's range on its axis. -/
theorem mem_blk0_4 (t : Fin cfg0.N) (i : S2x12x2048x64.Idx) :
    i ∈ ((cfg0.win 4).blk t).view.set ↔ ∀ a : Fin 4, win0_4.index t a * S1x12x256x64.size a ≤ (i a).val
      ∧ (i a).val < win0_4.index t a * S1x12x256x64.size a + S1x12x256x64.size a := by
  show i ∈ ((View.whole main_v3_1).slice (win0_4.rect t)).set ↔ _
  rw [View.set_slice_whole, Rect.mem_set_unit]
  exact Iff.rfl

/-- The sixteen blocks tile the array: (b, h, s, d) is in the block of point b · 8 + s / 256. -/
theorem cover0_4 (i : S2x12x2048x64.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 64 := (i 3).isLt
  have hN : (i 0).val * 8 + (i 2).val / 256 < grid0.N := by rw [N_0]; omega
  obtain ⟨t, ht⟩ : ∃ t : Fin cfg0.N, t.val = (i 0).val * 8 + (i 2).val / 256 := ⟨⟨_, hN⟩, rfl⟩
  obtain ⟨e0, e1, e2, e3⟩ := idx_out0_4 t
  refine ⟨t, flush0_4 t, ?_⟩
  rw [mem_blk0_4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 12 ≤ (i 1).val ∧ (i 1).val < win0_4.index t (1 : Fin 4) * 12 + 12; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- The key array after the region. -/
theorem final0_4_arr (c : Dev nD) : (Fr.dat0 (F := Ideal) V c).arrAt 4 cfg0.N
    = qkvArr 1 (V c (Pipeline.arrRef spec0 0)) (V c (Pipeline.arrRef spec0 1)) (V c (Pipeline.arrRef spec0 2)) :=
  (Fr.dat0 (F := Ideal) V c).arrAt_eq_of_cover 4 _ (fun t _ => flushed0_4_eq V c t) cover0_4

/-- The same, by coordinates, as the specification's head function of the three arrays by coordinates. -/
theorem final0_4 (c : Dev nD) : ((Fr.dat0 (F := Ideal) V c).arrAt 4 cfg0.N : S2x12x2048x64.Idx → EReal)
    = fun i => Cert.Spec.headAt 1 (fun b s e => V c (Pipeline.arrRef spec0 0) (ix3 b s e))
      (fun f e => V c (Pipeline.arrRef spec0 1) (ix2 e f)) (fun f => V c (Pipeline.arrRef spec0 2) (ix2 0 f))
      (i 0) (i 1) (i 2) (i 3) :=
  (final0_4_arr V c).trans (funext fun i => rfl)

/-! ## Output window 5 -/

/-- What point t writes back is block t of the function of the whole arrays. -/
theorem flushed0_5_eq (c : Dev nD) (t : Fin cfg0.N) :
    (Fr.dat0 (F := Ideal) V c).flushed 5 t = ((cfg0.win 5).blk t).view.read (Elt Ideal)
      (qkvArr 2 (V c (Pipeline.arrRef spec0 0)) (V c (Pipeline.arrRef spec0 1)) (V c (Pipeline.arrRef spec0 2))) := by
  show (cfg0.win 5).cut (grid0.coords t) ((Fr.dat0 (F := Ideal) V c).after 5 t) = _
  rw [Fr.after0_5]
  unfold Fr.out0_5
  rw [View.canon_unit_zero hz4]
  simp only [View.ld_unit_zero (S := S1x256x768) hz3, View.ld_unit_zero (S := S768x2304) hz2,
    View.ld_unit_zero (S := S1x2304) hz2]
  obtain ⟨e0, e1, e2, e3⟩ := idx_out0_5 t
  funext j
  have hj0 : (j 0).val < 1 := (j 0).isLt
  have hj1 : (j 1).val < 12 := (j 1).isLt
  have hj2 : (j 2).val < 256 := (j 2).isLt
  have hj3 : (j 3).val < 64 := (j 3).isLt
  show k0_pay4 (Fr.iblk0 V c 0 t) (Fr.iblk0 V c 1 t) (Fr.iblk0 V c 2 t) j
    = qkvArr 2 (V c (Pipeline.arrRef spec0 0)) (V c (Pipeline.arrRef spec0 1)) (V c (Pipeline.arrRef spec0 2))
      (((cfg0.win 5).blk t).view.emb j)
  exact store_eq 2 k0_pay4 pay4_apply
    (V c (Pipeline.arrRef spec0 0)) (V c (Pipeline.arrRef spec0 1)) (V c (Pipeline.arrRef spec0 2))
    (Fr.iblk0 V c 0 t) (Fr.iblk0 V c 1 t) (Fr.iblk0 V c 2 t) (t.val / 8) (t.val % 8)
    (fun r e k k0 k1 k2 => iblk0_0_apply V c t r e k k0 k1 k2) (iblk0_1_apply V c t) (iblk0_2_apply V c t)
    j (((cfg0.win 5).blk t).view.emb j)
    (by show win0_5.index t (0 : Fin 4) * 1 + 1 * (j 0).val = t.val / 8; omega)
    (by show win0_5.index t (1 : Fin 4) * 12 + 1 * (j 1).val = (j 1).val; omega)
    (by show win0_5.index t (2 : Fin 4) * 256 + 1 * (j 2).val = t.val % 8 * 256 + (j 2).val; omega)
    (by show win0_5.index t (3 : Fin 4) * 64 + 1 * (j 3).val = (j 3).val; omega)

/-- An index of the array is in point t's block iff each coordinate is in the block's range on its axis. -/
theorem mem_blk0_5 (t : Fin cfg0.N) (i : S2x12x2048x64.Idx) :
    i ∈ ((cfg0.win 5).blk t).view.set ↔ ∀ a : Fin 4, win0_5.index t a * S1x12x256x64.size a ≤ (i a).val
      ∧ (i a).val < win0_5.index t a * S1x12x256x64.size a + S1x12x256x64.size a := by
  show i ∈ ((View.whole main_v3_2).slice (win0_5.rect t)).set ↔ _
  rw [View.set_slice_whole, Rect.mem_set_unit]
  exact Iff.rfl

/-- The sixteen blocks tile the array: (b, h, s, d) is in the block of point b · 8 + s / 256. -/
theorem cover0_5 (i : S2x12x2048x64.Idx) :
    ∃ t : Fin cfg0.N, (cfg0.win 5).flush t = true ∧ i ∈ ((cfg0.win 5).blk t).view.set := by
  have hi0 : (i 0).val < 2 := (i 0).isLt
  have hi1 : (i 1).val < 12 := (i 1).isLt
  have hi2 : (i 2).val < 2048 := (i 2).isLt
  have hi3 : (i 3).val < 64 := (i 3).isLt
  have hN : (i 0).val * 8 + (i 2).val / 256 < grid0.N := by rw [N_0]; omega
  obtain ⟨t, ht⟩ : ∃ t : Fin cfg0.N, t.val = (i 0).val * 8 + (i 2).val / 256 := ⟨⟨_, hN⟩, rfl⟩
  obtain ⟨e0, e1, e2, e3⟩ := idx_out0_5 t
  refine ⟨t, flush0_5 t, ?_⟩
  rw [mem_blk0_5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 12 ≤ (i 1).val ∧ (i 1).val < win0_5.index t (1 : Fin 4) * 12 + 12; omega
  | ⟨2, _⟩ => show win0_5.index t (2 : Fin 4) * 256 ≤ (i 2).val ∧ (i 2).val < win0_5.index t (2 : Fin 4) * 256 + 256; omega
  | ⟨3, _⟩ => show win0_5.index t (3 : Fin 4) * 64 ≤ (i 3).val ∧ (i 3).val < win0_5.index t (3 : Fin 4) * 64 + 64; omega

/-- The value array after the region. -/
theorem final0_5_arr (c : Dev nD) : (Fr.dat0 (F := Ideal) V c).arrAt 5 cfg0.N
    = qkvArr 2 (V c (Pipeline.arrRef spec0 0)) (V c (Pipeline.arrRef spec0 1)) (V c (Pipeline.arrRef spec0 2)) :=
  (Fr.dat0 (F := Ideal) V c).arrAt_eq_of_cover 5 _ (fun t _ => flushed0_5_eq V c t) cover0_5

/-- The same, by coordinates, as the specification's head function of the three arrays by coordinates. -/
theorem final0_5 (c : Dev nD) : ((Fr.dat0 (F := Ideal) V c).arrAt 5 cfg0.N : S2x12x2048x64.Idx → EReal)
    = fun i => Cert.Spec.headAt 2 (fun b s e => V c (Pipeline.arrRef spec0 0) (ix3 b s e))
      (fun f e => V c (Pipeline.arrRef spec0 1) (ix2 e f)) (fun f => V c (Pipeline.arrRef spec0 2) (ix2 0 f))
      (i 0) (i 1) (i 2) (i 3) :=
  (final0_5_arr V c).trans (funext fun i => rfl)

end Cert.KernelIdeal.Val0

end
-- ==== Proof.LibSoftmaxTiles.lean ====
/-
  Softmax attention computed tile by tile, on the extended reals.

  One query row and one output coordinate are fixed. The keys arrive in tiles; a tile carries real
  scores and real values. A running state (m, l, a) is updated, for a tile with scores s, values v
  and ANY real offset μ, by

      α  = exp (m - μ),      p r = exp (s r - μ),
      l' = α * l + ∑ r, p r,      a' = α * a + ∑ r, p r * v r,      m' = μ,

  from l = 0, a = 0. After the tiles of a set T, the last one with offset μ,

      l = ∑ i ∈ T, ∑ r, exp (s i r - μ),      a = ∑ i ∈ T, ∑ r, exp (s i r - μ) * v i r,

  because exp (μ - μ') * exp (s - μ) = exp (s - μ'). The quotient a / l does not depend on μ: it is
  the softmax-weighted sum  ∑ k, (exp (S k - M) / ∑ k', exp (S k' - M)) * V k  for every real M.
  Every statement is an identity between extended-real expressions built from Ideal.exp, Ideal.div,
  +, * and finite sums, with all scores, values and offsets real.
-/
import Mathlib.Algebra.BigOperators.Fin
import Mathlib.Order.Interval.Finset.Fin
import Idealize.ShloMosaic.PureOps.Ideal
import Idealize.ShloMosaic.PureOps.Ideal.Laws

open scoped BigOperators
open Idealize.ShloMosaic

namespace Cert.Proof.SoftmaxTiles

/-! ## Coerced reals -/

/-- The coercion of a finite real sum is the sum of the coercions. -/
theorem coe_finset_sum {ι : Type*} (T : Finset ι) (f : ι → ℝ) :
    ((∑ i ∈ T, f i : ℝ) : EReal) = ∑ i ∈ T, (f i : EReal) := by
  induction T using Finset.cons_induction with
  | empty => simp
  | cons a T ha ih => rw [Finset.sum_cons, Finset.sum_cons, EReal.coe_add, ih]

/-- The maximum of two coerced reals is the coerced maximum. -/
theorem coe_max (a b : ℝ) : max (a : EReal) (b : EReal) = ((max a b : ℝ) : EReal) :=
  (EReal.coe_strictMono.monotone.map_max).symm

/-- The exponential of a difference of coerced reals. -/
theorem exp_coe_sub (x y : ℝ) :
    Ideal.exp ((x : EReal) - (y : EReal)) = ((Real.exp (x - y) : ℝ) : EReal) := by
  rw [← EReal.coe_sub, Ideal.exp_coe]

/-- The exponential of bottom minus anything is zero. -/
theorem exp_bot_sub (x : EReal) : Ideal.exp (⊥ - x) = 0 := by
  rw [EReal.bot_sub, Ideal.exp_bot]

/-- The quotient of coerced reals with a nonzero denominator is the coerced quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-! ## The maximum of finitely many coerced reals -/

/-- From a real starting value, the fold of max over coerced reals is the coerced real fold. -/
theorem fold_max_coe {κ : Type*} (T : Finset κ) (b : ℝ) (f : κ → ℝ) :
    T.fold max (b : EReal) (fun r => (f r : EReal)) = ((T.fold max b f : ℝ) : EReal) := by
  induction T using Finset.cons_induction with
  | empty => simp
  | cons a T ha ih => rw [Finset.fold_cons, Finset.fold_cons, ih, coe_max]

/-- From bottom, the fold of max over a nonempty set of coerced reals is the coerced supremum. -/
theorem fold_max_bot_coe {κ : Type*} (T : Finset κ) (hT : T.Nonempty) (f : κ → ℝ) :
    T.fold max (⊥ : EReal) (fun r => (f r : EReal)) = ((T.sup' hT f : ℝ) : EReal) := by
  induction hT using Finset.Nonempty.cons_induction with
  | singleton a => rw [Finset.fold_singleton, Finset.sup'_singleton, max_bot_right]
  | cons a T ha hT ih => rw [Finset.fold_cons, ih, coe_max, Finset.sup'_cons hT]

/-- Over a nonempty finite type: the lane maximum from bottom is a coerced real. -/
theorem fold_max_bot_univ_coe {κ : Type*} [Fintype κ] [Nonempty κ] (f : κ → ℝ) :
    (Finset.univ : Finset κ).fold max (⊥ : EReal) (fun r => (f r : EReal))
      = ((Finset.univ.sup' Finset.univ_nonempty f : ℝ) : EReal) :=
  fold_max_bot_coe _ _ f

/-- The running maximum against bottom: max ⊥ of the lane maximum is the same coerced real. -/
theorem max_bot_fold_max_bot_univ_coe {κ : Type*} [Fintype κ] [Nonempty κ] (f : κ → ℝ) :
    max (⊥ : EReal) ((Finset.univ : Finset κ).fold max (⊥ : EReal) (fun r => (f r : EReal)))
      = ((Finset.univ.sup' Finset.univ_nonempty f : ℝ) : EReal) := by
  rw [fold_max_bot_univ_coe, max_bot_left]

/-- The running maximum against a real: max of a coerced real and the lane maximum. -/
theorem max_coe_fold_max_bot_univ_coe {κ : Type*} [Fintype κ] [Nonempty κ] (b : ℝ) (f : κ → ℝ) :
    max (b : EReal) ((Finset.univ : Finset κ).fold max (⊥ : EReal) (fun r => (f r : EReal)))
      = ((max b (Finset.univ.sup' Finset.univ_nonempty f) : ℝ) : EReal) := by
  rw [fold_max_bot_univ_coe, coe_max]

/-- The same lane maximum written as the fold of the float maximum operation at the extended reals
    (a reduction by maximum read as a fold over one axis has this form). -/
theorem fold_maximumf_bot_univ_coe {κ : Type*} [Fintype κ] [Nonempty κ] (φ : FTy) (f : κ → ℝ) :
    (Finset.univ : Finset κ).fold (FloatOps.maximumf (F := Ideal) (φ := φ)) (⊥ : EReal)
        (fun r => (f r : EReal))
      = ((Finset.univ.sup' Finset.univ_nonempty f : ℝ) : EReal) :=
  fold_max_bot_univ_coe f

/-- The f32 pattern of negative infinity denotes bottom. -/
theorem ofBits_f32_neg_inf : Ideal.ofBits .f32 0xFF800000#32 = ⊥ := by simp [Ideal.ofBits, Ideal.ieee]

/-- The f32 pattern of positive infinity denotes top. -/
theorem ofBits_f32_pos_inf : Ideal.ofBits .f32 0x7F800000#32 = ⊤ := by simp [Ideal.ofBits, Ideal.ieee]

/-- The supremum of a nonempty family of coerced reals is the coerced supremum. -/
theorem sup'_coe {κ : Type*} (T : Finset κ) (hT : T.Nonempty) (f : κ → ℝ) :
    T.sup' hT (fun r => (f r : EReal)) = ((T.sup' hT f : ℝ) : EReal) :=
  (Finset.comp_sup'_eq_sup'_comp hT (fun x : ℝ => (x : EReal)) fun x y => (coe_max x y).symm).symm

/-! ## The tile recurrence -/

section Tiles

variable {ι κ : Type*} [Fintype κ]

/-- One tile's update of the running state (m, l, a) to (m', l', a'), for a tile with real scores s,
    real values v and a real offset μ:  α = exp (m - μ),  p r = exp (s r - μ),
    l' = α * l + ∑ r, p r,  a' = α * a + ∑ r, p r * v r,  m' = μ. -/
structure TileStep (s v : κ → ℝ) (μ : ℝ) (m l a m' l' a' : EReal) : Prop where
  m_eq : m' = (μ : EReal)
  l_eq : l' = Ideal.exp (m - (μ : EReal)) * l + ∑ r, Ideal.exp ((s r : EReal) - (μ : EReal))
  a_eq : a' = Ideal.exp (m - (μ : EReal)) * a
            + ∑ r, Ideal.exp ((s r : EReal) - (μ : EReal)) * (v r : EReal)

/-- The state after the tiles of the set T, the last of them with offset μ: the closed form. -/
structure TileInv (s v : ι → κ → ℝ) (T : Finset ι) (μ : ℝ) (m l a : EReal) : Prop where
  m_eq : m = (μ : EReal)
  l_eq : l = ((∑ i ∈ T, ∑ r, Real.exp (s i r - μ) : ℝ) : EReal)
  a_eq : a = ((∑ i ∈ T, ∑ r, Real.exp (s i r - μ) * v i r : ℝ) : EReal)

/-- Changing the offset of a weighted sum of exponentials: the factor exp (μ - μ') moves every
    exp (s - μ) to exp (s - μ'). -/
theorem rescale_sum (s w : ι → κ → ℝ) (T : Finset ι) (μ μ' : ℝ) :
    Real.exp (μ - μ') * (∑ i ∈ T, ∑ r, Real.exp (s i r - μ) * w i r)
      = ∑ i ∈ T, ∑ r, Real.exp (s i r - μ') * w i r := by
  rw [Finset.mul_sum]
  refine Finset.sum_congr rfl fun i _ => ?_
  rw [Finset.mul_sum]
  refine Finset.sum_congr rfl fun r _ => ?_
  rw [← mul_assoc, ← Real.exp_add]
  congr 2
  ring

/-- The same without weights. -/
theorem rescale_sum_one (s : ι → κ → ℝ) (T : Finset ι) (μ μ' : ℝ) :
    Real.exp (μ - μ') * (∑ i ∈ T, ∑ r, Real.exp (s i r - μ))
      = ∑ i ∈ T, ∑ r, Real.exp (s i r - μ') := by
  simpa using rescale_sum s (fun _ _ => (1 : ℝ)) T μ μ'

/-- A tile's sum of exponentials is the coerced real sum. -/
theorem sum_exp_coe (s : κ → ℝ) (μ : ℝ) :
    (∑ r, Ideal.exp ((s r : EReal) - (μ : EReal))) = ((∑ r, Real.exp (s r - μ) : ℝ) : EReal) := by
  rw [coe_finset_sum]; exact Finset.sum_congr rfl fun r _ => exp_coe_sub _ _

/-- A tile's sum of exponentials times values is the coerced real sum. -/
theorem sum_exp_mul_coe (s v : κ → ℝ) (μ : ℝ) :
    (∑ r, Ideal.exp ((s r : EReal) - (μ : EReal)) * (v r : EReal))
      = ((∑ r, Real.exp (s r - μ) * v r : ℝ) : EReal) := by
  rw [coe_finset_sum]; exact Finset.sum_congr rfl fun r _ => by rw [exp_coe_sub, EReal.coe_mul]

/-- The first tile: from l = 0 and a = 0 (whatever m is), one step gives the closed form over
    that one tile. -/
theorem TileStep.first (s v : ι → κ → ℝ) (j : ι) (μ : ℝ) {m m' l' a' : EReal}
    (h : TileStep (s j) (v j) μ m 0 0 m' l' a') : TileInv s v {j} μ m' l' a' := by
  refine ⟨h.m_eq, ?_, ?_⟩
  · rw [h.l_eq, mul_zero, zero_add, Finset.sum_singleton, sum_exp_coe]
  · rw [h.a_eq, mul_zero, zero_add, Finset.sum_singleton, sum_exp_mul_coe]

/-- A further tile: from the closed form over T with offset μ, one step with a tile j outside T and
    offset μ' gives the closed form over T with j added, with offset μ'. -/
theorem TileStep.next [DecidableEq ι] (s v : ι → κ → ℝ) {T : Finset ι} {j : ι} (hj : j ∉ T)
    {μ μ' : ℝ} {m l a m' l' a' : EReal} (hT : TileInv s v T μ m l a)
    (h : TileStep (s j) (v j) μ' m l a m' l' a') : TileInv s v (insert j T) μ' m' l' a' := by
  refine ⟨h.m_eq, ?_, ?_⟩
  · rw [h.l_eq, hT.m_eq, hT.l_eq, exp_coe_sub, ← EReal.coe_mul, rescale_sum_one, sum_exp_coe,
      ← EReal.coe_add, Finset.sum_insert hj, add_comm]
  · rw [h.a_eq, hT.m_eq, hT.a_eq, exp_coe_sub, ← EReal.coe_mul, rescale_sum, sum_exp_mul_coe,
      ← EReal.coe_add, Finset.sum_insert hj, add_comm]

/-- The update as a function of the state (m, l, a). -/
noncomputable def tileStep (s v : κ → ℝ) (μ : ℝ) (st : EReal × EReal × EReal) : EReal × EReal × EReal :=
  ((μ : EReal),
   Ideal.exp (st.1 - (μ : EReal)) * st.2.1 + ∑ r, Ideal.exp ((s r : EReal) - (μ : EReal)),
   Ideal.exp (st.1 - (μ : EReal)) * st.2.2 + ∑ r, Ideal.exp ((s r : EReal) - (μ : EReal)) * (v r : EReal))

/-- The function is a step. -/
theorem tileStep_spec (s v : κ → ℝ) (μ : ℝ) (st : EReal × EReal × EReal) :
    TileStep s v μ st.1 st.2.1 st.2.2 (tileStep s v μ st).1 (tileStep s v μ st).2.1 (tileStep s v μ st).2.2 :=
  ⟨rfl, rfl, rfl⟩

/-- The state (m, l, a) reached after the first j of n tiles, each by a step; the start has l = 0 and
    a = 0 (in a kernel m starts at bottom; the law does not use its value). -/
inductive TileRun {n : ℕ} (s v : Fin n → κ → ℝ) (μ : Fin n → ℝ) : ℕ → EReal → EReal → EReal → Prop
  | zero (m : EReal) : TileRun s v μ 0 m 0 0
  | succ {j : ℕ} {m l a m' l' a' : EReal} (hj : j < n) :
      TileRun s v μ j m l a → TileStep (s ⟨j, hj⟩) (v ⟨j, hj⟩) (μ ⟨j, hj⟩) m l a m' l' a' →
      TileRun s v μ (j + 1) m' l' a'

/-- The tiles up to j, with tile j + 1 added, are the tiles up to j + 1. -/
theorem Iic_succ {n j : ℕ} (hj : j + 1 < n) :
    (Finset.Iic (⟨j + 1, hj⟩ : Fin n)) = insert ⟨j + 1, hj⟩ (Finset.Iic ⟨j, Nat.lt_of_succ_lt hj⟩) := by
  ext i
  simp only [Finset.mem_Iic, Finset.mem_insert, Fin.le_def, Fin.ext_iff]
  omega

/-- The closed form after j + 1 of n tiles: over the tiles i ≤ j, with tile j's offset. -/
theorem TileRun.closed {n : ℕ} {s v : Fin n → κ → ℝ} {μ : Fin n → ℝ} {j : ℕ} {m l a : EReal}
    (h : TileRun s v μ (j + 1) m l a) :
    ∃ hj : j < n, TileInv s v (Finset.Iic ⟨j, hj⟩) (μ ⟨j, hj⟩) m l a := by
  induction j generalizing m l a with
  | zero =>
    cases h with
    | succ hj h0 hs =>
      cases h0
      refine ⟨hj, ?_⟩
      have : Finset.Iic (⟨0, hj⟩ : Fin n) = {⟨0, hj⟩} := by
        ext i; simp only [Finset.mem_Iic, Finset.mem_singleton, Fin.le_def, Fin.ext_iff]; omega
      rw [this]
      exact TileStep.first s v _ _ hs
  | succ j ih =>
    cases h with
    | succ hj h0 hs =>
      obtain ⟨hj', hinv⟩ := ih h0
      refine ⟨hj, ?_⟩
      rw [Iic_succ hj]
      refine TileStep.next s v ?_ hinv hs
      simp only [Finset.mem_Iic, Fin.le_def]
      omega

/-- The closed form after all n ≥ 1 tiles: over every tile, with the last tile's offset. -/
theorem TileRun.closed_all {n : ℕ} {s v : Fin (n + 1) → κ → ℝ} {μ : Fin (n + 1) → ℝ} {m l a : EReal}
    (h : TileRun s v μ (n + 1) m l a) : TileInv s v Finset.univ (μ (Fin.last n)) m l a := by
  obtain ⟨hj, hinv⟩ := h.closed
  have : Finset.Iic (⟨n, hj⟩ : Fin (n + 1)) = Finset.univ := by
    ext i; simp only [Finset.mem_Iic, Finset.mem_univ, Fin.le_def, iff_true]; omega
  rw [this] at hinv
  exact hinv

/-- The state after the first j of n tiles as a function of j, from (⊥, 0, 0). -/
noncomputable def tileState {n : ℕ} (s v : Fin n → κ → ℝ) (μ : Fin n → ℝ) : ℕ → EReal × EReal × EReal
  | 0 => (⊥, 0, 0)
  | j + 1 => if hj : j < n then tileStep (s ⟨j, hj⟩) (v ⟨j, hj⟩) (μ ⟨j, hj⟩) (tileState s v μ j)
             else tileState s v μ j

/-- The iterated function is a run. -/
theorem tileState_run {n : ℕ} (s v : Fin n → κ → ℝ) (μ : Fin n → ℝ) (j : ℕ) (hj : j ≤ n) :
    TileRun s v μ j (tileState s v μ j).1 (tileState s v μ j).2.1 (tileState s v μ j).2.2 := by
  induction j with
  | zero => exact TileRun.zero _
  | succ j ih =>
    have hj' : j < n := hj
    rw [tileState, dif_pos hj']
    exact TileRun.succ hj' (ih hj'.le) (tileStep_spec _ _ _ _)

end Tiles

/-! ## The quotient -/

section Quotient

variable {K : Type*} [Fintype K]

/-- A weighted sum divided by the total weight is the sum of the normalised weights times the
    values, as extended reals: for real weights e with a nonzero total. -/
theorem div_weighted_sum (e v : K → ℝ) (hL : (∑ k, e k) ≠ 0) :
    Ideal.div ((∑ k, e k * v k : ℝ) : EReal) ((∑ k, e k : ℝ) : EReal)
      = ∑ k, Ideal.div (e k : EReal) ((∑ k, e k : ℝ) : EReal) * (v k : EReal) := by
  rw [div_coe_coe _ hL, Finset.sum_div, coe_finset_sum]
  refine Finset.sum_congr rfl fun k _ => ?_
  rw [div_coe_coe _ hL, ← EReal.coe_mul, mul_div_right_comm]

/-- Shift invariance of the softmax weights: exp (S k - M) over its total does not depend on M. -/
theorem softmax_shift (S : K → ℝ) (M M' : ℝ) (k : K) :
    Real.exp (S k - M) / ∑ k', Real.exp (S k' - M)
      = Real.exp (S k - M') / ∑ k', Real.exp (S k' - M') := by
  have h : ∀ k, Real.exp (S k - M) = Real.exp (M' - M) * Real.exp (S k - M') := fun k => by
    rw [← Real.exp_add]; congr 1; ring
  rw [h k, Finset.sum_congr rfl fun k' _ => h k', ← Finset.mul_sum,
    mul_div_mul_left _ _ (Real.exp_ne_zero _)]

/-- So the softmax-weighted sum of real values does not depend on the shift. -/
theorem softmax_sum_shift (S V : K → ℝ) (M M' : ℝ) :
    ∑ k, Real.exp (S k - M) / (∑ k', Real.exp (S k' - M)) * V k
      = ∑ k, Real.exp (S k - M') / (∑ k', Real.exp (S k' - M')) * V k :=
  Finset.sum_congr rfl fun k _ => by rw [softmax_shift S M M' k]

/-- The total of the exponentials over a nonempty key set is positive. -/
theorem sum_exp_pos [Nonempty K] (S : K → ℝ) (M : ℝ) : 0 < ∑ k, Real.exp (S k - M) :=
  Finset.sum_pos (fun _ _ => Real.exp_pos _) Finset.univ_nonempty

/-- The quotient of the two accumulated sums, taken with ANY offset μ, is the softmax-then-weighted
    sum with ANY shift M, written with the extended-real exponential and quotient. -/
theorem div_eq_softmax [Nonempty K] (S V : K → ℝ) (μ M : ℝ) :
    Ideal.div ((∑ k, Real.exp (S k - μ) * V k : ℝ) : EReal) ((∑ k, Real.exp (S k - μ) : ℝ) : EReal)
      = ∑ k, Ideal.div (Ideal.exp ((S k : EReal) - (M : EReal)))
            (∑ k', Ideal.exp ((S k' : EReal) - (M : EReal))) * (V k : EReal) := by
  rw [div_coe_coe _ (sum_exp_pos S μ).ne', Finset.sum_div, sum_exp_coe]
  have : ∀ k, Ideal.div (Ideal.exp ((S k : EReal) - (M : EReal))) ((∑ k', Real.exp (S k' - M) : ℝ) : EReal) * (V k : EReal)
      = ((Real.exp (S k - M) / (∑ k', Real.exp (S k' - M)) * V k : ℝ) : EReal) := fun k => by
    rw [exp_coe_sub, div_coe_coe _ (sum_exp_pos S M).ne', EReal.coe_mul]
  rw [Finset.sum_congr rfl fun k _ => this k, ← coe_finset_sum, ← softmax_sum_shift S V μ M]
  congr 1
  exact Finset.sum_congr rfl fun k _ => mul_div_right_comm _ _ _

end Quotient

/-! ## Tiles, then the quotient -/

section Final

variable {ι κ : Type*} [Fintype ι] [Fintype κ]

/-- After every tile, the quotient a / l of the running state is the softmax-then-weighted sum over
    all keys (tile, position), with any real shift M. -/
theorem TileInv.div_eq_softmax [Nonempty ι] [Nonempty κ] {s v : ι → κ → ℝ} {μ : ℝ} {m l a : EReal}
    (h : TileInv s v Finset.univ μ m l a) (M : ℝ) :
    Ideal.div a l
      = ∑ i, ∑ r, Ideal.div (Ideal.exp ((s i r : EReal) - (M : EReal)))
            (∑ i', ∑ r', Ideal.exp ((s i' r' : EReal) - (M : EReal))) * (v i r : EReal) := by
  have := SoftmaxTiles.div_eq_softmax (K := ι × κ) (fun p => s p.1 p.2) (fun p => v p.1 p.2) μ M
  simp only [Fintype.sum_prod_type] at this
  rw [h.l_eq, h.a_eq]
  exact this

/-- The same with the keys named by any finite type K through a bijection from (tile, position):
    the sum over all keys of the reference's weights times values. -/
theorem TileInv.div_eq_softmax_keys [Nonempty ι] [Nonempty κ] {K : Type*} [Fintype K] (e : ι × κ ≃ K)
    {s v : ι → κ → ℝ} (S V : K → ℝ) (hs : ∀ i r, s i r = S (e (i, r))) (hv : ∀ i r, v i r = V (e (i, r)))
    {μ : ℝ} {m l a : EReal} (h : TileInv s v Finset.univ μ m l a) (M : ℝ) :
    Ideal.div a l
      = ∑ k, Ideal.div (Ideal.exp ((S k : EReal) - (M : EReal)))
            (∑ k', Ideal.exp ((S k' : EReal) - (M : EReal))) * (V k : EReal) := by
  haveI : Nonempty K := ⟨e (Classical.arbitrary _)⟩
  have hl : l = ((∑ k, Real.exp (S k - μ) : ℝ) : EReal) := by
    rw [h.l_eq, ← Fintype.sum_prod_type' (fun i r => Real.exp (s i r - μ)), ← Equiv.sum_comp e]
    congr 1
    exact Finset.sum_congr rfl fun p _ => by rw [hs]
  have ha : a = ((∑ k, Real.exp (S k - μ) * V k : ℝ) : EReal) := by
    rw [h.a_eq, ← Fintype.sum_prod_type' (fun i r => Real.exp (s i r - μ) * v i r), ← Equiv.sum_comp e]
    congr 1
    exact Finset.sum_congr rfl fun p _ => by rw [hs, hv]
  rw [hl, ha]
  exact SoftmaxTiles.div_eq_softmax S V μ M

/-- A run over all n + 1 tiles ends in a state whose quotient is the softmax-then-weighted sum over
    (tile, position), with any real shift M. -/
theorem TileRun.div_eq_softmax [Nonempty κ] {n : ℕ} {s v : Fin (n + 1) → κ → ℝ} {μ : Fin (n + 1) → ℝ}
    {m l a : EReal} (h : TileRun s v μ (n + 1) m l a) (M : ℝ) :
    Ideal.div a l
      = ∑ i, ∑ r, Ideal.div (Ideal.exp ((s i r : EReal) - (M : EReal)))
            (∑ i', ∑ r', Ideal.exp ((s i' r' : EReal) - (M : EReal))) * (v i r : EReal) :=
  h.closed_all.div_eq_softmax M

/-- The same over keys named by K. -/
theorem TileRun.div_eq_softmax_keys [Nonempty κ] {n : ℕ} {K : Type*} [Fintype K] (e : Fin (n + 1) × κ ≃ K)
    {s v : Fin (n + 1) → κ → ℝ} (S V : K → ℝ) (hs : ∀ i r, s i r = S (e (i, r)))
    (hv : ∀ i r, v i r = V (e (i, r))) {μ : Fin (n + 1) → ℝ} {m l a : EReal}
    (h : TileRun s v μ (n + 1) m l a) (M : ℝ) :
    Ideal.div a l
      = ∑ k, Ideal.div (Ideal.exp ((S k : EReal) - (M : EReal)))
            (∑ k', Ideal.exp ((S k' : EReal) - (M : EReal))) * (V k : EReal) :=
  h.closed_all.div_eq_softmax_keys e S V hs hv M

end Final

end Cert.Proof.SoftmaxTiles
-- ==== Proof.KernelIdeal.Value1Pay.lean ====
/-
  The attention region's arithmetic read at an index, over the extended reals.

  Every operation of the body is exact there, so each stored term, read at one index, is a closed expression in
  the entries of the blocks it was computed from: the tile's scores are scaled dot products plus the key bias,
  the row maximum is a fold of max over the tile's 512 scores, the row sums are sums over the tile, and the
  product of the tile's weights with the value tile is a sum over the tile's keys.
-/
import proofs.«109941_j17609365914550_2_alg».proof.Proof.KernelIdeal.Region1
import proofs.«109941_j17609365914550_2_alg».proof.Proof.Spec
import proofs.«109941_j17609365914550_2_alg».proof.Proof.LibSoftmaxTiles
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open scoped BigOperators

section Arrays
variable (V : (c : Dev nD) → (b : Ref sig .tc) → Buf (Elt Ideal) ((c : Thread nD τ).loc b)) (c : Dev nD)

/-- The query, key and value arrays the region finds, by coordinates (batch, head, row, feature). -/
abbrev arrQ : Fin 2 → Fin 12 → Fin 2048 → Fin 64 → EReal := fun b h i d => V c (Pipeline.arrRef spec1 0) (ix4 b h i d)
abbrev arrK : Fin 2 → Fin 12 → Fin 2048 → Fin 64 → EReal := fun b h j d => V c (Pipeline.arrRef spec1 1) (ix4 b h j d)
abbrev arrV : Fin 2 → Fin 12 → Fin 2048 → Fin 64 → EReal := fun b h j d => V c (Pipeline.arrRef spec1 2) (ix4 b h j d)
/-- The additive key bias the region finds, by coordinates (batch, key). -/
abbrev arrB : Fin 2 → Fin 2048 → EReal := fun b j => V c (Pipeline.arrRef spec1 3) (ix3 b 0 j)
/-- The scaled, biased score of query row qi against key kj, from the arrays the region finds. -/
abbrev scoreOf : Fin 2 → Fin 12 → Fin 2048 → Fin 2048 → EReal := fun b h qi kj =>
  (∑ d : Fin 64, arrQ V c b h qi d * arrK V c b h kj d) * Ideal.ofBits .f32 0x3E000000#32 + arrB V c b kj
end Arrays

variable (q : Vec Ideal S1x1x2048x64 .bf16) (k v : Vec Ideal S1x1x512x64 .bf16) (kb : Vec Ideal S1x1x512 .f32)
  (m l : Vec Ideal S2048x1 .f32) (a : Vec Ideal S2048x64 .f32)

/-- The score of query row i against key r of the tile: the scaled dot product plus the key's bias. -/
def tileScore (i : Fin 2048) (r : Fin 512) : EReal :=
  (∑ d : Fin 64, q (ix4 0 0 i d) * k (ix4 0 0 r d)) * Ideal.ofBits .f32 0x3E000000#32 + kb (ix3 0 0 r)

/-- The contraction of the first product: over the 64 features. -/
theorem qk_apply (i : Fin 2048) (r : Fin 512) :
    FloatOps.matmul (F := Ideal) (φ₁ := .bf16) (φ₂ := .bf16) dot_S2048x64_S64x512_S2048x512_1_0_0_1_n_n none
        (shapeCast S2048x64 q shapeCasts_S1x1x2048x64_S2048x64)
        (transpose S64x512 [1, 0] (shapeCast S512x64 k shapeCasts_S1x1x512x64_S512x64) transposes_S512x64_p1_0_S64x512)
        (constant S2048x512 .f32 0x00000000#32) (ix2 i r)
      = ∑ d : Fin 64, q (ix4 0 0 i d) * k (ix4 0 0 r d) := by
  rw [Ideal.matmul_constant_zero_apply,
    ← Equiv.sum_comp (contrEquiv1 dot_S2048x64_S64x512_S2048x512_1_0_0_1_n_n 64 rfl rfl).symm]
  refine Finset.sum_congr rfl fun d _ => ?_
  have c2 := contrEquiv1_symm_val dot_S2048x64_S64x512_S2048x512_1_0_0_1_n_n 64 rfl rfl d
  have l2 : dot_S2048x64_S64x512_S2048x512_1_0_0_1_n_n.lhsIdx (ix2 i r)
      ((contrEquiv1 _ 64 rfl rfl).symm d) = ix2 i d := by
    funext ax; apply Fin.ext
    match ax with
    | ⟨0, _⟩ => simp [DotDims.lhsIdx, dot_S2048x64_S64x512_S2048x512_1_0_0_1_n_n]; rfl
    | ⟨1, _⟩ => simp [DotDims.lhsIdx, dot_S2048x64_S64x512_S2048x512_1_0_0_1_n_n]; exact c2
  have r2 : dot_S2048x64_S64x512_S2048x512_1_0_0_1_n_n.rhsIdx (ix2 i r)
      ((contrEquiv1 _ 64 rfl rfl).symm d) = ix2 d r := by
    funext ax; apply Fin.ext
    match ax with
    | ⟨0, _⟩ => simp [DotDims.rhsIdx, dot_S2048x64_S64x512_S2048x512_1_0_0_1_n_n]; exact c2
    | ⟨1, _⟩ => simp [DotDims.rhsIdx, dot_S2048x64_S64x512_S2048x512_1_0_0_1_n_n]; rfl
  rw [l2, r2, transpose_ix2_apply]
  congr 1
  · exact shapeCast_apply q _ (ix2 i d) (ix4 0 0 i d) (by
      rw [Shape.rowMajor_val_four, Shape.rowMajor_val_two]
      show ((0 * 1 + 0) * 2048 + i.val) * 64 + d.val = i.val * 64 + d.val
      omega)
  · exact shapeCast_apply k _ (ix2 r d) (ix4 0 0 r d) (by
      rw [Shape.rowMajor_val_four, Shape.rowMajor_val_two]
      show ((0 * 1 + 0) * 512 + r.val) * 64 + d.val = r.val * 64 + d.val
      omega)

/-- The tile's scores. -/
theorem pay9_apply (i : Fin 2048) (r : Fin 512) : k1_pay9 q k kb (ix2 i r) = tileScore q k kb i r := by
  unfold k1_pay9 tileScore
  try dsimp only
  show FloatOps.matmul (F := Ideal) (φ₁ := .bf16) (φ₂ := .bf16) _ none _ _ _ (ix2 i r) * Ideal.ofBits .f32 0x3E000000#32 + broadcastTo S2048x512 (shapeCast S1x512 kb shapeCasts_S1x1x512_S1x512) broadcasts_S1x512_S2048x512 (ix2 i r) = _
  refine congrArg₂ (· + ·) (congrArg (· * _) (qk_apply q k i r)) ?_
  refine (broadcastTo_1b_ab_apply _ _ i r).trans ?_
  exact shapeCast_apply kb _ (ix2 0 r) (ix3 0 0 r) (by
    rw [Shape.rowMajor_val_three, Shape.rowMajor_val_two]
    show (0 * 1 + 0) * 512 + r.val = 0 * 512 + r.val
    omega)

/-- A column [2048, 1] spread over a row reads the column's entry of that row. -/
theorem bcast_col_512 (w : FVec Ideal S2048x1 .f32) (i : Fin 2048) (r : Fin 512) :
    broadcastTo S2048x512 w broadcasts_S2048x1_S2048x512 (ix2 i r) = w (ix2 i 0) :=
  broadcastTo_apply w _ (ix2 i r) (ix2 i 0) fun ax => match ax with
    | ⟨0, _⟩ => rfl
    | ⟨1, _⟩ => rfl
theorem bcast_col_64 (w : FVec Ideal S2048x1 .f32) (i : Fin 2048) (d : Fin 64) :
    broadcastTo S2048x64 w broadcasts_S2048x1_S2048x64 (ix2 i d) = w (ix2 i 0) :=
  broadcastTo_apply w _ (ix2 i d) (ix2 i 0) fun ax => match ax with
    | ⟨0, _⟩ => rfl
    | ⟨1, _⟩ => rfl
/-- A vector [2048] cast to a column reads the vector's entry of that row. -/
theorem cast_col (w : FVec Ideal S2048 .f32) (i : Fin 2048) :
    shapeCast S2048x1 w shapeCasts_S2048_S2048x1 (ix2 i 0) = w (ix1 i) :=
  shapeCast_apply w _ (ix2 i 0) (ix1 i) (by
    rw [Shape.rowMajor_val_two, Shape.rowMajor_val_one]
    show i.val = i.val * 1 + 0
    omega)

/-- The lane index inserted by a reduction of the second axis. -/
theorem lift_row (i : Fin 2048) (r : Fin 512) : reduces_S2048x512_S2048.lift (ix1 i) r = ix2 i r := by
  funext ax; apply Fin.ext
  match ax with
  | ⟨0, _⟩ => rfl
  | ⟨1, _⟩ => rfl

/-- A row maximum of a [2048, 512] vector: the fold of max from -∞ over the row's 512 lanes. -/
theorem rowmax_apply (src : FVec Ideal S2048x512 .f32) (i : Fin 2048) :
    multiReduction (F := Ideal) .maximumf [1] S2048 src 0xFF800000#32 reduces_S2048x512_S2048 (.inl rfl) rfl (ix1 i)
      = Finset.univ.fold max (Ideal.ofBits .f32 0xFF800000#32) (fun r : Fin 512 => src (ix2 i r)) := by
  refine (Ideal.multiReduction_maximumf_single src 0xFF800000#32 reduces_S2048x512_S2048 (.inl rfl) rfl (ix1 i)).trans ?_
  refine congrArg (Finset.univ.fold max _) (funext fun r => ?_)
  exact congrArg src (lift_row i r)

/-- The new running maximum of row i: the old one against the fold of max over the tile's scores. -/
theorem pay10_apply (i : Fin 2048) :
    k1_pay10 q k kb m (ix2 i 0)
      = max (m (ix2 i 0)) (Finset.univ.fold max (Ideal.ofBits .f32 0xFF800000#32) (fun r : Fin 512 => tileScore q k kb i r)) := by
  unfold k1_pay10
  refine (maximumf_apply (s := S2048x1) (φ := .f32) m _ (ix2 i 0)).trans ?_
  refine congrArg (max (m (ix2 i 0))) ?_
  refine (cast_col _ i).trans ?_
  refine (rowmax_apply (k1_pay9 q k kb) i).trans ?_
  exact congrArg (Finset.univ.fold max _) (funext fun r => pay9_apply q k kb i r)
/-- The factor that rescales the old state: exp of the old maximum minus the new. -/
theorem pay11_apply (m2 : Vec Ideal S2048x1 .f32) (i : Fin 2048) :
    k1_pay11 q k kb m m2 (ix2 i 0) = Ideal.exp (m2 (ix2 i 0) - k1_pay10 q k kb m (ix2 i 0)) := rfl

/-- The tile's weights: exp of the score minus the new maximum. -/
theorem pay12_apply (i : Fin 2048) (r : Fin 512) :
    k1_pay12 q k kb m (ix2 i r) = Ideal.exp (tileScore q k kb i r - k1_pay10 q k kb m (ix2 i 0)) := by
  unfold k1_pay12
  try dsimp only
  show Ideal.exp (k1_pay9 q k kb (ix2 i r) - broadcastTo S2048x512 (k1_pay10 q k kb m) broadcasts_S2048x1_S2048x512 (ix2 i r)) = _
  rw [bcast_col_512, pay9_apply]

/-- The rescaled old denominator. -/
theorem pay13_apply (m2 l2 : Vec Ideal S2048x1 .f32) (i : Fin 2048) :
    k1_pay13 q k kb m m2 l2 (ix2 i 0) = k1_pay11 q k kb m m2 (ix2 i 0) * l2 (ix2 i 0) := rfl

/-- The new denominator: the rescaled old one plus the row sum of the tile's weights. -/
theorem pay1_apply (p : FVec Ideal S2048x512 .f32) (w : FVec Ideal S2048x1 .f32) (i : Fin 2048) :
    k1_pay1 p w (ix2 i 0) = w (ix2 i 0) + ∑ r : Fin 512, p (ix2 i r) := by
  unfold k1_pay1
  try dsimp only
  rw [shapeCast_self]
  show w (ix2 i 0) + shapeCast S2048x1 (multiReduction (F := Ideal) .add [1] S2048 p 0x00000000#32 reduces_S2048x512_S2048 (.inl rfl) rfl) shapeCasts_S2048_S2048x1 (ix2 i 0) = _
  refine congrArg (_ + ·) ?_
  refine (cast_col _ i).trans ?_
  refine (Ideal.multiReduction_add_single p _ reduces_S2048x512_S2048 (.inl rfl) rfl (ix1 i)).trans ?_
  exact Finset.sum_congr rfl fun r _ => congrArg p (lift_row i r)

/-- The contraction of the second product: over the tile's 512 keys. -/
theorem pv_apply (p : FVec Ideal S2048x512 .bf16) (v8 : FVec Ideal S512x64 .bf16) (i : Fin 2048) (d : Fin 64) :
    FloatOps.matmul (F := Ideal) (φ₁ := .bf16) (φ₂ := .bf16) dot_S2048x512_S512x64_S2048x64_1_0_0_1_n_n none p v8
        (constant S2048x64 .f32 0x00000000#32) (ix2 i d)
      = ∑ r : Fin 512, p (ix2 i r) * v8 (ix2 r d) := by
  rw [Ideal.matmul_constant_zero_apply,
    ← Equiv.sum_comp (contrEquiv1 dot_S2048x512_S512x64_S2048x64_1_0_0_1_n_n 512 rfl rfl).symm]
  refine Finset.sum_congr rfl fun r _ => ?_
  have c2 := contrEquiv1_symm_val dot_S2048x512_S512x64_S2048x64_1_0_0_1_n_n 512 rfl rfl r
  have l2 : dot_S2048x512_S512x64_S2048x64_1_0_0_1_n_n.lhsIdx (ix2 i d)
      ((contrEquiv1 _ 512 rfl rfl).symm r) = ix2 i r := by
    funext ax; apply Fin.ext
    match ax with
    | ⟨0, _⟩ => simp [DotDims.lhsIdx, dot_S2048x512_S512x64_S2048x64_1_0_0_1_n_n]; rfl
    | ⟨1, _⟩ => simp [DotDims.lhsIdx, dot_S2048x512_S512x64_S2048x64_1_0_0_1_n_n]; exact c2
  have r2 : dot_S2048x512_S512x64_S2048x64_1_0_0_1_n_n.rhsIdx (ix2 i d)
      ((contrEquiv1 _ 512 rfl rfl).symm r) = ix2 r d := by
    funext ax; apply Fin.ext
    match ax with
    | ⟨0, _⟩ => simp [DotDims.rhsIdx, dot_S2048x512_S512x64_S2048x64_1_0_0_1_n_n]; exact c2
    | ⟨1, _⟩ => simp [DotDims.rhsIdx, dot_S2048x512_S512x64_S2048x64_1_0_0_1_n_n]; rfl
  rw [l2, r2]

/-- The new weighted sum: the rescaled old one plus the tile's weights times the value tile. -/
theorem pay2_apply (v8 : FVec Ideal S512x64 .bf16) (al : FVec Ideal S2048x1 .f32) (p : FVec Ideal S2048x512 .f32)
    (i : Fin 2048) (d : Fin 64) :
    k1_pay2 v8 al p a (ix2 i d) = al (ix2 i 0) * a (ix2 i d) + ∑ r : Fin 512, p (ix2 i r) * v8 (ix2 r d) := by
  unfold k1_pay2
  try dsimp only
  rw [shapeCast_self]
  show broadcastTo S2048x64 al broadcasts_S2048x1_S2048x64 (ix2 i d) * a (ix2 i d)
      + FloatOps.matmul (F := Ideal) (φ₁ := .bf16) (φ₂ := .bf16) dot_S2048x512_S512x64_S2048x64_1_0_0_1_n_n none
          (truncf .bf16 p bitsLt_bf16_f32) v8 (constant S2048x64 .f32 0x00000000#32) (ix2 i d) = _
  rw [bcast_col_64, pv_apply]
  rfl

/-- The value tile with its two unit axes dropped. -/
theorem pay8_apply (r : Fin 512) (d : Fin 64) : k1_pay8 v (ix2 r d) = v (ix4 0 0 r d) := by
  unfold k1_pay8
  try dsimp only
  exact shapeCast_apply v _ (ix2 r d) (ix4 0 0 r d) (by
    rw [Shape.rowMajor_val_four, Shape.rowMajor_val_two]
    show ((0 * 1 + 0) * 512 + r.val) * 64 + d.val = r.val * 64 + d.val
    omega)

/-- The maximum is stored as it is. -/
theorem pay3_eq (w : FVec Ideal S2048x1 .f32) : k1_pay3 w = w := by
  unfold k1_pay3; (try dsimp only); rw [shapeCast_self]

/-- The output block: the weighted sum divided by the denominator of its row. -/
theorem pay4_apply (i : Fin 2048) (d : Fin 64) :
    k1_pay4 a l (ix4 0 0 i d) = Ideal.div (a (ix2 i d)) (l (ix2 i 0)) := by
  unfold k1_pay4
  try dsimp only
  refine (shapeCast_apply _ _ (ix4 0 0 i d) (ix2 i d) (by
    rw [Shape.rowMajor_val_four, Shape.rowMajor_val_two]
    show i.val * 64 + d.val = ((0 * 1 + 0) * 2048 + i.val) * 64 + d.val
    omega)).trans ?_
  show Ideal.div (a (ix2 i d)) (broadcastTo S2048x64 l broadcasts_S2048x1_S2048x64 (ix2 i d)) = _
  rw [bcast_col_64]

/-- The three initial splats. -/
theorem pay5_apply (j : S2048x1.Idx) : k1_pay5 (F := Ideal) j = Ideal.ofBits .f32 0xFF800000#32 := by
  unfold k1_pay5; (try dsimp only); rw [shapeCast_self]; rfl
theorem pay6_apply (j : S2048x1.Idx) : k1_pay6 (F := Ideal) j = Ideal.ofBits .f32 0x00000000#32 := by
  unfold k1_pay6; (try dsimp only); rw [shapeCast_self]; rfl
theorem pay7_apply (j : S2048x64.Idx) : k1_pay7 (F := Ideal) j = Ideal.ofBits .f32 0x00000000#32 := by
  unfold k1_pay7; (try dsimp only); rw [shapeCast_self]; rfl

/-- The scale 2⁻³ is a real. -/
theorem scale_real : ∃ c : ℝ, Ideal.ofBits .f32 0x3E000000#32 = (c : EReal) := by
  unfold Ideal.ofBits Ideal.ieee
  try dsimp only
  rw [if_neg (by decide), if_neg (by decide)]
  exact ⟨_, rfl⟩

end Cert.KernelIdeal.Val

end
-- ==== Proof.KernelIdeal.Value1Pieces.lean ====
/-
  The attention region, what one grid point leaves behind, as terms of the region's own arithmetic.

  The body of the region keeps three carried buffers: the running row maximum m [2048, 1], the running
  denominator l [2048, 1] and the running weighted sum acc [2048, 64]. At a grid point it reads the query
  block, one tile of 512 keys, the same tile of values and the tile's additive key bias, and stores

      m'   = max (m, rowmax s)                      with s = (q kᵀ) · c + bias,
      l'   = exp (m - m') · l + rowsum (exp (s - m')),
      acc' = exp (m - m') · acc + exp (s - m') · v,

  and on the last tile also the quotient acc' / l' into the output block. On the first tile the three
  buffers are first set to -∞, 0 and 0 and then updated in the same way.

  Each lemma below says that what a case of the body leaves in one buffer, read back from the stores the
  run found, is the corresponding term over the blocks the point reads and the buffers' previous contents.
  They hold for every float instance.
-/
import proofs.«109941_j17609365914550_2_alg».proof.Proof.KernelIdeal.Region1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open scoped BigOperators

variable {F : FTy → Type} [FloatOps F]

/-- Zero offsets of rank two, three and four, however the zeros are spelt. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The new running maximum, from the query block, the key tile, the bias tile and the old maximum. -/
abbrev mNew (x0 : Vec F S1x1x2048x64 .bf16) (x1 : Vec F S1x1x512x64 .bf16) (x3 : Vec F S1x1x512 .f32)
    (m : Vec F S2048x1 .f32) : Vec F S2048x1 .f32 := k1_pay3 (k1_pay10 x0 x1 x3 m)
/-- The new running denominator. -/
abbrev lNew (x0 : Vec F S1x1x2048x64 .bf16) (x1 : Vec F S1x1x512x64 .bf16) (x3 : Vec F S1x1x512 .f32)
    (m l : Vec F S2048x1 .f32) : Vec F S2048x1 .f32 :=
  k1_pay1 (k1_pay12 x0 x1 x3 m) (k1_pay13 x0 x1 x3 m m l)
/-- The new running weighted sum. -/
abbrev aNew (x0 : Vec F S1x1x2048x64 .bf16) (x1 : Vec F S1x1x512x64 .bf16) (x2 : Vec F S1x1x512x64 .bf16)
    (x3 : Vec F S1x1x512 .f32) (m : Vec F S2048x1 .f32) (a : Vec F S2048x64 .f32) : Vec F S2048x64 .f32 :=
  k1_pay2 (k1_pay8 x2) (k1_pay11 x0 x1 x3 m m) (k1_pay12 x0 x1 x3 m) a

/-- On a middle tile: the running maximum after the update. -/
theorem sout_B_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    sout1_B_0 c i arg3 harg3 arg4 harg4 arg5 harg5 arg6 harg6 arg7 harg7 arg8 harg8 arg9 harg9 arg10 harg10 hc0 hc1 x0 x1 x2 x3 xs0 xs1 xs2 = mNew x0 x1 x3 xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2]

/-- On a middle tile: the running denominator after the update. -/
theorem sout_B_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    sout1_B_1 c i arg3 harg3 arg4 harg4 arg5 harg5 arg6 harg6 arg7 harg7 arg8 harg8 arg9 harg9 arg10 harg10 hc0 hc1 x0 x1 x2 x3 xs0 xs1 xs2 = lNew x0 x1 x3 xs0 xs1 := by
  unfold sout1_B_1
  rw [View.read_writes_eq_canon _ _ _ (scover1_B_1 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2]

/-- On a middle tile: the running weighted sum after the update. -/
theorem sout_B_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    sout1_B_2 c i arg3 harg3 arg4 harg4 arg5 harg5 arg6 harg6 arg7 harg7 arg8 harg8 arg9 harg9 arg10 harg10 hc0 hc1 x0 x1 x2 x3 xs0 xs1 xs2 = aNew x0 x1 x2 x3 xs0 xs2 := by
  unfold sout1_B_2
  rw [View.read_writes_eq_canon _ _ _ (scover1_B_2 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2]

/-- On the last tile: the running maximum after the update. -/
theorem sout_C_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    sout1_C_0 c i arg3 harg3 arg4 harg4 arg5 harg5 arg6 harg6 arg7 harg7 arg8 harg8 arg9 harg9 arg10 harg10 hc0 hc1 x0 x1 x2 x3 xs0 xs1 xs2 = mNew x0 x1 x3 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 xs0 xs1 xs2)]
  unfold kernelRun1_C
  dsimp only
  sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2]

/-- On the last tile: the running denominator after the update. -/
theorem sout_C_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    sout1_C_1 c i arg3 harg3 arg4 harg4 arg5 harg5 arg6 harg6 arg7 harg7 arg8 harg8 arg9 harg9 arg10 harg10 hc0 hc1 x0 x1 x2 x3 xs0 xs1 xs2 = lNew x0 x1 x3 xs0 xs1 := by
  unfold sout1_C_1
  rw [View.read_writes_eq_canon _ _ _ (scover1_C_1 c i arg3 harg3 arg4 harg4 arg5 harg5 arg6 harg6 arg7 harg7 arg8 harg8 arg9 harg9 arg10 harg10 hc0 hc1 x0 x1 x2 x3 xs0 xs1 xs2)]
  unfold kernelRun1_C
  dsimp only
  sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2]

/-- On the last tile: the running weighted sum after the update. -/
theorem sout_C_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    sout1_C_2 c i arg3 harg3 arg4 harg4 arg5 harg5 arg6 harg6 arg7 harg7 arg8 harg8 arg9 harg9 arg10 harg10 hc0 hc1 x0 x1 x2 x3 xs0 xs1 xs2 = aNew x0 x1 x2 x3 xs0 xs2 := by
  unfold sout1_C_2
  rw [View.read_writes_eq_canon _ _ _ (scover1_C_2 c i arg3 harg3 arg4 harg4 arg5 harg5 arg6 harg6 arg7 harg7 arg8 harg8 arg9 harg9 arg10 harg10 hc0 hc1 x0 x1 x2 x3 xs0 xs1 xs2)]
  unfold kernelRun1_C
  dsimp only
  sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2]

/-- On the last tile: the output block is the quotient of the updated weighted sum by the updated denominator. -/
theorem out_C_4 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : cond1_1 i) (x0 : Vec F S1x1x2048x64 .bf16) (x1 : Vec F S1x1x512x64 .bf16) (x2 : Vec F S1x1x512x64 .bf16) (x3 : Vec F S1x1x512 .f32) (xs0 : Vec F S2048x1 .f32) (xs1 : Vec F S2048x1 .f32) (xs2 : Vec F S2048x64 .f32) :
    out1_C_4 c i arg3 harg3 arg4 harg4 arg5 harg5 arg6 harg6 arg7 harg7 arg8 harg8 arg9 harg9 arg10 harg10 hc0 hc1 x0 x1 x2 x3 xs0 xs1 xs2 = k1_pay4 (aNew x0 x1 x2 x3 xs0 xs2) (lNew x0 x1 x3 xs0 xs1) := by
  unfold out1_C_4
  rw [View.read_writes_eq_canon _ _ _ (cover1_C_4 c i arg3 harg3 arg4 harg4 arg5 harg5 arg6 harg6 arg7 harg7 arg8 harg8 arg9 harg9 arg10 harg10 hc0 hc1 x0 x1 x2 x3 xs0 xs1 xs2)]
  unfold kernelRun1_C
  dsimp only
  sl_unfold_words
  rw [View.canon_unit_zero hz4]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2, View.readCov_unit_zero (S := S2048x1) _ hz2, View.readCov_unit_zero (S := S2048x64) _ hz2]

/-- On the first tile: the running maximum after the update from -∞, 0 and 0. -/
theorem sout_A_0 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (x0 : Vec F S1x1x2048x64 .bf16) (x1 : Vec F S1x1x512x64 .bf16) (x2 : Vec F S1x1x512x64 .bf16) (x3 : Vec F S1x1x512 .f32) :
    sout1_A_0 c i arg3 harg3 arg4 harg4 arg5 harg5 arg6 harg6 arg7 harg7 arg8 harg8 arg9 harg9 arg10 harg10 hc0 hc1 x0 x1 x2 x3 = mNew x0 x1 x3 (k1_pay5 (F := F)) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero (S := S2048x1) hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2, View.readCov_unit_zero (S := S2048x1) _ hz2, View.readCov_unit_zero (S := S2048x64) _ hz2]

/-- On the first tile: the running denominator after the update from -∞, 0 and 0. -/
theorem sout_A_1 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (x0 : Vec F S1x1x2048x64 .bf16) (x1 : Vec F S1x1x512x64 .bf16) (x2 : Vec F S1x1x512x64 .bf16) (x3 : Vec F S1x1x512 .f32) :
    sout1_A_1 c i arg3 harg3 arg4 harg4 arg5 harg5 arg6 harg6 arg7 harg7 arg8 harg8 arg9 harg9 arg10 harg10 hc0 hc1 x0 x1 x2 x3 = lNew x0 x1 x3 (k1_pay5 (F := F)) (k1_pay6 (F := F)) := by
  unfold sout1_A_1
  rw [View.read_writes_eq_canon _ _ _ (scover1_A_1 c i arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero (S := S2048x1) hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2, View.readCov_unit_zero (S := S2048x1) _ hz2, View.readCov_unit_zero (S := S2048x64) _ hz2]

/-- On the first tile: the running weighted sum after the update from -∞, 0 and 0. -/
theorem sout_A_2 (c : Dev nD) (i : grid1.Coords) (arg3 : Memref sig .tc .vmem S1x1x2048x64 .bf16) (harg3 : arg3.IsWhole) (arg4 : Memref sig .tc .vmem S1x1x512x64 .bf16) (harg4 : arg4.IsWhole) (arg5 : Memref sig .tc .vmem S1x1x512x64 .bf16) (harg5 : arg5.IsWhole) (arg6 : Memref sig .tc .vmem S1x1x512 .f32) (harg6 : arg6.IsWhole) (arg7 : Memref sig .tc .vmem S1x1x2048x64 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (x0 : Vec F S1x1x2048x64 .bf16) (x1 : Vec F S1x1x512x64 .bf16) (x2 : Vec F S1x1x512x64 .bf16) (x3 : Vec F S1x1x512 .f32) :
    sout1_A_2 c i arg3 harg3 arg4 harg4 arg5 harg5 arg6 harg6 arg7 harg7 arg8 harg8 arg9 harg9 arg10 harg10 hc0 hc1 x0 x1 x2 x3 = aNew x0 x1 x2 x3 (k1_pay5 (F := F)) (k1_pay7 (F := F)) := by
  unfold sout1_A_2
  rw [View.read_writes_eq_canon _ _ _ (scover1_A_2 c i arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero (S := S2048x64) hz2]
  simp only [View.readAt_eq_ld, harg3.read_unread, harg4.read_unread, harg5.read_unread, harg6.read_unread, harg8.read_unread, harg9.read_unread, harg10.read_unread, View.ld_unit_zero (S := S1x1x2048x64) hz4, View.ld_unit_zero (S := S1x1x512x64) hz4, View.ld_unit_zero (S := S1x1x512) hz3, View.ld_unit_zero (S := S2048x1) hz2, View.ld_unit_zero (S := S2048x64) hz2, View.readCov_unit_zero (S := S2048x1) _ hz2, View.readCov_unit_zero (S := S2048x64) _ hz2]

end Cert.KernelIdeal.Val

end
-- ==== Proof.KernelIdeal.Value1Step.lean ====
/-
  One grid point of the attention region as one step of the tile recurrence.

  For a query row i and an output feature d, the point's update of (m, l, acc) at (i, d) is the step
  m' = μ', l' = exp (m - μ') · l + ∑ r, exp (s r - μ'), a' = exp (m - μ') · a + ∑ r, exp (s r - μ') · v r
  over the tile's 512 keys, where s r is the real score of key r and μ' the new row maximum, a real because
  the tile is not empty and every score is real. The old maximum is bottom on the first tile and a real afterwards.
-/
import proofs.«109941_j17609365914550_2_alg».proof.Proof.KernelIdeal.Value1Pay
import proofs.«109941_j17609365914550_2_alg».proof.Proof.KernelIdeal.Value1Pieces

set_option maxRecDepth 16384

noncomputable section

namespace Cert.KernelIdeal.Val

open Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open scoped BigOperators

open Cert.Proof.SoftmaxTiles

section Step

variable (q : Vec Ideal S1x1x2048x64 .bf16) (k v : Vec Ideal S1x1x512x64 .bf16) (kb : Vec Ideal S1x1x512 .f32)
  (m l : Vec Ideal S2048x1 .f32) (a : Vec Ideal S2048x64 .f32)
variable (qr : Fin 2048 → Fin 64 → ℝ) (kr vr : Fin 512 → Fin 64 → ℝ) (br : Fin 512 → ℝ) (cs : ℝ)

/-- The real score of query row i against key r of a tile whose entries are the given reals. -/
def sReal (i : Fin 2048) (r : Fin 512) : ℝ := (∑ d : Fin 64, qr i d * kr r d) * cs + br r

/-- With real entries the tile's score is that real. -/
theorem tileScore_coe (hq : ∀ i d, q (ix4 0 0 i d) = (qr i d : EReal)) (hk : ∀ r d, k (ix4 0 0 r d) = (kr r d : EReal))
    (hb : ∀ r, kb (ix3 0 0 r) = (br r : EReal)) (hc : Ideal.ofBits .f32 0x3E000000#32 = (cs : EReal))
    (i : Fin 2048) (r : Fin 512) : tileScore q k kb i r = ((sReal qr kr br cs i r : ℝ) : EReal) := by
  unfold tileScore sReal
  have h1 : (∑ d : Fin 64, q (ix4 0 0 i d) * k (ix4 0 0 r d)) = ((∑ d : Fin 64, qr i d * kr r d : ℝ) : EReal) := by
    rw [coe_finset_sum]
    exact Finset.sum_congr rfl fun d _ => by rw [hq, hk, EReal.coe_mul]
  rw [h1, hc, hb, ← EReal.coe_mul, ← EReal.coe_add]

/-- One grid point's update of row i and feature d is a step of the tile recurrence, with a real offset:
    the new maximum. The old maximum is either bottom (first tile) or a real. -/
theorem tile_step (hq : ∀ i d, q (ix4 0 0 i d) = (qr i d : EReal)) (hk : ∀ r d, k (ix4 0 0 r d) = (kr r d : EReal))
    (hv : ∀ r d, v (ix4 0 0 r d) = (vr r d : EReal))
    (hb : ∀ r, kb (ix3 0 0 r) = (br r : EReal)) (hc : Ideal.ofBits .f32 0x3E000000#32 = (cs : EReal))
    (i : Fin 2048) (d : Fin 64) (hm : m (ix2 i 0) = ⊥ ∨ ∃ μ : ℝ, m (ix2 i 0) = (μ : EReal)) :
    ∃ μ' : ℝ, TileStep (sReal qr kr br cs i) (fun r => vr r d) μ' (m (ix2 i 0)) (l (ix2 i 0)) (a (ix2 i d))
      (mNew q k kb m (ix2 i 0)) (lNew q k kb m l (ix2 i 0)) (aNew q k v kb m a (ix2 i d)) := by
  have hs : (fun r : Fin 512 => tileScore q k kb i r) = fun r => ((sReal qr kr br cs i r : ℝ) : EReal) :=
    funext fun r => tileScore_coe q k kb qr kr br cs hq hk hb hc i r
  obtain ⟨μ', hμ⟩ : ∃ μ' : ℝ, k1_pay10 q k kb m (ix2 i 0) = (μ' : EReal) := by
    rcases hm with h | ⟨μ, h⟩
    · exact ⟨_, by rw [pay10_apply, h, ofBits_f32_neg_inf, hs, max_bot_fold_max_bot_univ_coe]⟩
    · exact ⟨_, by rw [pay10_apply, h, ofBits_f32_neg_inf, hs, max_coe_fold_max_bot_univ_coe]⟩
  refine ⟨μ', ?_, ?_, ?_⟩
  · show k1_pay3 (k1_pay10 q k kb m) (ix2 i 0) = _
    rw [pay3_eq, hμ]
  · show k1_pay1 (k1_pay12 q k kb m) (k1_pay13 q k kb m m l) (ix2 i 0) = _
    rw [pay1_apply, pay13_apply, pay11_apply, hμ]
    refine congrArg (_ + ·) (Finset.sum_congr rfl fun r _ => ?_)
    rw [pay12_apply, hμ, tileScore_coe q k kb qr kr br cs hq hk hb hc]
  · show k1_pay2 (k1_pay8 v) (k1_pay11 q k kb m m) (k1_pay12 q k kb m) a (ix2 i d) = _
    rw [pay2_apply, pay11_apply, hμ]
    refine congrArg (_ + ·) (Finset.sum_congr rfl fun r _ => ?_)
    rw [pay12_apply, hμ, tileScore_coe q k kb qr kr br cs hq hk hb hc, pay8_apply, hv]

end Step

end Cert.KernelIdeal.Val

end
-- ==== Proof.KernelIdeal.Value1Blocks.lean ====
/-
  Region 1's four input blocks, read where the whole arrays hold them.

  The grid is 2 × 12 × 4: point t = (b, h, j) = (t / 48, t / 4 % 12, t % 4) reads the whole [2048, 64] query of head
  (b, h); key tile j, rows 512 · j … 512 · j + 511, of the key and of the value of head (b, h); and key tile j of row
  b of the additive key bias. An element of a block sits in its array, on each axis, at the block index times the
  block's size plus its own coordinate.
-/
import proofs.«109941_j17609365914550_2_alg».proof.Proof.KernelIdeal.Value1Pay

set_option maxRecDepth 16384

noncomputable section

namespace Cert.KernelIdeal.Val

open Cert.KernelIdeal.Gen Cert.KernelIdeal.Fr
open Idealize.ShloMosaic Idealize.ShloMosaic.TcCoe Idealize.ShloMosaic.ValueIdx
open scoped BigOperators

variable (V : (c : Dev nD) → (b : Ref sig .tc) → Buf (Elt Ideal) ((c : Thread nD τ).loc b)) (c : Dev nD)

/-- Key r of tile j. -/
def keyOf (j : Fin 4) (r : Fin 512) : Fin 2048 := ⟨512 * j.val + r.val, by have := j.isLt; have := r.isLt; omega⟩

/-! ## The index maps over the ninety-six points -/

/-- The query's block index at point t is (t / 48, t / 4 % 12, 0, 0). -/
theorem idx_q1 : ∀ t : Fin cfg1.N,
    win1_0.index t (0 : Fin 4) = t.val / 48 ∧ win1_0.index t (1 : Fin 4) = t.val / 4 % 12
    ∧ win1_0.index t (2 : Fin 4) = 0 ∧ win1_0.index t (3 : Fin 4) = 0 :=
  (by decide +kernel : ∀ t : Fin grid1.N, _)

/-- The key's is (t / 48, t / 4 % 12, t % 4, 0), -/
theorem idx_k1 : ∀ t : Fin cfg1.N,
    win1_1.index t (0 : Fin 4) = t.val / 48 ∧ win1_1.index t (1 : Fin 4) = t.val / 4 % 12
    ∧ win1_1.index t (2 : Fin 4) = t.val % 4 ∧ win1_1.index t (3 : Fin 4) = 0 :=
  (by decide +kernel : ∀ t : Fin grid1.N, _)

/-- and so is the value's. -/
theorem idx_v1 : ∀ t : Fin cfg1.N,
    win1_2.index t (0 : Fin 4) = t.val / 48 ∧ win1_2.index t (1 : Fin 4) = t.val / 4 % 12
    ∧ win1_2.index t (2 : Fin 4) = t.val % 4 ∧ win1_2.index t (3 : Fin 4) = 0 :=
  (by decide +kernel : ∀ t : Fin grid1.N, _)

/-- The key bias's is (t / 48, 0, t % 4). -/
theorem idx_b1 : ∀ t : Fin cfg1.N,
    win1_3.index t (0 : Fin 3) = t.val / 48 ∧ win1_3.index t (1 : Fin 3) = 0 ∧ win1_3.index t (2 : Fin 3) = t.val % 4 :=
  (by decide +kernel : ∀ t : Fin grid1.N, _)

/-! ## The blocks -/

/-- The query block at a point of head (b, h) is that head's whole query. -/
theorem blkQ (t : Fin cfg1.N) (b : Fin 2) (h : Fin 12) (hbt : t.val / 48 = b.val) (hht : t.val / 4 % 12 = h.val)
    (i : Fin 2048) (d : Fin 64) :
    (iblk1 V c 0 t : Vec Ideal S1x1x2048x64 .bf16) (ix4 0 0 i d) = arrQ V c b h i d := by
  obtain ⟨e0, e1, e2, e3⟩ := idx_q1 t
  show V c (Pipeline.arrRef spec1 0) (((cfg1.win 0).blk t).view.emb (ix4 (0 : Fin 1) (0 : Fin 1) i d))
    = V c (Pipeline.arrRef spec1 0) (ix4 b h i d)
  refine congrArg _ (funext fun a => Fin.ext ?_)
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 2048 + 1 * i.val = i.val; omega
  | ⟨3, _⟩ => show win1_0.index t (3 : Fin 4) * 64 + 1 * d.val = d.val; omega

/-- The key block at point (b, h, j) is key tile j of head (b, h). -/
theorem blkK (t : Fin cfg1.N) (b : Fin 2) (h : Fin 12) (j : Fin 4) (hbt : t.val / 48 = b.val)
    (hht : t.val / 4 % 12 = h.val) (hjt : t.val % 4 = j.val) (r : Fin 512) (d : Fin 64) :
    (iblk1 V c 1 t : Vec Ideal S1x1x512x64 .bf16) (ix4 0 0 r d) = arrK V c b h (keyOf j r) d := by
  obtain ⟨e0, e1, e2, e3⟩ := idx_k1 t
  show V c (Pipeline.arrRef spec1 1) (((cfg1.win 1).blk t).view.emb (ix4 (0 : Fin 1) (0 : Fin 1) r d))
    = V c (Pipeline.arrRef spec1 1) (ix4 b h (keyOf j r) d)
  refine congrArg _ (funext fun a => Fin.ext ?_)
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 512 + 1 * r.val = 512 * j.val + r.val; omega
  | ⟨3, _⟩ => show win1_1.index t (3 : Fin 4) * 64 + 1 * d.val = d.val; omega

/-- The value block at point (b, h, j) is key tile j of head (b, h)'s value. -/
theorem blkV (t : Fin cfg1.N) (b : Fin 2) (h : Fin 12) (j : Fin 4) (hbt : t.val / 48 = b.val)
    (hht : t.val / 4 % 12 = h.val) (hjt : t.val % 4 = j.val) (r : Fin 512) (d : Fin 64) :
    (iblk1 V c 2 t : Vec Ideal S1x1x512x64 .bf16) (ix4 0 0 r d) = arrV V c b h (keyOf j r) d := by
  obtain ⟨e0, e1, e2, e3⟩ := idx_v1 t
  show V c (Pipeline.arrRef spec1 2) (((cfg1.win 2).blk t).view.emb (ix4 (0 : Fin 1) (0 : Fin 1) r d))
    = V c (Pipeline.arrRef spec1 2) (ix4 b h (keyOf j r) d)
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 512 + 1 * r.val = 512 * j.val + r.val; omega
  | ⟨3, _⟩ => show win1_2.index t (3 : Fin 4) * 64 + 1 * d.val = d.val; omega

/-- The key-bias block at point (b, ·, j) is key tile j of row b of the bias. -/
theorem blkB (t : Fin cfg1.N) (b : Fin 2) (j : Fin 4) (hbt : t.val / 48 = b.val) (hjt : t.val % 4 = j.val)
    (r : Fin 512) :
    (iblk1 V c 3 t : Vec Ideal S1x1x512 .f32) (ix3 0 0 r) = arrB V c b (keyOf j r) := by
  obtain ⟨e0, e1, e2⟩ := idx_b1 t
  show V c (Pipeline.arrRef spec1 3) (((cfg1.win 3).blk t).view.emb (ix3 (0 : Fin 1) (0 : Fin 1) r))
    = V c (Pipeline.arrRef spec1 3) (ix3 b 0 (keyOf j r))
  refine congrArg _ (funext fun a => Fin.ext ?_)
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 512 + 1 * r.val = 512 * j.val + r.val; omega

end Cert.KernelIdeal.Val

end
-- ==== Proof.KernelIdeal.Value1.lean ====
/-
  The attention region: what the last tile of a head stores into the output block.

  The grid runs, for each (batch b, head h), over four tiles of 512 keys. Point t = 4 · (12 b + h) + j handles
  tile j. The three carried buffers (row maximum m, denominator l, weighted sum acc) are reset on tile 0 and
  updated on every tile; on tile 3 the quotient acc / l goes to the output block.

  With every entry of the query, key, value and bias arrays a real, each point's update at a query row i and an
  output feature d is a step of the tile recurrence of the softmax library (the new maximum is a real offset),
  so by induction along the grid the buffers after tile j hold the closed form over the keys of tiles 0 … j:
  l = ∑ exp (s - μ), acc = ∑ exp (s - μ) · v. After tile 3 these sums run over all 2048 keys, the key
  (tile j, position r) being key 512 j + r, and the quotient does not depend on the offset: it is the
  reference's softmax over the keys, taken with the row's maximum as its shift, times the values.
-/
import proofs.«109941_j17609365914550_2_alg».proof.Proof.KernelIdeal.Value1Pay
import proofs.«109941_j17609365914550_2_alg».proof.Proof.KernelIdeal.Value1Pieces
import proofs.«109941_j17609365914550_2_alg».proof.Proof.KernelIdeal.Value1Step
import proofs.«109941_j17609365914550_2_alg».proof.Proof.KernelIdeal.Value1Blocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open scoped BigOperators

/-! ## What each case of the body leaves, at a point of the grid -/

section Points
variable (V : (c : Dev nD) → (b : Ref sig .tc) → Buf (Elt Ideal) ((c : Thread nD τ).loc b)) (c : Dev nD)

/-- After a first tile: the running maximum. -/
theorem m_at_A (t : Fin cfg1.N) (h0 : t.val % 4 = 0) (h1 : ¬t.val % 4 = 3) :
    (outsAt1 V c t.val t.isLt).2.1 = mNew (iblk1 V c 0 t) (iblk1 V c 1 t) (iblk1 V c 3 t) (k1_pay5 (F := Ideal)) := by
  rw [outsAt1_A V c t h0 h1]
  dsimp only
  exact sout_A_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- After a first tile: the running denominator. -/
theorem l_at_A (t : Fin cfg1.N) (h0 : t.val % 4 = 0) (h1 : ¬t.val % 4 = 3) :
    (outsAt1 V c t.val t.isLt).2.2.1 = lNew (iblk1 V c 0 t) (iblk1 V c 1 t) (iblk1 V c 3 t) (k1_pay5 (F := Ideal)) (k1_pay6 (F := Ideal)) := by
  rw [outsAt1_A V c t h0 h1]
  dsimp only
  exact sout_A_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- After a first tile: the running weighted sum. -/
theorem a_at_A (t : Fin cfg1.N) (h0 : t.val % 4 = 0) (h1 : ¬t.val % 4 = 3) :
    (outsAt1 V c t.val t.isLt).2.2.2 = aNew (iblk1 V c 0 t) (iblk1 V c 1 t) (iblk1 V c 2 t) (iblk1 V c 3 t) (k1_pay5 (F := Ideal)) (k1_pay7 (F := Ideal)) := by
  rw [outsAt1_A V c t h0 h1]
  dsimp only
  exact sout_A_2 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- After a middle tile: the running maximum. -/
theorem m_at_B (t : Fin cfg1.N) (h0 : ¬t.val % 4 = 0) (h1 : ¬t.val % 4 = 3) :
    (outsAt1 V c t.val t.isLt).2.1 = mNew (iblk1 V c 0 t) (iblk1 V c 1 t) (iblk1 V c 3 t) (outsAt1 V c (t.val - 1) (Nat.lt_of_le_of_lt (Nat.sub_le _ _) t.isLt)).2.1 := by
  rw [outsAt1_B V c t h0 h1]
  dsimp only
  exact sout_B_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a middle tile: the running denominator. -/
theorem l_at_B (t : Fin cfg1.N) (h0 : ¬t.val % 4 = 0) (h1 : ¬t.val % 4 = 3) :
    (outsAt1 V c t.val t.isLt).2.2.1 = lNew (iblk1 V c 0 t) (iblk1 V c 1 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 := by
  rw [outsAt1_B V c t h0 h1]
  dsimp only
  exact sout_B_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a middle tile: the running weighted sum. -/
theorem a_at_B (t : Fin cfg1.N) (h0 : ¬t.val % 4 = 0) (h1 : ¬t.val % 4 = 3) :
    (outsAt1 V c t.val t.isLt).2.2.2 = aNew (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.2 := by
  rw [outsAt1_B V c t h0 h1]
  dsimp only
  exact sout_B_2 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a last tile: the running maximum. -/
theorem m_at_C (t : Fin cfg1.N) (h0 : ¬t.val % 4 = 0) (h1 : t.val % 4 = 3) :
    (outsAt1 V c t.val t.isLt).2.1 = mNew (iblk1 V c 0 t) (iblk1 V c 1 t) (iblk1 V c 3 t) (outsAt1 V c (t.val - 1) (Nat.lt_of_le_of_lt (Nat.sub_le _ _) t.isLt)).2.1 := by
  rw [outsAt1_C V c t h0 h1]
  dsimp only
  exact sout_C_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a last tile: the running denominator. -/
theorem l_at_C (t : Fin cfg1.N) (h0 : ¬t.val % 4 = 0) (h1 : t.val % 4 = 3) :
    (outsAt1 V c t.val t.isLt).2.2.1 = lNew (iblk1 V c 0 t) (iblk1 V c 1 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 := by
  rw [outsAt1_C V c t h0 h1]
  dsimp only
  exact sout_C_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a last tile: the running weighted sum. -/
theorem a_at_C (t : Fin cfg1.N) (h0 : ¬t.val % 4 = 0) (h1 : t.val % 4 = 3) :
    (outsAt1 V c t.val t.isLt).2.2.2 = aNew (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.2 := by
  rw [outsAt1_C V c t h0 h1]
  dsimp only
  exact sout_C_2 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a last tile: the output block. -/
theorem o_at_C (t : Fin cfg1.N) (h0 : ¬t.val % 4 = 0) (h1 : t.val % 4 = 3) :
    (outsAt1 V c t.val t.isLt).1 = k1_pay4 (aNew (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.2) (lNew (iblk1 V c 0 t) (iblk1 V c 1 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1) := by
  rw [outsAt1_C V c t h0 h1]
  dsimp only
  exact out_C_4 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end Points

/-! ## The induction over a head's four tiles -/

open Cert.Proof.SoftmaxTiles

/-- The keys are the pairs (tile, position in the tile). -/
def keyEquiv : Fin 4 × Fin 512 ≃ Fin 2048 where
  toFun p := keyOf p.1 p.2
  invFun k := (⟨k.val / 512, by have := k.isLt; omega⟩, ⟨k.val % 512, Nat.mod_lt _ (by decide)⟩)
  left_inv := fun ⟨j, r⟩ => Prod.ext
    (Fin.ext (by show (512 * j.val + r.val) / 512 = j.val; have := r.isLt; omega))
    (Fin.ext (by show (512 * j.val + r.val) % 512 = r.val; have := r.isLt; omega))
  right_inv := fun k => Fin.ext (by show 512 * (k.val / 512) + k.val % 512 = k.val; omega)

section Run
variable (V : (c : Dev nD) → (b : Ref sig .tc) → Buf (Elt Ideal) ((c : Thread nD τ).loc b)) (c : Dev nD)
variable (qr kr vr : Fin 2 → Fin 12 → Fin 2048 → Fin 64 → ℝ) (br : Fin 2 → Fin 2048 → ℝ) (cs : ℝ)

/-- The real score of query row i of (batch b, head h) against a key. -/
def sKey (b : Fin 2) (h : Fin 12) (i : Fin 2048) (key : Fin 2048) : ℝ :=
  (∑ d : Fin 64, qr b h i d * kr b h key d) * cs + br b key

/-- The tiles up to j are the tiles up to j - 1 and j. -/
theorem Iic_eq_insert (j j' : Fin 4) (hj : j'.val + 1 = j.val) : Finset.Iic j = insert j (Finset.Iic j') := by
  ext x
  simp only [Finset.mem_Iic, Finset.mem_insert, Fin.le_def, Fin.ext_iff]
  omega

/-- One point of the induction: from the closed form after the tiles before tile j (nothing to assume when
    j = 0) to the closed form after tile j, for every row and feature. -/
theorem inv_step (hqr : ∀ b h i d, arrQ V c b h i d = (qr b h i d : EReal))
    (hkr : ∀ b h j d, arrK V c b h j d = (kr b h j d : EReal))
    (hvr : ∀ b h j d, arrV V c b h j d = (vr b h j d : EReal))
    (hbr : ∀ b j, arrB V c b j = (br b j : EReal)) (hcs : Ideal.ofBits .f32 0x3E000000#32 = (cs : EReal))
    (t : Fin cfg1.N) (b : Fin 2) (h : Fin 12) (j : Fin 4) (hbt : t.val / 48 = b.val) (hht : t.val / 4 % 12 = h.val)
    (hjt : t.val % 4 = j.val) (i : Fin 2048) (d : Fin 64)
    (hprev : ¬t.val % 4 = 0 → ∀ j' : Fin 4, j'.val + 1 = j.val → ∃ μ : ℝ,
      TileInv (fun j r => sKey qr kr br cs b h i (keyOf j r)) (fun j r => vr b h (keyOf j r) d) (Finset.Iic j') μ
        ((outsAt1 V c (t.val - 1) (Nat.lt_of_le_of_lt (Nat.sub_le _ _) t.isLt)).2.1 (ix2 i 0))
        ((outsAt1 V c (t.val - 1) (Nat.lt_of_le_of_lt (Nat.sub_le _ _) t.isLt)).2.2.1 (ix2 i 0))
        ((outsAt1 V c (t.val - 1) (Nat.lt_of_le_of_lt (Nat.sub_le _ _) t.isLt)).2.2.2 (ix2 i d))) :
    ∃ μ : ℝ, TileInv (fun j r => sKey qr kr br cs b h i (keyOf j r)) (fun j r => vr b h (keyOf j r) d) (Finset.Iic j) μ
      ((outsAt1 V c t.val t.isLt).2.1 (ix2 i 0)) ((outsAt1 V c t.val t.isLt).2.2.1 (ix2 i 0))
      ((outsAt1 V c t.val t.isLt).2.2.2 (ix2 i d)) := by
  have hq' : ∀ i d, (iblk1 V c 0 t : Vec Ideal S1x1x2048x64 .bf16) (ix4 0 0 i d) = (qr b h i d : EReal) :=
    fun i d => (blkQ V c t b h hbt hht i d).trans (hqr b h i d)
  have hk' : ∀ r d, (iblk1 V c 1 t : Vec Ideal S1x1x512x64 .bf16) (ix4 0 0 r d) = (kr b h (keyOf j r) d : EReal) :=
    fun r d => (blkK V c t b h j hbt hht hjt r d).trans (hkr b h _ d)
  have hv' : ∀ r d, (iblk1 V c 2 t : Vec Ideal S1x1x512x64 .bf16) (ix4 0 0 r d) = (vr b h (keyOf j r) d : EReal) :=
    fun r d => (blkV V c t b h j hbt hht hjt r d).trans (hvr b h _ d)
  have hb' : ∀ r, (iblk1 V c 3 t : Vec Ideal S1x1x512 .f32) (ix3 0 0 r) = (br b (keyOf j r) : EReal) :=
    fun r => (blkB V c t b j hbt hjt r).trans (hbr b _)
  by_cases h0 : t.val % 4 = 0
  · have h1 : ¬t.val % 4 = 3 := by omega
    obtain ⟨μ', hstep⟩ := tile_step (iblk1 V c 0 t) (iblk1 V c 1 t) (iblk1 V c 2 t) (iblk1 V c 3 t)
      (k1_pay5 (F := Ideal)) (k1_pay6 (F := Ideal)) (k1_pay7 (F := Ideal))
      (qr b h) (fun r d => kr b h (keyOf j r) d) (fun r d => vr b h (keyOf j r) d) (fun r => br b (keyOf j r)) cs
      hq' hk' hv' hb' hcs i d (Or.inl (by rw [pay5_apply, ofBits_f32_neg_inf]))
    rw [pay6_apply, pay7_apply, Ideal.ofBits_zero_f32] at hstep
    refine ⟨μ', ?_⟩
    rw [m_at_A V c t h0 h1, l_at_A V c t h0 h1, a_at_A V c t h0 h1]
    have hI : Finset.Iic j = {j} := by
      ext x
      simp only [Finset.mem_Iic, Finset.mem_singleton, Fin.le_def, Fin.ext_iff]
      omega
    rw [hI]
    exact TileStep.first _ _ j μ' hstep
  · obtain ⟨μ, hinv⟩ := hprev h0 ⟨j.val - 1, by have := j.isLt; omega⟩ (by show j.val - 1 + 1 = j.val; omega)
    obtain ⟨μ', hstep⟩ := tile_step (iblk1 V c 0 t) (iblk1 V c 1 t) (iblk1 V c 2 t) (iblk1 V c 3 t)
      (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2
      (qr b h) (fun r d => kr b h (keyOf j r) d) (fun r d => vr b h (keyOf j r) d) (fun r => br b (keyOf j r)) cs
      hq' hk' hv' hb' hcs i d (Or.inr ⟨μ, hinv.m_eq⟩)
    refine ⟨μ', ?_⟩
    rw [Iic_eq_insert j ⟨j.val - 1, by have := j.isLt; omega⟩ (by show j.val - 1 + 1 = j.val; omega)]
    have hnot : j ∉ Finset.Iic (⟨j.val - 1, by have := j.isLt; omega⟩ : Fin 4) := by
      simp only [Finset.mem_Iic, Fin.le_def]
      omega
    by_cases h1 : t.val % 4 = 3
    · rw [m_at_C V c t h0 h1, l_at_C V c t h0 h1, a_at_C V c t h0 h1]
      exact TileStep.next _ _ hnot hinv hstep
    · rw [m_at_B V c t h0 h1, l_at_B V c t h0 h1, a_at_B V c t h0 h1]
      exact TileStep.next _ _ hnot hinv hstep

end Run

/-! ## The output block -/

section Last
variable (V : (c : Dev nD) → (b : Ref sig .tc) → Buf (Elt Ideal) ((c : Thread nD τ).loc b)) (c : Dev nD)
variable (qr kr vr : Fin 2 → Fin 12 → Fin 2048 → Fin 64 → ℝ) (br : Fin 2 → Fin 2048 → ℝ) (cs : ℝ)

/-- The closed form after every point: after tile j of the group of head (b, h), the three carried buffers at
    row i (and feature d) hold the maximum offset, the sum of the weights and the weighted sum of the values
    over the keys of the tiles up to j. By induction along the grid. -/
theorem inv (hqr : ∀ b h i d, arrQ V c b h i d = (qr b h i d : EReal))
    (hkr : ∀ b h j d, arrK V c b h j d = (kr b h j d : EReal))
    (hvr : ∀ b h j d, arrV V c b h j d = (vr b h j d : EReal))
    (hbr : ∀ b j, arrB V c b j = (br b j : EReal)) (hcs : Ideal.ofBits .f32 0x3E000000#32 = (cs : EReal)) :
    ∀ (t : ℕ) (ht : t < cfg1.N) (b : Fin 2) (h : Fin 12) (j : Fin 4), t / 48 = b.val → t / 4 % 12 = h.val →
      t % 4 = j.val → ∀ (i : Fin 2048) (d : Fin 64), ∃ μ : ℝ,
        TileInv (fun j r => sKey qr kr br cs b h i (keyOf j r)) (fun j r => vr b h (keyOf j r) d) (Finset.Iic j) μ
          ((outsAt1 V c t ht).2.1 (ix2 i 0)) ((outsAt1 V c t ht).2.2.1 (ix2 i 0)) ((outsAt1 V c t ht).2.2.2 (ix2 i d)) := by
  intro t
  induction t with
  | zero =>
    intro ht b h j hbt hht hjt i d
    exact inv_step V c qr kr vr br cs hqr hkr hvr hbr hcs ⟨0, ht⟩ b h j hbt hht hjt i d
      (fun h0 => absurd (Nat.zero_mod 4) h0)
  | succ t ih =>
    intro ht b h j hbt hht hjt i d
    refine inv_step V c qr kr vr br cs hqr hkr hvr hbr hcs ⟨t + 1, ht⟩ b h j hbt hht hjt i d (fun h0 j' hj' => ?_)
    have h0' : ¬(t + 1) % 4 = 0 := h0
    exact ih (Nat.lt_of_succ_lt ht) b h j' (by omega) (by omega) (by omega) i d

/-- The reference's attention-weighted sum at one coordinate, when the scores of the row and the values of the
    feature are reals: the softmax weights with the row's maximum as the shift, times the values. -/
theorem ctx_eq (sc : Fin 2 → Fin 12 → Fin 2048 → Fin 2048 → EReal) (va : Fin 2 → Fin 12 → Fin 2048 → Fin 64 → EReal)
    (b : Fin 2) (h : Fin 12) (i : Fin 2048) (d : Fin 64) (S Vr : Fin 2048 → ℝ)
    (hS : ∀ j, sc b h i j = ((S j : ℝ) : EReal)) (hV : ∀ j, va b h j d = ((Vr j : ℝ) : EReal)) :
    Cert.Spec.ctxAt (Cert.Spec.attnAt sc) va b h i d
      = ∑ kj, Ideal.div (Ideal.exp ((S kj : EReal) - ((Finset.univ.sup' Finset.univ_nonempty S : ℝ) : EReal)))
          (∑ k', Ideal.exp ((S k' : EReal) - ((Finset.univ.sup' Finset.univ_nonempty S : ℝ) : EReal))) * (Vr kj : EReal) := by
  have hM : Cert.Spec.rowMaxAt sc b h i = ((Finset.univ.sup' Finset.univ_nonempty S : ℝ) : EReal) := by
    unfold Cert.Spec.rowMaxAt
    rw [ofBits_f32_neg_inf, show (fun j => sc b h i j) = fun j => ((S j : ℝ) : EReal) from funext hS]
    exact max_bot_fold_max_bot_univ_coe S
  unfold Cert.Spec.ctxAt Cert.Spec.attnAt
  simp only [hM, hS, hV]

/-- What the last tile of a group stores into the output block: the reference's attention output of that head. -/
theorem out_last
    (hq : ∀ b h i d, ∃ r : ℝ, arrQ V c b h i d = (r : EReal))
    (hk : ∀ b h j d, ∃ r : ℝ, arrK V c b h j d = (r : EReal))
    (hv : ∀ b h j d, ∃ r : ℝ, arrV V c b h j d = (r : EReal))
    (hb : ∀ b j, ∃ r : ℝ, arrB V c b j = (r : EReal))
    (t : Fin cfg1.N) (b : Fin 2) (h : Fin 12) (hbt : t.val / 48 = b.val) (hht : t.val / 4 % 12 = h.val) (h3 : t.val % 4 = 3)
    (i : Fin 2048) (d : Fin 64) :
    (outsAt1 (F := Ideal) V c t.val t.isLt).1 (ix4 0 0 i d)
      = Cert.Spec.ctxAt (Cert.Spec.attnAt (scoreOf V c)) (arrV V c) b h i d := by
  choose qr hqr using hq
  choose kr hkr using hk
  choose vr hvr using hv
  choose br hbr using hb
  obtain ⟨cs, hcs⟩ := scale_real
  have h0 : ¬t.val % 4 = 0 := by omega
  obtain ⟨μ, hinv⟩ := inv V c qr kr vr br cs hqr hkr hvr hbr hcs t.val t.isLt b h 3 hbt hht h3 i d
  rw [l_at_C V c t h0 h3, a_at_C V c t h0 h3] at hinv
  have hI : Finset.Iic (3 : Fin 4) = Finset.univ := by decide
  rw [hI] at hinv
  have hsc : ∀ kj, scoreOf V c b h i kj = ((sKey qr kr br cs b h i kj : ℝ) : EReal) := by
    intro kj
    show (∑ d : Fin 64, arrQ V c b h i d * arrK V c b h kj d) * Ideal.ofBits .f32 0x3E000000#32 + arrB V c b kj = _
    have h1 : (∑ d : Fin 64, arrQ V c b h i d * arrK V c b h kj d)
        = ((∑ d : Fin 64, qr b h i d * kr b h kj d : ℝ) : EReal) := by
      rw [coe_finset_sum]
      exact Finset.sum_congr rfl fun d _ => by rw [hqr, hkr, EReal.coe_mul]
    rw [h1, hcs, hbr, ← EReal.coe_mul, ← EReal.coe_add]
    rfl
  rw [ctx_eq (scoreOf V c) (arrV V c) b h i d (sKey qr kr br cs b h i) (fun key => vr b h key d) hsc (fun j => hvr b h j d)]
  rw [o_at_C V c t h0 h3, pay4_apply]
  exact hinv.div_eq_softmax_keys keyEquiv (sKey qr kr br cs b h i) (fun key => vr b h key d) (fun _ _ => rfl) (fun _ _ => rfl) _

end Last

end Cert.KernelIdeal.Val

end
-- ==== Proof.KernelIdeal.Value1Cover.lean ====
/-
  Region 1's output array after the run.

  The output window's block at a grid point is the whole [2048, 64] slab of the point's (batch, head); it is written
  back only at the last key tile of that (batch, head), where the body has stored the running accumulator divided
  by the running denominator, which is the softmax-weighted sum of the values over all 2048 keys. The 24 slabs
  tile the array, so every entry of the array is the attention-weighted value at its own coordinates.
-/
import proofs.«109941_j17609365914550_2_alg».proof.Proof.KernelIdeal.Value1
import proofs.«109941_j17609365914550_2_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b)) (c : Dev nD)

/-- What region 1's output array ends holding: the attention-weighted values, by coordinates. -/
abbrev ctxArr : S2x12x2048x64.Idx → EReal := fun i =>
  Cert.Spec.ctxAt (Cert.Spec.attnAt (scoreOf V c)) (arrV V c) (i 0) (i 1) (i 2) (i 3)

/-- The output window's block index at point `t` is (batch, head, 0, 0) of the point. -/
theorem idx_out : ∀ t : Fin cfg1.N, win1_4.index t (0 : Fin 4) = t.val / 48 ∧ win1_4.index t (1 : Fin 4) = t.val / 4 % 12
    ∧ win1_4.index t (2 : Fin 4) = 0 ∧ win1_4.index t (3 : Fin 4) = 0 :=
  (by decide +kernel : ∀ t : Fin grid1.N, _)

variable (hq : ∀ b h i d, ∃ r : ℝ, arrQ V c b h i d = (r : EReal))
    (hk : ∀ b h j d, ∃ r : ℝ, arrK V c b h j d = (r : EReal))
    (hv : ∀ b h j d, ∃ r : ℝ, arrV V c b h j d = (r : EReal))
    (hb : ∀ b j, ∃ r : ℝ, arrB V c b j = (r : EReal))

include hq hk hv hb in
/-- What a point at the last key tile writes back is its (batch, head) block of the attention-weighted values. -/
theorem flushed_eq1 (t : Fin cfg1.N) (hf : (cfg1.win 4).flush t = true) :
    (dat1 (F := Ideal) V c).flushed 4 t = ((cfg1.win 4).blk t).view.read (Elt Ideal) (ctxArr V c) := by
  have h3 : t.val % 4 = 3 := (flush1_4 t).mp hf
  have hN : t.val < 96 := lt_of_lt_of_eq t.isLt N_1
  obtain ⟨e0, e1, e2, e3⟩ := idx_out t
  show (cfg1.win 4).cut (grid1.coords t) ((dat1 (F := Ideal) V c).after 4 t) = _
  rw [after1_4]
  funext j
  have hj0 : (j 0).val < 1 := (j 0).isLt
  have hj1 : (j 1).val < 1 := (j 1).isLt
  have hj2 : (j 2).val < 2048 := (j 2).isLt
  have hj3 : (j 3).val < 64 := (j 3).isLt
  have ej : j = (ix4 (0 : Fin 1) (0 : Fin 1) (⟨(j 2).val, hj2⟩ : Fin 2048) (⟨(j 3).val, hj3⟩ : Fin 64) : S1x1x2048x64.Idx) := by
    funext a
    match a with
    | ⟨0, _⟩ => exact Fin.ext (by show (j 0).val = 0; omega)
    | ⟨1, _⟩ => exact Fin.ext (by show (j 1).val = 0; omega)
    | ⟨2, _⟩ => exact Fin.ext rfl
    | ⟨3, _⟩ => exact Fin.ext rfl
  have a0 : ((cfg1.win 4).blk t).view.emb j 0 = (⟨t.val / 48, by omega⟩ : Fin 2) := Fin.ext (by
    show win1_4.index t (0 : Fin 4) * 1 + 1 * (j 0).val = t.val / 48; omega)
  have a1 : ((cfg1.win 4).blk t).view.emb j 1 = (⟨t.val / 4 % 12, by omega⟩ : Fin 12) := Fin.ext (by
    show win1_4.index t (1 : Fin 4) * 1 + 1 * (j 1).val = t.val / 4 % 12; omega)
  have a2 : ((cfg1.win 4).blk t).view.emb j 2 = (⟨(j 2).val, hj2⟩ : Fin 2048) := Fin.ext (by
    show win1_4.index t (2 : Fin 4) * 2048 + 1 * (j 2).val = (j 2).val; omega)
  have a3 : ((cfg1.win 4).blk t).view.emb j 3 = (⟨(j 3).val, hj3⟩ : Fin 64) := Fin.ext (by
    show win1_4.index t (3 : Fin 4) * 64 + 1 * (j 3).val = (j 3).val; omega)
  show (outsAt1 (F := Ideal) V c t.val t.isLt).1 j
    = Cert.Spec.ctxAt (Cert.Spec.attnAt (scoreOf V c)) (arrV V c) (((cfg1.win 4).blk t).view.emb j 0)
        (((cfg1.win 4).blk t).view.emb j 1) (((cfg1.win 4).blk t).view.emb j 2) (((cfg1.win 4).blk t).view.emb j 3)
  rw [a0, a1, a2, a3]
  rw [← out_last V c hq hk hv hb t ⟨t.val / 48, by omega⟩ ⟨t.val / 4 % 12, by omega⟩ rfl rfl h3 ⟨(j 2).val, hj2⟩ ⟨(j 3).val, hj3⟩]
  exact congrArg (outsAt1 (F := Ideal) V c t.val t.isLt).1 ej

include hq hk hv hb in
/-- REGION 1'S OUTPUT ARRAY after the run: every (batch, head) block is written once, at its last key tile. -/
theorem final1 : (dat1 (F := Ideal) V c).arrAt 4 cfg1.N = fun i =>
      Cert.Spec.ctxAt
        (Cert.Spec.attnAt (fun b h qi kj =>
          (∑ d : Fin 64, arrQ V c b h qi d * arrK V c b h kj d) * Ideal.ofBits .f32 0x3E000000#32 + arrB V c b kj))
        (arrV V c) (i 0) (i 1) (i 2) (i 3) :=
  (dat1 (F := Ideal) V c).arrAt_eq_of_cover 4 (ctxArr V c) (fun t hf => flushed_eq1 V c hq hk hv hb t hf) fun i => by
    have h0 : (i 0).val < 2 := (i 0).isLt
    have h1 : (i 1).val < 12 := (i 1).isLt
    have h2 : (i 2).val < 2048 := (i 2).isLt
    have h3 : (i 3).val < 64 := (i 3).isLt
    have hN : cfg1.N = 96 := N_1
    let t : Fin cfg1.N := ⟨4 * (12 * (i 0).val + (i 1).val) + 3, by rw [hN]; omega⟩
    have ht : t.val = 4 * (12 * (i 0).val + (i 1).val) + 3 := rfl
    obtain ⟨e0, e1, e2, e3⟩ := idx_out t
    refine ⟨t, (flush1_4 t).mpr (by omega), ?_⟩
    show i ∈ ((View.whole main_v8).slice (win1_4.rect t)).set
    rw [View.set_slice_whole, Rect.mem_set_unit]
    intro a
    match a with
    | ⟨0, _⟩ => show win1_4.index t (0 : Fin 4) * 1 ≤ (i 0).val ∧ (i 0).val < win1_4.index t (0 : Fin 4) * 1 + 1; omega
    | ⟨1, _⟩ => show win1_4.index t (1 : Fin 4) * 1 ≤ (i 1).val ∧ (i 1).val < win1_4.index t (1 : Fin 4) * 1 + 1; omega
    | ⟨2, _⟩ => show win1_4.index t (2 : Fin 4) * 2048 ≤ (i 2).val ∧ (i 2).val < win1_4.index t (2 : Fin 4) * 2048 + 2048; omega
    | ⟨3, _⟩ => show win1_4.index t (3 : Fin 4) * 64 ≤ (i 3).val ∧ (i 3).val < win1_4.index t (3 : Fin 4) * 64 + 64; omega

end Cert.KernelIdeal.Val

end
-- ==== Proof.LibHeadSum.lean ====
/-
  A contraction over a flattened (head, coordinate) index, head by head.

  An index e < H * D is h * D + d for a unique head h < H and coordinate d < D. A sum over e is
  therefore the sum over h of the sums over d, and that is what an accumulator reaches that starts
  at zero and adds one head's partial sum per step. Everything is stated in a commutative additive
  monoid; the extended reals are one (their + is total, commutative and associative), so no
  finiteness assumption is needed there.
-/
import Mathlib.Algebra.BigOperators.Fin
import Mathlib.Data.EReal.Operations

open scoped BigOperators

namespace Cert.Proof.HeadSum

variable {M : Type*} [AddCommMonoid M]

/-- The flattened index h * D + d is below H * D. -/
theorem flat_lt {H D : ℕ} (h : Fin H) (d : Fin D) : h.val * D + d.val < H * D :=
  Nat.lt_of_lt_of_le (Nat.add_lt_add_left d.isLt _)
    (by rw [← Nat.succ_mul]; exact Nat.mul_le_mul_right _ h.isLt)

/-- The flattened index of (head, coordinate): h * D + d, as an index below E = H * D. -/
def flat {H D E : ℕ} (hE : E = H * D) (h : Fin H) (d : Fin D) : Fin E :=
  ⟨h.val * D + d.val, hE ▸ flat_lt h d⟩

/-- Its value. -/
@[simp] theorem flat_val {H D E : ℕ} (hE : E = H * D) (h : Fin H) (d : Fin D) :
    (flat hE h d).val = h.val * D + d.val := rfl

/-- A sum over the flattened index is the sum over heads of the sums over coordinates. -/
theorem sum_flat {H D E : ℕ} (hE : E = H * D) (f : Fin E → M) :
    ∑ e, f e = ∑ h : Fin H, ∑ d : Fin D, f (flat hE h d) := by
  subst hE
  rw [← Fintype.sum_prod_type' (fun h d => f (flat rfl h d)), ← Equiv.sum_comp finProdFinEquiv]
  refine Finset.sum_congr rfl fun p _ => congrArg f (Fin.ext ?_)
  rw [finProdFinEquiv_apply_val, flat_val, Nat.mul_comm, Nat.add_comm]

/-- The accumulator after the first k of H heads: from zero, one head's term added per step. -/
def headAcc {H : ℕ} (g : Fin H → M) : ℕ → M
  | 0 => 0
  | k + 1 => if hk : k < H then headAcc g k + g ⟨k, hk⟩ else headAcc g k

/-- After k ≤ H steps the accumulator holds the terms of the heads below k. -/
theorem headAcc_eq {H : ℕ} (g : Fin H → M) (k : ℕ) (hk : k ≤ H) :
    headAcc g k = ∑ h ∈ Finset.univ.filter (fun h : Fin H => h.val < k), g h := by
  induction k with
  | zero => simp [headAcc]
  | succ k ih =>
    have hk' : k < H := hk
    have hset : (Finset.univ.filter fun h : Fin H => h.val < k + 1)
        = insert ⟨k, hk'⟩ (Finset.univ.filter fun h : Fin H => h.val < k) := by
      ext h
      simp only [Finset.mem_filter, Finset.mem_univ, true_and, Finset.mem_insert, Fin.ext_iff]
      omega
    rw [headAcc, dif_pos hk', ih hk'.le, hset, Finset.sum_insert (by simp), add_comm]

/-- After all H steps the accumulator holds the sum over every head. -/
theorem headAcc_all {H : ℕ} (g : Fin H → M) : headAcc g H = ∑ h, g h := by
  rw [headAcc_eq g H le_rfl]
  exact Finset.sum_congr (Finset.filter_true_of_mem fun h _ => h.isLt) fun _ _ => rfl

/-- The same accumulation given step by step: the value after k steps, each step adding head k's term. -/
inductive HeadRun {H : ℕ} (g : Fin H → M) : ℕ → M → Prop
  | zero : HeadRun g 0 0
  | succ {k : ℕ} {acc acc' : M} (hk : k < H) :
      HeadRun g k acc → acc' = acc + g ⟨k, hk⟩ → HeadRun g (k + 1) acc'

/-- A run of k ≤ H steps ends at the accumulator function's value. -/
theorem HeadRun.eq_headAcc {H : ℕ} {g : Fin H → M} {k : ℕ} {acc : M} (h : HeadRun g k acc) :
    acc = headAcc g k := by
  induction h with
  | zero => rfl
  | succ hk _ hstep ih => rw [hstep, ih, headAcc, dif_pos hk]

/-- A run of all H steps ends at the sum over every head. -/
theorem HeadRun.eq_sum {H : ℕ} {g : Fin H → M} {acc : M} (h : HeadRun g H acc) : acc = ∑ x, g x := by
  rw [h.eq_headAcc, headAcc_all]

/-- The contraction over the flattened index equals the accumulation, from zero over the H heads, of
    the contractions over the coordinates of one head. -/
theorem contraction_eq_headAcc {H D E : ℕ} (hE : E = H * D) [Mul M] (x w : Fin E → M) :
    ∑ e, x e * w e = headAcc (fun h : Fin H => ∑ d : Fin D, x (flat hE h d) * w (flat hE h d)) H := by
  rw [headAcc_all, sum_flat hE]

/-- The same for a step-by-step run. -/
theorem HeadRun.eq_contraction {H D E : ℕ} (hE : E = H * D) [Mul M] (x w : Fin E → M) {acc : M}
    (h : HeadRun (fun h : Fin H => ∑ d : Fin D, x (flat hE h d) * w (flat hE h d)) H acc) :
    acc = ∑ e, x e * w e := by
  rw [h.eq_sum, sum_flat hE]

/-- On the extended reals: the contraction over e < H * D is the head-by-head accumulation. -/
theorem ereal_contraction_eq_headAcc {H D E : ℕ} (hE : E = H * D) (x w : Fin E → EReal) :
    ∑ e, x e * w e = headAcc (fun h : Fin H => ∑ d : Fin D, x (flat hE h d) * w (flat hE h d)) H :=
  contraction_eq_headAcc hE x w

end Cert.Proof.HeadSum
-- ==== Proof.KernelIdeal.Value2Pay.lean ====
/- Region 2 of the three-region attention layer (the output projection), the arithmetic of its control cases: what
   each case leaves in the carried scratch and in the output block is the payload of its covering store, a pure term
   of the blocks read (at any float instance); and over the extended reals each payload at an index is a sum: the
   cleared scratch is 0, the accumulating store adds to the scratch at (r, f) the contraction over the 64 coordinates
   of one head of the attention block's row r with the weight block's column f, and the output store adds the bias
   at f. -/
import proofs.«109941_j17609365914550_2_alg».proof.Proof.KernelIdeal.Region2
import proofs.«109941_j17609365914550_2_alg».proof.Proof.Spec
import proofs.«109941_j17609365914550_2_alg».proof.Proof.LibHeadSum
import Idealize.ShloMosaic.Lib.Pipeline.Value
import Idealize.ShloMosaic.Lib.Tactic
import Idealize.ShloMosaic.PureOps.Ideal.Laws

set_option maxRecDepth 16384

noncomputable section

namespace Cert.KernelIdeal.Val2

open Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open scoped BigOperators

variable {F : FTy → Type} [FloatOps F]

/-- The all-zero offsets of a rank-2, rank-3 and rank-4 rectangle, however they are spelt. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What each control case leaves, as the arithmetic of the blocks -/

/-- In the middle of a group of heads the scratch ends at: what it held, plus the product of the attention block with
    the weight block (its one covering store's payload; the loads read the whole buffers). -/
theorem sout2_B_eq (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : ¬cond2_1 i)
    (x0 : Vec F S1x1x512x64 .bf16) (x1 : Vec F S64x768 .bf16) (x2 : Vec F S1x768 .f32) (xs0 : Vec F S512x768 .f32) :
    sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  rw [View.canon_unit_zero hz2]
  simp only [View.readAt_eq_ld, harg3.read_unread, harg4.read_unread, harg7.read_unread,
    View.ld_unit_zero (S := S1x1x512x64) hz4, View.ld_unit_zero (S := S64x768) hz2, View.ld_unit_zero (S := S512x768) hz2]

/-- At the first head of a group the scratch is cleared first and read back whole, so it ends at the product added to
    the zero block. -/
theorem sout2_A_eq (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : cond2_0 i) (hc1 : ¬cond2_1 i)
    (x0 : Vec F S1x1x512x64 .bf16) (x1 : Vec F S64x768 .bf16) (x2 : Vec F S1x768 .f32) :
    sout2_A_0 c i arg3 harg3 arg4 harg4 arg5 harg5 arg6 harg6 arg7 harg7 hc0 hc1 x0 x1 x2 = k2_pay2 x0 x1 (k2_pay1 (F := F)) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S512x768) hz2, View.readCov_unit_zero (S := S512x768) _ hz2]
  simp only [View.readAt_eq_ld, harg3.read_unread, harg4.read_unread,
    View.ld_unit_zero (S := S1x1x512x64) hz4, View.ld_unit_zero (S := S64x768) hz2, View.ld_unit_zero (S := S512x768) hz2]

/-- At the last head of a group the scratch ends as in the middle, -/
theorem sout2_C_eq (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) :
    sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg3.read_unread, harg4.read_unread, harg7.read_unread,
    View.ld_unit_zero (S := S1x1x512x64) hz4, View.ld_unit_zero (S := S64x768) hz2, View.ld_unit_zero (S := S512x768) hz2]

/-- and the output block is that scratch plus the bias row, with a unit axis in front. -/
theorem out2_C_eq (c : Dev nD) (i : grid2.Coords) (arg3 : Memref sig .tc .vmem S1x1x512x64 .bf16) (harg3 : arg3.IsWhole) (arg4 : Memref sig .tc .vmem S64x768 .bf16) (harg4 : arg4.IsWhole) (arg5 : Memref sig .tc .vmem S1x768 .f32) (harg5 : arg5.IsWhole) (arg6 : Memref sig .tc .vmem S1x512x768 .f32) (harg6 : arg6.IsWhole) (arg7 : Memref sig .tc .vmem S512x768 .f32) (harg7 : arg7.IsWhole) (hc0 : ¬cond2_0 i) (hc1 : cond2_1 i)
    (x0 : Vec F S1x1x512x64 .bf16) (x1 : Vec F S64x768 .bf16) (x2 : Vec F S1x768 .f32) (xs0 : Vec F S512x768 .f32) :
    out2_C_3 c i arg3 harg3 arg4 harg4 arg5 harg5 arg6 harg6 arg7 harg7 hc0 hc1 x0 x1 x2 xs0 = k2_pay3 (k2_pay2 x0 x1 xs0) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero hz3, View.readCov_unit_zero (S := S512x768) _ hz2]
  simp only [View.readAt_eq_ld, harg3.read_unread, harg4.read_unread, harg5.read_unread, harg7.read_unread,
    View.ld_unit_zero (S := S1x1x512x64) hz4, View.ld_unit_zero (S := S64x768) hz2, View.ld_unit_zero (S := S512x768) hz2,
    View.ld_unit_zero (S := S1x768) hz2]

/-! ## The payloads at an index, over the extended reals -/

/-- The row coordinate of the left operand of the block product is the output's row, -/
theorem lhsIdx_row (j : S512x768.Idx) (q : dot_S512x64_S64x768_S512x768_1_0_0_1_n_n.contr.Idx) : (dot_S512x64_S64x768_S512x768_1_0_0_1_n_n.lhsIdx j q 0).val = (j 0).val := by
  unfold DotDims.lhsIdx
  rw [dif_neg (show ¬(0 : Fin S512x64.rank) ∈ dot_S512x64_S64x768_S512x768_1_0_0_1_n_n.lhsBatch by decide), dif_pos (show (0 : Fin S512x64.rank) ∈ dot_S512x64_S64x768_S512x768_1_0_0_1_n_n.lhsNonContracting by decide)]
  rfl
/-- its column the contraction position; -/
theorem lhsIdx_col (j : S512x768.Idx) (q : dot_S512x64_S64x768_S512x768_1_0_0_1_n_n.contr.Idx) : (dot_S512x64_S64x768_S512x768_1_0_0_1_n_n.lhsIdx j q 1).val = (q ⟨0, by decide⟩).val :=
  dot_S512x64_S64x768_S512x768_1_0_0_1_n_n.lhsIdx_val_of_single rfl j q
/-- the right operand's row is the contraction position, -/
theorem rhsIdx_row (j : S512x768.Idx) (q : dot_S512x64_S64x768_S512x768_1_0_0_1_n_n.contr.Idx) : (dot_S512x64_S64x768_S512x768_1_0_0_1_n_n.rhsIdx j q 0).val = (q ⟨0, by decide⟩).val :=
  dot_S512x64_S64x768_S512x768_1_0_0_1_n_n.rhsIdx_val_of_single rfl j q
/-- its column the output's column. -/
theorem rhsIdx_col (j : S512x768.Idx) (q : dot_S512x64_S64x768_S512x768_1_0_0_1_n_n.contr.Idx) : (dot_S512x64_S64x768_S512x768_1_0_0_1_n_n.rhsIdx j q 1).val = (j 1).val := by
  unfold DotDims.rhsIdx
  rw [dif_neg (show ¬(1 : Fin S64x768.rank) ∈ dot_S512x64_S64x768_S512x768_1_0_0_1_n_n.rhsBatch by decide), dif_pos (show (1 : Fin S64x768.rank) ∈ dot_S512x64_S64x768_S512x768_1_0_0_1_n_n.rhsNonContracting by decide)]
  rfl

/-- The clearing store's payload is zero everywhere. -/
theorem k2_pay1_apply (j : S512x768.Idx) : (k2_pay1 (F := Ideal) : S512x768.Idx → EReal) j = 0 := by
  unfold k2_pay1
  refine (congrFun (shapeCast_self _ _) j).trans ?_
  exact Ideal.ofBits_zero_f32

/-- The accumulating store's payload at row r, feature f: what the scratch held there plus the contraction, over the 64
    coordinates of the head, of the attention block's row r with the weight block's column f. -/
theorem k2_pay2_apply (a : Vec Ideal S1x1x512x64 .bf16) (w : Vec Ideal S64x768 .bf16) (acc : Vec Ideal S512x768 .f32)
    (r : Fin 512) (f : Fin 768) :
    (k2_pay2 a w acc : S512x768.Idx → EReal) (ix2 r f) = acc (ix2 r f) + ∑ d : Fin 64, a (ix4 0 0 r d) * w (ix2 d f) := by
  unfold k2_pay2
  refine (congrFun (shapeCast_self _ _) (ix2 r f)).trans ?_
  refine congrArg (fun z : EReal => acc (ix2 r f) + z) ?_
  refine (Ideal.matmul_constant_zero_apply dot_S512x64_S64x768_S512x768_1_0_0_1_n_n none _ _ (ix2 r f)).trans ?_
  rw [← Equiv.sum_comp (contrEquiv1 dot_S512x64_S64x768_S512x768_1_0_0_1_n_n 64 rfl rfl).symm]
  refine Finset.sum_congr rfl fun d _ => ?_
  have hd := contrEquiv1_symm_val dot_S512x64_S64x768_S512x768_1_0_0_1_n_n 64 rfl rfl d
  have el : dot_S512x64_S64x768_S512x768_1_0_0_1_n_n.lhsIdx (ix2 r f) ((contrEquiv1 dot_S512x64_S64x768_S512x768_1_0_0_1_n_n 64 rfl rfl).symm d) = (ix2 r d : S512x64.Idx) := funext fun x => Fin.ext (by
    match x with
    | ⟨0, _⟩ => exact lhsIdx_row _ _
    | ⟨1, _⟩ => exact (lhsIdx_col _ _).trans hd)
  have er : dot_S512x64_S64x768_S512x768_1_0_0_1_n_n.rhsIdx (ix2 r f) ((contrEquiv1 dot_S512x64_S64x768_S512x768_1_0_0_1_n_n 64 rfl rfl).symm d) = (ix2 d f : S64x768.Idx) := funext fun x => Fin.ext (by
    match x with
    | ⟨0, _⟩ => exact (rhsIdx_row _ _).trans hd
    | ⟨1, _⟩ => exact rhsIdx_col _ _)
  rw [el, er, shapeCast_self]
  refine congrArg (fun z : EReal => z * w (ix2 d f)) ?_
  refine shapeCast_apply a _ (ix2 r d : S512x64.Idx) (ix4 0 0 r d) ?_
  rw [Shape.rowMajor_val_four, Shape.rowMajor_val_two]
  show (((0 * 1 + 0) * 512 + r.val) * 64 + d.val) = r.val * 64 + d.val
  omega

/-- The output store's payload at (0, r, f): the scratch at (r, f) plus the bias at f. -/
theorem k2_pay3_apply (acc : Vec Ideal S512x768 .f32) (bias : Vec Ideal S1x768 .f32) (r : Fin 512) (f : Fin 768) :
    (k2_pay3 acc bias : S1x512x768.Idx → EReal) (ix3 0 r f) = acc (ix2 r f) + bias (ix2 0 f) := by
  unfold k2_pay3
  refine (shapeCast_apply _ _ (ix3 0 r f : S1x512x768.Idx) (ix2 r f : S512x768.Idx) ?_).trans ?_
  · rw [Shape.rowMajor_val_three, Shape.rowMajor_val_two]
    show r.val * 768 + f.val = ((0 * 512 + r.val) * 768 + f.val)
    omega
  refine congrArg (fun z : EReal => acc (ix2 r f) + z) ?_
  refine (broadcastTo_apply _ broadcasts_S1x768_S512x768 (ix2 r f : S512x768.Idx) (ix2 0 f : S1x768.Idx) ?_).trans ?_
  · intro x
    match x with
    | ⟨0, _⟩ => show (0 : Nat) = if (1 : Nat) = 1 then 0 else _; rw [if_pos rfl]
    | ⟨1, _⟩ => show f.val = if (768 : Nat) = 1 then 0 else f.val; rw [if_neg (by decide)]
  exact congrFun (shapeCast_self _ _) _

end Cert.KernelIdeal.Val2

end
-- ==== Proof.KernelIdeal.Value2.lean ====
/- Region 2 of the three-region attention layer (the output projection), its value over the extended reals: the
   output array after the region's 96 points, index by index, as a function of the three arrays the region reads.

   The grid is (batch 2) × (row block 4, of 512 rows) × (head 12); point t has batch t / 48, row block t / 12 % 4 and
   head t % 12. At each point the product of the attention output's block [512, 64] of that head with the weight's
   block [64, 768] of that head's rows is added to a carried scratch [512, 768], cleared at head 0; at head 11 the
   scratch plus the bias row is stored into the output block [1, 512, 768], which is written back there. So after the
   point with head k the scratch holds the accumulation of the terms of heads 0 … k (by induction on the point, the
   case equations of the accumulation giving each step), at head 11 it holds the sum over the 12 heads of the sums over
   the 64 coordinates, which is the sum over the 768 = 12 · 64 model features, and the blocks written back at the
   points with head 11 tile the output array. No finiteness is used: only that the extended reals are a commutative
   additive monoid. -/
import proofs.«109941_j17609365914550_2_alg».proof.Proof.KernelIdeal.Value2Pay

set_option maxRecDepth 16384

noncomputable section

namespace Cert.KernelIdeal.Val2

open Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open scoped BigOperators

open Cert.Proof.HeadSum

variable (V : (c : Dev nD) → (b : Ref sig .tc) → Buf (Elt Ideal) ((c : Thread nD τ).loc b)) (c : Dev nD)

/-! ## The index maps over the 96 points -/

/-- The attention output's block at point t is (t / 48, t % 12, t / 12 % 4, 0): batch, head, row block. -/
theorem idx2_0 : ∀ t : Fin cfg2.N, win2_0.index t (0 : Fin 4) = t.val / 48 ∧ win2_0.index t (1 : Fin 4) = t.val % 12
    ∧ win2_0.index t (2 : Fin 4) = t.val / 12 % 4 ∧ win2_0.index t (3 : Fin 4) = 0 :=
  (by decide +kernel : ∀ t : Fin grid2.N, _)
/-- The weight's block is (t % 12, 0): the 64 rows of the head. -/
theorem idx2_1 : ∀ t : Fin cfg2.N, win2_1.index t (0 : Fin 2) = t.val % 12 ∧ win2_1.index t (1 : Fin 2) = 0 :=
  (by decide +kernel : ∀ t : Fin grid2.N, _)
/-- The bias row's block is the whole row. -/
theorem idx2_2 : ∀ t : Fin cfg2.N, win2_2.index t (0 : Fin 2) = 0 ∧ win2_2.index t (1 : Fin 2) = 0 :=
  (by decide +kernel : ∀ t : Fin grid2.N, _)
/-- The output's block is (t / 48, t / 12 % 4, 0): batch, row block. -/
theorem idx2_3 : ∀ t : Fin cfg2.N, win2_3.index t (0 : Fin 3) = t.val / 48 ∧ win2_3.index t (1 : Fin 3) = t.val / 12 % 4
    ∧ win2_3.index t (2 : Fin 3) = 0 :=
  (by decide +kernel : ∀ t : Fin grid2.N, _)

/-! ## The blocks read off the arrays -/

/-- The attention block at point t, at row r and coordinate d, is the array at (batch, head, 512 · block + r, d). -/
theorem iblk2_0_apply (t : Fin cfg2.N) (r : Fin 512) (d : Fin 64) (b : Fin 2) (h : Fin 12) (s : Fin 2048)
    (hb : b.val = t.val / 48) (hh : h.val = t.val % 12) (hs : s.val = t.val / 12 % 4 * 512 + r.val) :
    (iblk2 V c 0 t : Vec Ideal S1x1x512x64 .bf16) (ix4 0 0 r d) = V c (Pipeline.arrRef spec2 0) (ix4 b h s d) := by
  obtain ⟨e0, e1, e2, e3⟩ := idx2_0 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 4) * 1 + 1 * 0 = b.val; omega
  | ⟨1, _⟩ => show win2_0.index t (1 : Fin 4) * 1 + 1 * 0 = h.val; omega
  | ⟨2, _⟩ => show win2_0.index t (2 : Fin 4) * 512 + 1 * r.val = s.val; omega
  | ⟨3, _⟩ => show win2_0.index t (3 : Fin 4) * 64 + 1 * d.val = d.val; omega

/-- The weight block at point t, at row d and column f, is the array at (64 · head + d, f). -/
theorem iblk2_1_apply (t : Fin cfg2.N) (d : Fin 64) (f : Fin 768) (e : Fin 768) (he : e.val = t.val % 12 * 64 + d.val) :
    (iblk2 V c 1 t : Vec Ideal S64x768 .bf16) (ix2 d f) = V c (Pipeline.arrRef spec2 1) (ix2 e f) := by
  obtain ⟨e0, e1⟩ := idx2_1 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 64 + 1 * d.val = e.val; omega
  | ⟨1, _⟩ => show win2_1.index t (1 : Fin 2) * 768 + 1 * f.val = f.val; omega

/-- The bias block is the bias row. -/
theorem iblk2_2_apply (t : Fin cfg2.N) (f : Fin 768) :
    (iblk2 V c 2 t : Vec Ideal S1x768 .f32) (ix2 0 f) = V c (Pipeline.arrRef spec2 2) (ix2 0 f) := by
  obtain ⟨e0, e1⟩ := idx2_2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; omega
  | ⟨1, _⟩ => show win2_2.index t (1 : Fin 2) * 768 + 1 * f.val = f.val; omega

/-! ## The three arrays by coordinates, and one head's term -/

/-- The attention output by (batch, head, row, coordinate), -/
abbrev ctx2 : Fin 2 → Fin 12 → Fin 2048 → Fin 64 → EReal := fun b h s d => V c (Pipeline.arrRef spec2 0) (ix4 b h s d)
/-- the weight by (output feature, model feature): the array holds it transposed, -/
abbrev wgt2 : Fin 768 → Fin 768 → EReal := fun f e => V c (Pipeline.arrRef spec2 1) (ix2 e f)
/-- and the bias by output feature. -/
abbrev bias2 : Fin 768 → EReal := fun f => V c (Pipeline.arrRef spec2 2) (ix2 0 f)

/-- The model width is 12 heads of 64 coordinates. -/
theorem h768 : 768 = 12 * 64 := rfl

/-- Head h's term of the output at (b, s, f): the contraction over the head's 64 coordinates. -/
def headTerm (b : Fin 2) (s : Fin 2048) (f : Fin 768) (h : Fin 12) : EReal :=
  ∑ d : Fin 64, ctx2 V c b h s d * wgt2 V c f (flat h768 h d)

/-- The product of a point's two blocks at (r, f) is the term of the point's head. -/
theorem block_product (t : Fin cfg2.N) (r : Fin 512) (f : Fin 768) (b : Fin 2) (h : Fin 12) (s : Fin 2048)
    (hb : b.val = t.val / 48) (hh : h.val = t.val % 12) (hs : s.val = t.val / 12 % 4 * 512 + r.val)
    (a : Vec Ideal S1x1x512x64 .bf16) (w : Vec Ideal S64x768 .bf16) (ha : a = iblk2 V c 0 t) (hw : w = iblk2 V c 1 t) :
    ∑ d : Fin 64, a (ix4 0 0 r d) * w (ix2 d f) = headTerm V c b s f h := by
  subst ha hw
  unfold headTerm
  refine Finset.sum_congr rfl fun d _ => ?_
  exact congrArg₂ (fun x y : EReal => x * y) (iblk2_0_apply V c t r d b h s hb hh hs)
    (iblk2_1_apply V c t d f (flat h768 h d) (by rw [flat_val, hh]))

/-! ## One point's step -/

/-- At the first head of a group the scratch ends, at (r, f), at zero plus the head's term. -/
theorem scratch_first (t : Fin cfg2.N) (h0 : t.val % 12 = 0) (h1 : ¬t.val % 12 = 11) (r : Fin 512) (f : Fin 768)
    (b : Fin 2) (h : Fin 12) (s : Fin 2048)
    (hb : b.val = t.val / 48) (hh : h.val = t.val % 12) (hs : s.val = t.val / 12 % 4 * 512 + r.val) :
    ((outsAt2 V c t.val t.isLt).2 : S512x768.Idx → EReal) (ix2 r f) = 0 + headTerm V c b s f h := by
  rw [outsAt2_A V c t h0 h1]
  dsimp only
  refine (congrFun (sout2_A_eq (F := Ideal) c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) (ix2 r f)).trans ?_
  refine (k2_pay2_apply (iblk2 V c 0 t) (iblk2 V c 1 t) (k2_pay1 (F := Ideal)) r f).trans ?_
  exact congrArg₂ (fun x y : EReal => x + y) (k2_pay1_apply (ix2 r f))
    (block_product V c t r f b h s hb hh hs (iblk2 V c 0 t) (iblk2 V c 1 t) rfl rfl)

/-- At a later head the scratch ends at what the point before left plus the head's term: in the middle of a group, -/
theorem scratch_middle (t : Fin cfg2.N) (h0 : ¬t.val % 12 = 0) (h1 : ¬t.val % 12 = 11) (r : Fin 512) (f : Fin 768)
    (b : Fin 2) (h : Fin 12) (s : Fin 2048)
    (hb : b.val = t.val / 48) (hh : h.val = t.val % 12) (hs : s.val = t.val / 12 % 4 * 512 + r.val) :
    ((outsAt2 V c t.val t.isLt).2 : S512x768.Idx → EReal) (ix2 r f)
      = ((outsAt2 V c (t.val - 1) (Nat.lt_of_le_of_lt (Nat.sub_le _ _) t.isLt)).2 : S512x768.Idx → EReal) (ix2 r f) + headTerm V c b s f h := by
  rw [outsAt2_B V c t h0 h1]
  dsimp only
  refine (congrFun (sout2_B_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) (ix2 r f)).trans ?_
  refine (k2_pay2_apply (iblk2 V c 0 t) (iblk2 V c 1 t) (outsAt2 V c (t.val - 1) (Nat.lt_of_le_of_lt (Nat.sub_le _ _) t.isLt)).2 r f).trans ?_
  exact congrArg (fun y : EReal => ((outsAt2 V c (t.val - 1) (Nat.lt_of_le_of_lt (Nat.sub_le _ _) t.isLt)).2 : S512x768.Idx → EReal) (ix2 r f) + y)
    (block_product V c t r f b h s hb hh hs (iblk2 V c 0 t) (iblk2 V c 1 t) rfl rfl)

/-- and at its last head, -/
theorem scratch_last (t : Fin cfg2.N) (h0 : ¬t.val % 12 = 0) (h1 : t.val % 12 = 11) (r : Fin 512) (f : Fin 768)
    (b : Fin 2) (h : Fin 12) (s : Fin 2048)
    (hb : b.val = t.val / 48) (hh : h.val = t.val % 12) (hs : s.val = t.val / 12 % 4 * 512 + r.val) :
    ((outsAt2 V c t.val t.isLt).2 : S512x768.Idx → EReal) (ix2 r f)
      = ((outsAt2 V c (t.val - 1) (Nat.lt_of_le_of_lt (Nat.sub_le _ _) t.isLt)).2 : S512x768.Idx → EReal) (ix2 r f) + headTerm V c b s f h := by
  rw [outsAt2_C V c t h0 h1]
  dsimp only
  refine (congrFun (sout2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 r f)).trans ?_
  refine (k2_pay2_apply (iblk2 V c 0 t) (iblk2 V c 1 t) (outsAt2 V c (t.val - 1) (Nat.lt_of_le_of_lt (Nat.sub_le _ _) t.isLt)).2 r f).trans ?_
  exact congrArg (fun y : EReal => ((outsAt2 V c (t.val - 1) (Nat.lt_of_le_of_lt (Nat.sub_le _ _) t.isLt)).2 : S512x768.Idx → EReal) (ix2 r f) + y)
    (block_product V c t r f b h s hb hh hs (iblk2 V c 0 t) (iblk2 V c 1 t) rfl rfl)

/-- where the output block is that scratch plus the bias. -/
theorem out_last (t : Fin cfg2.N) (h0 : ¬t.val % 12 = 0) (h1 : t.val % 12 = 11) (r : Fin 512) (f : Fin 768) :
    ((outsAt2 V c t.val t.isLt).1 : S1x512x768.Idx → EReal) (ix3 0 r f)
      = ((outsAt2 V c t.val t.isLt).2 : S512x768.Idx → EReal) (ix2 r f) + bias2 V c f := by
  rw [outsAt2_C V c t h0 h1]
  dsimp only
  refine (congrFun (out2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix3 0 r f)).trans ?_
  refine (k2_pay3_apply _ (iblk2 V c 2 t) r f).trans ?_
  refine congrArg₂ (fun x y : EReal => x + y) ?_ (iblk2_2_apply V c t f)
  exact (congrFun (sout2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 r f)).symm

/-! ## The scratch between points -/

/-- One more head: the accumulation up to k + 1 is the accumulation up to k plus head k's term. -/
theorem headAcc_step (g : Fin 12 → EReal) (k : ℕ) (hk : k < 12) : headAcc g (k + 1) = headAcc g k + g ⟨k, hk⟩ := by
  rw [headAcc, dif_pos hk]

/-- After the point at position n — head n % 12 of its group of 12 — the scratch holds, at (r, f), the accumulation of
    the terms of the heads 0, …, n % 12 of the output at (n / 48, 512 · (n / 12 % 4) + r, f). -/
theorem scratch_eq : ∀ (n : ℕ) (hn : n < cfg2.N) (r : Fin 512) (f : Fin 768) (b : Fin 2) (s : Fin 2048),
    b.val = n / 48 → s.val = n / 12 % 4 * 512 + r.val →
    ((outsAt2 V c n hn).2 : S512x768.Idx → EReal) (ix2 r f) = headAcc (headTerm V c b s f) (n % 12 + 1)
  | 0, hn, r, f, b, s, hb, hs => by
    refine (scratch_first V c ⟨0, hn⟩ rfl (by show ¬(0 % 12 = 11); decide) r f b ⟨0, by decide⟩ s hb rfl hs).trans ?_
    exact (headAcc_step (headTerm V c b s f) 0 (by decide)).symm
  | n + 1, hn, r, f, b, s, hb, hs => by
    have hN : n + 1 < 96 := lt_of_lt_of_eq hn (show cfg2.N = 96 from N_2)
    have hk : (n + 1) % 12 < 12 := Nat.mod_lt _ (by decide)
    by_cases h0 : (n + 1) % 12 = 0
    · refine (scratch_first V c ⟨n + 1, hn⟩ h0 (by dsimp only; omega) r f b ⟨(n + 1) % 12, hk⟩ s hb rfl hs).trans ?_
      refine Eq.trans ?_ (headAcc_step (headTerm V c b s f) ((n + 1) % 12) hk).symm
      refine congrArg (fun z : EReal => z + headTerm V c b s f ⟨(n + 1) % 12, hk⟩) ?_
      rw [h0]; rfl
    · have ih := scratch_eq n (Nat.lt_of_succ_lt hn) r f b s (by omega) (by omega)
      have step : ((outsAt2 V c (n + 1) hn).2 : S512x768.Idx → EReal) (ix2 r f)
          = ((outsAt2 V c n (Nat.lt_of_succ_lt hn)).2 : S512x768.Idx → EReal) (ix2 r f) + headTerm V c b s f ⟨(n + 1) % 12, hk⟩ := by
        by_cases h1 : (n + 1) % 12 = 11
        · exact scratch_last V c ⟨n + 1, hn⟩ h0 h1 r f b ⟨(n + 1) % 12, hk⟩ s hb rfl hs
        · exact scratch_middle V c ⟨n + 1, hn⟩ h0 h1 r f b ⟨(n + 1) % 12, hk⟩ s hb rfl hs
      refine step.trans ?_
      refine Eq.trans ?_ (headAcc_step (headTerm V c b s f) ((n + 1) % 12) hk).symm
      refine congrArg (fun z : EReal => z + headTerm V c b s f ⟨(n + 1) % 12, hk⟩) ?_
      exact ih.trans (congrArg (headAcc (headTerm V c b s f)) (by omega))

/-! ## The output by coordinates -/

/-- The head and the coordinate of the flattened index 64 · h + d. -/
theorem headOf_flat (h : Fin 12) (d : Fin 64) : Cert.Spec.headOf (flat h768 h d) = h :=
  Fin.ext (by show (h.val * 64 + d.val) / 64 = h.val; have := d.isLt; omega)
theorem dimOf_flat (h : Fin 12) (d : Fin 64) : Cert.Spec.dimOf (flat h768 h d) = d :=
  Fin.ext (by show (h.val * 64 + d.val) % 64 = d.val; have := d.isLt; omega)

/-- The output projection at (b, s, f) is the accumulation over all 12 heads of their terms, plus the bias. -/
theorem outAt_eq_headAcc (b : Fin 2) (s : Fin 2048) (f : Fin 768) :
    Cert.Spec.outAt (ctx2 V c) (wgt2 V c) (bias2 V c) b s f = headAcc (headTerm V c b s f) 12 + bias2 V c f := by
  unfold Cert.Spec.outAt
  refine congrArg (fun z : EReal => z + bias2 V c f) ?_
  rw [sum_flat h768, headAcc_all]
  refine Finset.sum_congr rfl fun h _ => ?_
  unfold headTerm
  refine Finset.sum_congr rfl fun d _ => ?_
  rw [headOf_flat, dimOf_flat]

/-- The function of the three arrays the output array ends at. -/
abbrev G2 : S2x2048x768.Idx → EReal := fun i => Cert.Spec.outAt (ctx2 V c) (wgt2 V c) (bias2 V c) (i 0) (i 1) (i 2)

/-- At the last head of a group the output block at (0, r, f) is that function at (batch, 512 · block + r, f). -/
theorem out_point (t : Fin cfg2.N) (h11 : t.val % 12 = 11) (r : Fin 512) (f : Fin 768) (b : Fin 2) (s : Fin 2048)
    (hb : b.val = t.val / 48) (hs : s.val = t.val / 12 % 4 * 512 + r.val) :
    ((outsAt2 V c t.val t.isLt).1 : S1x512x768.Idx → EReal) (ix3 0 r f)
      = Cert.Spec.outAt (ctx2 V c) (wgt2 V c) (bias2 V c) b s f := by
  have h0 : ¬t.val % 12 = 0 := by omega
  refine (out_last V c t h0 h11 r f).trans ?_
  rw [outAt_eq_headAcc]
  refine congrArg (fun z : EReal => z + bias2 V c f) ?_
  refine (scratch_eq V c t.val t.isLt r f b s hb hs).trans ?_
  rw [h11]

/-! ## From the blocks to the array -/

/-- What a point at the last head of a group writes back is its block of that function. -/
theorem flushed2_eq (t : Fin cfg2.N) (hf : (cfg2.win 3).flush t = true) :
    (dat2 (F := Ideal) V c).flushed 3 t = ((cfg2.win 3).blk t).view.read (Elt Ideal) (G2 V c) := by
  have h11 : t.val % 12 = 11 := (flush2_3 t).mp hf
  obtain ⟨e0, e1, e2⟩ := idx2_3 t
  show (cfg2.win 3).cut (grid2.coords t) ((dat2 V c).after 3 t) = _
  rw [after2_3]
  funext j
  rw [View.read_apply]
  have hj : (cfg2.win 3).xinj (grid2.coords t) j
      = (ix3 0 ⟨(j 1).val, (j 1).isLt⟩ ⟨(j 2).val, (j 2).isLt⟩ : S1x512x768.Idx) := funext fun a => Fin.ext (by
    match a with
    | ⟨0, _⟩ => show (j 0).val = 0; have : (j 0).val < 1 := (j 0).isLt; omega
    | ⟨1, _⟩ => rfl
    | ⟨2, _⟩ => rfl)
  show ((outsAt2 V c t.val t.isLt).1 : S1x512x768.Idx → EReal) ((cfg2.win 3).xinj (grid2.coords t) j)
    = Cert.Spec.outAt (ctx2 V c) (wgt2 V c) (bias2 V c) ((((cfg2.win 3).blk t).view.emb j) 0)
        ((((cfg2.win 3).blk t).view.emb j) 1) ((((cfg2.win 3).blk t).view.emb j) 2)
  rw [hj]
  have hf2 : (((cfg2.win 3).blk t).view.emb j) 2 = (⟨(j 2).val, (j 2).isLt⟩ : Fin 768) :=
    Fin.ext (by show win2_3.index t (2 : Fin 3) * 768 + 1 * (j 2).val = (j 2).val; omega)
  rw [hf2]
  refine out_point V c t h11 ⟨(j 1).val, (j 1).isLt⟩ ⟨(j 2).val, (j 2).isLt⟩ _ _ ?_ ?_
  · show win2_3.index t (0 : Fin 3) * 1 + 1 * (j 0).val = t.val / 48
    have : (j 0).val < 1 := (j 0).isLt
    omega
  · show win2_3.index t (1 : Fin 3) * 512 + 1 * (j 1).val = t.val / 12 % 4 * 512 + (j 1).val
    omega

/-- An index of the output array is in point t's block iff each coordinate is in the block's range on its axis. -/
theorem mem_blk2_3 (t : Fin cfg2.N) (i : S2x2048x768.Idx) :
    i ∈ ((cfg2.win 3).blk t).view.set ↔ ∀ a : Fin 3, win2_3.index t a * S1x512x768.size a ≤ (i a).val ∧ (i a).val < win2_3.index t a * S1x512x768.size a + S1x512x768.size a := by
  show i ∈ ((View.whole main_v12).slice (win2_3.rect t)).set ↔ _
  rw [View.set_slice_whole, Rect.mem_set_unit]
  exact Iff.rfl

/-- Every index (b, s, f) of the output array is in the block of the point (4 · b + s / 512) · 12 + 11, the last head of
    its group, which writes its block back. -/
theorem cover2_3 (i : S2x2048x768.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 768 := (i 2).isLt
  have hN : cfg2.N = 96 := N_2
  refine ⟨⟨((i 0).val * 4 + (i 1).val / 512) * 12 + 11, by rw [hN]; omega⟩, ?_, ?_⟩
  · exact (flush2_3 _).mpr (by dsimp only; omega)
  · obtain ⟨e0, e1, e2⟩ := idx2_3 ⟨((i 0).val * 4 + (i 1).val / 512) * 12 + 11, by rw [hN]; omega⟩
    dsimp only at e0 e1 e2
    rw [mem_blk2_3]
    intro a
    match a with
    | ⟨0, _⟩ =>
      show win2_3.index _ (0 : Fin 3) * 1 ≤ (i 0).val ∧ (i 0).val < win2_3.index _ (0 : Fin 3) * 1 + 1
      rw [e0]; omega
    | ⟨1, _⟩ =>
      show win2_3.index _ (1 : Fin 3) * 512 ≤ (i 1).val ∧ (i 1).val < win2_3.index _ (1 : Fin 3) * 512 + 512
      rw [e1]; omega
    | ⟨2, _⟩ =>
      show win2_3.index _ (2 : Fin 3) * 768 ≤ (i 2).val ∧ (i 2).val < win2_3.index _ (2 : Fin 3) * 768 + 768
      rw [e2]; omega

/-! ## The output array after the region -/

/-- After the 96 points the output array holds, at (b, s, f), the contraction over the 768 model features e of the
    attention output at (b, e / 64, s, e % 64) with the weight at (e, f), plus the bias at f. -/
theorem final2 :
    ((Cert.KernelIdeal.Fr.dat2 (F := Ideal) V c).arrAt 3 cfg2.N : S2x2048x768.Idx → EReal) = fun i =>
      Cert.Spec.outAt (fun b h s d => V c (Pipeline.arrRef spec2 0) (ix4 b h s d))
        (fun f e => V c (Pipeline.arrRef spec2 1) (ix2 e f))
        (fun f => V c (Pipeline.arrRef spec2 2) (ix2 0 f)) (i 0) (i 1) (i 2) :=
  (dat2 (F := Ideal) V c).arrAt_eq_of_cover 3 (G2 V c) (flushed2_eq V c) (cover2_3)

end Cert.KernelIdeal.Val2

end
-- ==== Proof.FiniteInputs.lean ====
/-
  From the precondition to real entries. The precondition is the conjunction, over the five float
  arrays, of "every entry x satisfies |x| < +∞". On the extended reals |x| is max x (-x), and
  max x (-x) < ⊤ holds exactly when x is neither ⊤ nor ⊥, that is, when x is a real number.
-/
import proofs.«109941_j17609365914550_2_alg».proof.Pre_finite_inputs
import Idealize.ShloMosaic.Lib.ReduceAll
import Idealize.ShloMosaic.PureOps.Ideal.Laws
import Idealize.ShloMosaic.Lib.IdealHost

open Idealize.ShloMosaic

namespace Cert.Proof.FiniteInputs

/-- The rank-zero shape has one index. -/
instance : Subsingleton Cert.Pre_finite_inputs.S_.Idx := ⟨fun a b => funext fun d => d.elim0⟩

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The element fact: the comparison |x| < +∞ at the extended reals, against the f32 pattern of +∞
    broadcast from a rank-zero constant, answers 1 only at a real number. -/
theorem real_of_cmp {s : Shape} (x : FVec Ideal s .f32) (c : FVec Ideal s .f32)
    (hc : ∀ i, c i = Ideal.ofBits .f32 0x7F800000#32) (i : s.Idx)
    (h : cmpf .olt (Host.absf x) c i = 1#1) : ∃ r : ℝ, x i = (r : EReal) := by
  have htop : Ideal.ofBits .f32 0x7F800000#32 = ⊤ := by simp [Ideal.ofBits, Ideal.ieee]
  have h' : Ideal.cmp .olt (max (x i) (-(x i))) (c i) = 1#1 := h
  rw [hc i, htop] at h'
  refine real_of_abs_lt_top (x i) ?_
  by_contra hn
  simp [Ideal.cmp, hn] at h'

open Cert.Pre_finite_inputs in
/-- The precondition at the extended reals gives a real number at every entry of each of the five
    float arrays. -/
theorem reals_of_pre [Cert.Pre_finite_inputs.Facts]
    (x0 : FVec Ideal S2x2048x768 .f32) (x1 : IVec S2x2048 32) (x2 : FVec Ideal S2304x768 .f32)
    (x3 : FVec Ideal S2304 .f32) (x4 : FVec Ideal S768x768 .f32) (x5 : FVec Ideal S768 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal))
      ∧ (∀ i, ∃ r : ℝ, x3 i = (r : EReal)) ∧ (∀ i, ∃ r : ℝ, x4 i = (r : EReal))
      ∧ (∀ i, ∃ r : ℝ, x5 i = (r : EReal)) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  have hc : ∀ {T : Shape} (hb : S_.BroadcastsInDim T (![] : Fin 0 → Fin T.rank)) (i : T.Idx),
      broadcastInDim T ![] hb (constant (F := Ideal) S_ .f32 0x7F800000#32) i = Ideal.ofBits .f32 0x7F800000#32 :=
    fun hb i => ValueIdx.broadcastInDim_scalar_apply hb _ i
  refine ⟨fun i => ?_, fun i => ?_, fun i => ?_, fun i => ?_, fun i => ?_⟩
  · exact real_of_cmp x0 _ (hc _) i (Host.reduce_andi_all _ _ _ _ _ e0 i)
  · exact real_of_cmp x2 _ (hc _) i (Host.reduce_andi_all _ _ _ _ _ e2 i)
  · exact real_of_cmp x3 _ (hc _) i (Host.reduce_andi_all _ _ _ _ _ e3 i)
  · exact real_of_cmp x4 _ (hc _) i (Host.reduce_andi_all _ _ _ _ _ e4 i)
  · exact real_of_cmp x5 _ (hc _) i (Host.reduce_andi_all _ _ _ _ _ e5 i)

end Cert.Proof.FiniteInputs
-- ==== Proof.KernelIdeal.Result.lean ====
/-
  The idealized kernel computes the specification.

  The three regions compose: region 0 leaves, head by head, the query, key and value parts of the fused
  projection of the launch arrays (the weight enters transposed, the bias with a unit axis); region 1 reads them
  together with the additive key bias (the mask converted exactly, times the most negative finite f32) and leaves
  the softmax-weighted sum of the values; region 2 reads that with the transposed output weight and the output
  bias and leaves the output projection. Region 1's value is the softmax only where its inputs are real numbers:
  under the precondition every entry of the five float arguments is real, hence so is every entry of q, k, v
  (finite sums of products of reals plus a real) and of the key bias (an integer times a finite constant).
  The composite is `Cert.Spec.G` of the six launch arrays, which the run's last contents of the result buffer
  therefore equal.
-/
import proofs.«109941_j17609365914550_2_alg».proof.Proof.KernelIdeal.HostReads
import proofs.«109941_j17609365914550_2_alg».proof.Proof.KernelIdeal.Value0
import proofs.«109941_j17609365914550_2_alg».proof.Proof.KernelIdeal.Value1Cover
import proofs.«109941_j17609365914550_2_alg».proof.Proof.KernelIdeal.Value2
import proofs.«109941_j17609365914550_2_alg».proof.Proof.Spec
import proofs.«109941_j17609365914550_2_alg».proof.Proof.FiniteInputs
import proofs.«109941_j17609365914550_2_alg».proof.Proof.LibSoftmaxTiles

set_option maxRecDepth 16384

noncomputable section

namespace Cert.KernelIdeal.Res

open Cert.KernelIdeal Cert.KernelIdeal.Gen Cert.KernelIdeal.Fr Cert.KernelIdeal.Val Cert.KernelIdeal.Val0 Cert.KernelIdeal.Val2
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg) (c : Dev nD)

/-- The launch memory's six argument arrays by coordinates. -/
abbrev cX : Fin 2 → Fin 2048 → Fin 768 → EReal := fun b s e => (m ((c : Thread nD τ).loc main_arg0) : S2x2048x768.Idx → EReal) (ix3 b s e)
abbrev cM : Fin 2 → Fin 2048 → EReal := fun b j => FloatOps.sitofp (F := Ideal) .f32 ((m ((c : Thread nD τ).loc main_arg1) : S2x2048.Idx → BitVec 32) (ix2 b j))
abbrev cW : Fin 2304 → Fin 768 → EReal := fun f e => (m ((c : Thread nD τ).loc main_arg2) : S2304x768.Idx → EReal) (ix2 f e)
abbrev cB : Fin 2304 → EReal := fun f => (m ((c : Thread nD τ).loc main_arg3) : S2304.Idx → EReal) (ix1 f)
abbrev cWp : Fin 768 → Fin 768 → EReal := fun f e => (m ((c : Thread nD τ).loc main_arg4) : S768x768.Idx → EReal) (ix2 f e)
abbrev cBp : Fin 768 → EReal := fun f => (m ((c : Thread nD τ).loc main_arg5) : S768.Idx → EReal) (ix1 f)

/-- Region 0's three input arrays by coordinates are the launch memory's. -/
theorem in0_x : (fun b s e => (V1 m ρ c (Pipeline.arrRef spec0 0) : S2x2048x768.Idx → EReal) (ix3 b s e)) = cX m c :=
  funext fun b => funext fun s => funext fun e => congrFun (entry0_x m ρ c) (ix3 b s e)
theorem in0_w : (fun f e => (V1 m ρ c (Pipeline.arrRef spec0 1) : S768x2304.Idx → EReal) (ix2 e f)) = cW m c :=
  funext fun f => funext fun e => entry0_w m ρ c e f
theorem in0_b : (fun f => (V1 m ρ c (Pipeline.arrRef spec0 2) : S1x2304.Idx → EReal) (ix2 0 f)) = cB m c :=
  funext fun f => entry0_b m ρ c f

/-- The query array region 1 reads is head by head the query part of the fused projection. -/
theorem q_eq : arrQ (V3 m ρ) c = Cert.Spec.headAt 0 (cX m c) (cW m c) (cB m c) := by
  funext b h s d
  show (V3 m ρ c main_v3_0 : S2x12x2048x64.Idx → EReal) (ix4 b h s d) = _
  rw [entry1_q, final0_3 (V1 m ρ) c, in0_x, in0_w, in0_b]
  rfl
theorem k_eq : arrK (V3 m ρ) c = Cert.Spec.headAt 1 (cX m c) (cW m c) (cB m c) := by
  funext b h s d
  show (V3 m ρ c main_v3_1 : S2x12x2048x64.Idx → EReal) (ix4 b h s d) = _
  rw [entry1_k, final0_4 (V1 m ρ) c, in0_x, in0_w, in0_b]
  rfl
theorem v_eq : arrV (V3 m ρ) c = Cert.Spec.headAt 2 (cX m c) (cW m c) (cB m c) := by
  funext b h s d
  show (V3 m ρ c main_v3_2 : S2x12x2048x64.Idx → EReal) (ix4 b h s d) = _
  rw [entry1_v, final0_5 (V1 m ρ) c, in0_x, in0_w, in0_b]
  rfl
theorem b_eq : arrB (V3 m ρ) c = fun b j => cM m c b j * Ideal.ofBits .f32 0xFF7FFFFF#32 := by
  funext b j
  exact entry1_kb m ρ c b j

/-! ### Finiteness: under real arguments every entry of q, k, v and of the key bias is a real -/

/-- A sum of products of reals plus a real is a real. -/
theorem real_affine {n : ℕ} (x w : Fin n → EReal) (b : EReal) (hx : ∀ e, ∃ r : ℝ, x e = (r : EReal))
    (hw : ∀ e, ∃ r : ℝ, w e = (r : EReal)) (hb : ∃ r : ℝ, b = (r : EReal)) :
    ∃ r : ℝ, (∑ e, x e * w e) + b = (r : EReal) := by
  choose rx hrx using hx
  choose rw' hrw using hw
  obtain ⟨rb, rfl⟩ := hb
  refine ⟨(∑ e, rx e * rw' e) + rb, ?_⟩
  rw [EReal.coe_add, Cert.Proof.SoftmaxTiles.coe_finset_sum]
  congr 1
  refine Finset.sum_congr rfl fun e _ => ?_
  rw [hrx e, hrw e, EReal.coe_mul]

variable (hx : ∀ i, ∃ r : ℝ, (m ((c : Thread nD τ).loc main_arg0) : S2x2048x768.Idx → EReal) i = (r : EReal))
  (hW : ∀ i, ∃ r : ℝ, (m ((c : Thread nD τ).loc main_arg2) : S2304x768.Idx → EReal) i = (r : EReal))
  (hB : ∀ i, ∃ r : ℝ, (m ((c : Thread nD τ).loc main_arg3) : S2304.Idx → EReal) i = (r : EReal))

include hx hW hB in
theorem head_real (which : Fin 3) (b : Fin 2) (h : Fin 12) (s : Fin 2048) (d : Fin 64) :
    ∃ r : ℝ, Cert.Spec.headAt which (cX m c) (cW m c) (cB m c) b h s d = (r : EReal) :=
  real_affine _ _ _ (fun e => hx _) (fun e => hW _) (hB _)

/-- The most negative finite f32 is a real number. -/
theorem negmax_real : ∃ r : ℝ, Ideal.ofBits .f32 0xFF7FFFFF#32 = (r : EReal) := by
  show ∃ r : ℝ, Ideal.ieee 8 23 (0xFF7FFFFF#32 : BitVec 32) = (r : EReal)
  have h1 : ((0xFF7FFFFF#32 : BitVec 32).extractLsb' 23 8).toNat = 254 := by decide
  unfold Ideal.ieee
  simp only [h1]
  rw [if_neg (by norm_num), if_neg (by norm_num)]
  exact ⟨_, rfl⟩

theorem bias_real (b : Fin 2) (j : Fin 2048) : ∃ r : ℝ, cM m c b j * Ideal.ofBits .f32 0xFF7FFFFF#32 = (r : EReal) := by
  obtain ⟨r, hr⟩ := negmax_real
  exact ⟨_ * r, by rw [hr]; exact (EReal.coe_mul _ _).symm⟩

include hx hW hB in
/-- Region 1 leaves the attention-weighted values of the specification. -/
theorem region1_value : (dat1 (F := Ideal) (V3 m ρ) c).arrAt 4 cfg1.N = fun i =>
    Cert.Spec.ctxAt (Cert.Spec.attnAt (Cert.Spec.scoreAt (Cert.Spec.headAt 0 (cX m c) (cW m c) (cB m c))
      (Cert.Spec.headAt 1 (cX m c) (cW m c) (cB m c)) (cM m c))) (Cert.Spec.headAt 2 (cX m c) (cW m c) (cB m c)) (i 0) (i 1) (i 2) (i 3) := by
  rw [final1 (V3 m ρ) c
    (fun b h i d => by rw [q_eq]; exact head_real m c hx hW hB 0 b h i d)
    (fun b h i d => by rw [k_eq]; exact head_real m c hx hW hB 1 b h i d)
    (fun b h i d => by rw [v_eq]; exact head_real m c hx hW hB 2 b h i d)
    (fun b j => by rw [b_eq]; exact bias_real m c b j)]
  rw [q_eq, k_eq, v_eq, b_eq]
  rfl

include hx hW hB in
/-- The program's result array is the specification of the six launch arrays. -/
theorem result_spec : (Wend m ρ c (Proc.devRef .tc main_v12) : S2x2048x768.Idx → EReal)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [result_arr, final2 (V5 (fun V c => dat1 V c) m ρ) c]
  have ea : (fun b h s d => (V5 (fun V c => dat1 V c) m ρ c (Pipeline.arrRef spec2 0) : S2x12x2048x64.Idx → EReal) (ix4 b h s d))
      = Cert.Spec.ctxAt (Cert.Spec.attnAt (Cert.Spec.scoreAt (Cert.Spec.headAt 0 (cX m c) (cW m c) (cB m c))
          (Cert.Spec.headAt 1 (cX m c) (cW m c) (cB m c)) (cM m c))) (Cert.Spec.headAt 2 (cX m c) (cW m c) (cB m c)) := by
    funext b h s d
    show (V5 (fun V c => dat1 V c) m ρ c main_v8 : S2x12x2048x64.Idx → EReal) (ix4 b h s d) = _
    rw [entry2_a, region1_value m ρ c hx hW hB]
    rfl
  have ew : (fun f e => (V5 (fun V c => dat1 V c) m ρ c (Pipeline.arrRef spec2 1) : S768x768.Idx → EReal) (ix2 e f)) = cWp m c :=
    funext fun f => funext fun e => entry2_w m ρ c e f
  have eb : (fun f => (V5 (fun V c => dat1 V c) m ρ c (Pipeline.arrRef spec2 2) : S1x768.Idx → EReal) (ix2 0 f)) = cBp m c :=
    funext fun f => entry2_b m ρ c f
  rw [ea, ew, eb]
  rfl

omit hx hW hB in
/-- THE RUN WITH THE RESULT NAMED: under the precondition every weakly fair execution of the idealized kernel
    terminates without a fault, with its result array at the specification of the six launch arrays and those
    arrays unchanged. -/
theorem run_value [Cert.Pre_finite_inputs.Facts]
    (hpre : ∀ c : Dev nD, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = (fun _ => 1#1)) :
    θ_run defs (onTc (τ := τ) (main (F := Ideal))) ⟨m, fun _ => 0, ρ⟩ (fun r => ∀ c : Dev nD,
      r.2.mem ((c.tc : Thread nD τ).loc main_v12)
          = Cert.Spec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h2, h3, _, _⟩ := Cert.Proof.FiniteInputs.reals_of_pre _ _ _ _ _ _ (hpre c)
    exact ⟨(h c _ (mem_uc main_v12 (by decide))).trans (result_spec m ρ c h0 h2 h3),
      (h c _ (mem_uc main_arg0 (by decide))).trans (W6_main_arg0 (fun V c => dat1 V c) (fun V c => dat2 V c) m ρ c),
      (h c _ (mem_uc main_arg1 (by decide))).trans (W6_main_arg1 (fun V c => dat1 V c) (fun V c => dat2 V c) m ρ c),
      (h c _ (mem_uc main_arg2 (by decide))).trans (W6_main_arg2 (fun V c => dat1 V c) (fun V c => dat2 V c) m ρ c),
      (h c _ (mem_uc main_arg3 (by decide))).trans (W6_main_arg3 (fun V c => dat1 V c) (fun V c => dat2 V c) m ρ c),
      (h c _ (mem_uc main_arg4 (by decide))).trans (W6_main_arg4 (fun V c => dat1 V c) (fun V c => dat2 V c) m ρ c),
      (h c _ (mem_uc main_arg5 (by decide))).trans (W6_main_arg5 (fun V c => dat1 V c) (fun V c => dat2 V c) m ρ c)⟩)
    (run_named m ρ)

end Cert.KernelIdeal.Res

end
-- ==== Proof.RefQkv.lean ====
/-
  The reference's first stage read by coordinates: the fused projection `x · Wᵀ + b`, and its three parts
  split into heads (reshape to [2, 2048, 3, 12, 64], transposition to [3, 2, 12, 2048, 64], slice, reshape to
  [2, 12, 2048, 64]) are the specification's `qkvAt` and `headAt`.
-/
import proofs.«109941_j17609365914550_2_alg».proof.Proof.Gen.ReferenceIdeal.Read
import proofs.«109941_j17609365914550_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

variable (x0 : S2x2048x768.Idx → EReal) (x2 : S2304x768.Idx → EReal) (x3 : S2304.Idx → EReal)

/-- The input array by coordinates. -/
abbrev cx (x0 : S2x2048x768.Idx → EReal) : Fin 2 → Fin 2048 → Fin 768 → EReal := fun b s e => x0 (ix3 b s e)
/-- The fused weight by coordinates. -/
abbrev cW (x2 : S2304x768.Idx → EReal) : Fin 2304 → Fin 768 → EReal := fun f e => x2 (ix2 f e)
/-- The fused bias by coordinates. -/
abbrev cb (x3 : S2304.Idx → EReal) : Fin 2304 → EReal := fun f => x3 (ix1 f)

set_option maxHeartbeats 400000 in
/-- The fused projection at `(b, s, f)`. -/
theorem qkv_apply (b : Fin 2) (s : Fin 2048) (f : Fin 2304) :
    val_main_v3 (F := Ideal) x0 x2 x3 (ix3 b s f) = qkvAt (cx x0) (cW x2) (cb x3) b s f := by
  rw [val_main_v3_apply, val_main_v0_apply, val_main_v2_apply, val_main_v1_apply]
  have e1 : ∀ k, lidx_main_v0 (ix3 b s f) k = ix3 b s k := fun k => funext fun a => by
    match a with | ⟨0, _⟩ => rfl | ⟨1, _⟩ => rfl | ⟨2, _⟩ => rfl
  have e2 : ∀ k, ridx_main_v0 (ix3 b s f) k = ix2 f k := fun k => funext fun a => by
    match a with | ⟨0, _⟩ => rfl | ⟨1, _⟩ => rfl
  have e3 : idx_main_v1 (idx_main_v2 (ix3 b s f)) = ix1 f := funext fun a => by
    match a with | ⟨0, _⟩ => rfl
  simp only [e1, e2, e3, Ideal.addf_def]
  rfl

set_option maxHeartbeats 400000 in
theorem q_idx_val (i : S2x12x2048x64.Idx) :
    (idx_main_v4 (idx_main_v5 (idx_main_v6 (idx_main_v7 i))) 0).val = (i 0).val
    ∧ (idx_main_v4 (idx_main_v5 (idx_main_v6 (idx_main_v7 i))) 1).val = (i 2).val
    ∧ (idx_main_v4 (idx_main_v5 (idx_main_v6 (idx_main_v7 i))) 2).val = 0 * 768 + (i 1).val * 64 + (i 3).val := by
  have h0 : (i 0).val < 2 := (i 0).isLt
  have h1 : (i 1).val < 12 := (i 1).isLt
  have h2 : (i 2).val < 2048 := (i 2).isLt
  have h3 : (i 3).val < 64 := (i 3).isLt
  have hA1 : (((((i 0).val * 12 + (i 1).val) * 2048 + (i 2).val) * 64 + (i 3).val) / 1572864 % 2) = (i 0).val := by omega
  have hA2 : (((((i 0).val * 12 + (i 1).val) * 2048 + (i 2).val) * 64 + (i 3).val) / 64 % 2048) = (i 2).val := by omega
  have hA3 : (((((i 0).val * 12 + (i 1).val) * 2048 + (i 2).val) * 64 + (i 3).val) / 131072 % 12) = (i 1).val := by omega
  have hA4 : (((((i 0).val * 12 + (i 1).val) * 2048 + (i 2).val) * 64 + (i 3).val) % 64) = (i 3).val := by omega
  have hB : (((((((((i 0).val * 12 + (i 1).val) * 2048 + (i 2).val) * 64 + (i 3).val) / 1572864 % 2) * 2048 + (((((i 0).val * 12 + (i 1).val) * 2048 + (i 2).val) * 64 + (i 3).val) / 64 % 2048)) * 3 + 0) * 12 + (((((i 0).val * 12 + (i 1).val) * 2048 + (i 2).val) * 64 + (i 3).val) / 131072 % 12)) * 64 + (((((i 0).val * 12 + (i 1).val) * 2048 + (i 2).val) * 64 + (i 3).val) % 64)) = (((((i 0).val * 2048 + (i 2).val) * 3 + 0) * 12 + (i 1).val) * 64 + (i 3).val) := by rw [hA1, hA2, hA3, hA4]
  clear hA1 hA2 hA3 hA4
  have hq : (((((i 0).val * 2048 + (i 2).val) * 3 + 0) * 12 + (i 1).val) * 64 + (i 3).val) / 2304 = (i 0).val * 2048 + (i 2).val := by omega
  refine ⟨?_, ?_, ?_⟩
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + 0) * 12 + (((((i 0).val * 12 + (i 1).val) * 2048 + (i 2).val) * 64 + (i 3).val) / 131072 % 12)) * 64 + (((((i 0).val * 12 + (i 1).val) * 2048 + (i 2).val) * 64 + (i 3).val) % 64)) / 4718592 = (i 0).val; rw [hB]; omega
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + 0) * 12 + (((((i 0).val * 12 + (i 1).val) * 2048 + (i 2).val) * 64 + (i 3).val) / 131072 % 12)) * 64 + (((((i 0).val * 12 + (i 1).val) * 2048 + (i 2).val) * 64 + (i 3).val) % 64)) / 2304 % 2048 = (i 2).val; rw [hB, hq]; omega
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + 0) * 12 + (((((i 0).val * 12 + (i 1).val) * 2048 + (i 2).val) * 64 + (i 3).val) / 131072 % 12)) * 64 + (((((i 0).val * 12 + (i 1).val) * 2048 + (i 2).val) * 64 + (i 3).val) % 64)) % 2304 = 0 * 768 + (i 1).val * 64 + (i 3).val; rw [hB]; omega

set_option maxHeartbeats 400000 in
theorem k_idx_val (i : S2x12x2048x64.Idx) :
    (idx_main_v4 (idx_main_v5 (idx_main_v8 (idx_main_v9 i))) 0).val = (i 0).val
    ∧ (idx_main_v4 (idx_main_v5 (idx_main_v8 (idx_main_v9 i))) 1).val = (i 2).val
    ∧ (idx_main_v4 (idx_main_v5 (idx_main_v8 (idx_main_v9 i))) 2).val = 1 * 768 + (i 1).val * 64 + (i 3).val := by
  have h0 : (i 0).val < 2 := (i 0).isLt
  have h1 : (i 1).val < 12 := (i 1).isLt
  have h2 : (i 2).val < 2048 := (i 2).isLt
  have h3 : (i 3).val < 64 := (i 3).isLt
  have hA1 : (((((i 0).val * 12 + (i 1).val) * 2048 + (i 2).val) * 64 + (i 3).val) / 1572864 % 2) = (i 0).val := by omega
  have hA2 : (((((i 0).val * 12 + (i 1).val) * 2048 + (i 2).val) * 64 + (i 3).val) / 64 % 2048) = (i 2).val := by omega
  have hA3 : (((((i 0).val * 12 + (i 1).val) * 2048 + (i 2).val) * 64 + (i 3).val) / 131072 % 12) = (i 1).val := by omega
  have hA4 : (((((i 0).val * 12 + (i 1).val) * 2048 + (i 2).val) * 64 + (i 3).val) % 64) = (i 3).val := by omega
  have hB : (((((((((i 0).val * 12 + (i 1).val) * 2048 + (i 2).val) * 64 + (i 3).val) / 1572864 % 2) * 2048 + (((((i 0).val * 12 + (i 1).val) * 2048 + (i 2).val) * 64 + (i 3).val) / 64 % 2048)) * 3 + (1 + 0)) * 12 + (((((i 0).val * 12 + (i 1).val) * 2048 + (i 2).val) * 64 + (i 3).val) / 131072 % 12)) * 64 + (((((i 0).val * 12 + (i 1).val) * 2048 + (i 2).val) * 64 + (i 3).val) % 64)) = (((((i 0).val * 2048 + (i 2).val) * 3 + (1 + 0)) * 12 + (i 1).val) * 64 + (i 3).val) := by rw [hA1, hA2, hA3, hA4]
  clear hA1 hA2 hA3 hA4
  have hq : (((((i 0).val * 2048 + (i 2).val) * 3 + (1 + 0)) * 12 + (i 1).val) * 64 + (i 3).val) / 2304 = (i 0).val * 2048 + (i 2).val := by omega
  refine ⟨?_, ?_, ?_⟩
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + (1 + 0)) * 12 + (((((i 0).val * 12 + (i 1).val) * 2048 + (i 2).val) * 64 + (i 3).val) / 131072 % 12)) * 64 + (((((i 0).val * 12 + (i 1).val) * 2048 + (i 2).val) * 64 + (i 3).val) % 64)) / 4718592 = (i 0).val; rw [hB]; omega
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + (1 + 0)) * 12 + (((((i 0).val * 12 + (i 1).val) * 2048 + (i 2).val) * 64 + (i 3).val) / 131072 % 12)) * 64 + (((((i 0).val * 12 + (i 1).val) * 2048 + (i 2).val) * 64 + (i 3).val) % 64)) / 2304 % 2048 = (i 2).val; rw [hB, hq]; omega
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + (1 + 0)) * 12 + (((((i 0).val * 12 + (i 1).val) * 2048 + (i 2).val) * 64 + (i 3).val) / 131072 % 12)) * 64 + (((((i 0).val * 12 + (i 1).val) * 2048 + (i 2).val) * 64 + (i 3).val) % 64)) % 2304 = 1 * 768 + (i 1).val * 64 + (i 3).val; rw [hB]; omega

set_option maxHeartbeats 400000 in
theorem v_idx_val (i : S2x12x2048x64.Idx) :
    (idx_main_v4 (idx_main_v5 (idx_main_v10 (idx_main_v11 i))) 0).val = (i 0).val
    ∧ (idx_main_v4 (idx_main_v5 (idx_main_v10 (idx_main_v11 i))) 1).val = (i 2).val
    ∧ (idx_main_v4 (idx_main_v5 (idx_main_v10 (idx_main_v11 i))) 2).val = 2 * 768 + (i 1).val * 64 + (i 3).val := by
  have h0 : (i 0).val < 2 := (i 0).isLt
  have h1 : (i 1).val < 12 := (i 1).isLt
  have h2 : (i 2).val < 2048 := (i 2).isLt
  have h3 : (i 3).val < 64 := (i 3).isLt
  have hA1 : (((((i 0).val * 12 + (i 1).val) * 2048 + (i 2).val) * 64 + (i 3).val) / 1572864 % 2) = (i 0).val := by omega
  have hA2 : (((((i 0).val * 12 + (i 1).val) * 2048 + (i 2).val) * 64 + (i 3).val) / 64 % 2048) = (i 2).val := by omega
  have hA3 : (((((i 0).val * 12 + (i 1).val) * 2048 + (i 2).val) * 64 + (i 3).val) / 131072 % 12) = (i 1).val := by omega
  have hA4 : (((((i 0).val * 12 + (i 1).val) * 2048 + (i 2).val) * 64 + (i 3).val) % 64) = (i 3).val := by omega
  have hB : (((((((((i 0).val * 12 + (i 1).val) * 2048 + (i 2).val) * 64 + (i 3).val) / 1572864 % 2) * 2048 + (((((i 0).val * 12 + (i 1).val) * 2048 + (i 2).val) * 64 + (i 3).val) / 64 % 2048)) * 3 + (2 + 0)) * 12 + (((((i 0).val * 12 + (i 1).val) * 2048 + (i 2).val) * 64 + (i 3).val) / 131072 % 12)) * 64 + (((((i 0).val * 12 + (i 1).val) * 2048 + (i 2).val) * 64 + (i 3).val) % 64)) = (((((i 0).val * 2048 + (i 2).val) * 3 + (2 + 0)) * 12 + (i 1).val) * 64 + (i 3).val) := by rw [hA1, hA2, hA3, hA4]
  clear hA1 hA2 hA3 hA4
  have hq : (((((i 0).val * 2048 + (i 2).val) * 3 + (2 + 0)) * 12 + (i 1).val) * 64 + (i 3).val) / 2304 = (i 0).val * 2048 + (i 2).val := by omega
  refine ⟨?_, ?_, ?_⟩
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + (2 + 0)) * 12 + (((((i 0).val * 12 + (i 1).val) * 2048 + (i 2).val) * 64 + (i 3).val) / 131072 % 12)) * 64 + (((((i 0).val * 12 + (i 1).val) * 2048 + (i 2).val) * 64 + (i 3).val) % 64)) / 4718592 = (i 0).val; rw [hB]; omega
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + (2 + 0)) * 12 + (((((i 0).val * 12 + (i 1).val) * 2048 + (i 2).val) * 64 + (i 3).val) / 131072 % 12)) * 64 + (((((i 0).val * 12 + (i 1).val) * 2048 + (i 2).val) * 64 + (i 3).val) % 64)) / 2304 % 2048 = (i 2).val; rw [hB, hq]; omega
  · show (((((((((i 0).val * 12 + (i 1).val) * 2048 + (i 2).val) * 64 + (i 3).val) / 1572864 % 2) * 2048 + (((((i 0).val * 12 + (i 1).val) * 2048 + (i 2).val) * 64 + (i 3).val) / 64 % 2048)) * 3 + (2 + 0)) * 12 + (((((i 0).val * 12 + (i 1).val) * 2048 + (i 2).val) * 64 + (i 3).val) / 131072 % 12)) * 64 + (((((i 0).val * 12 + (i 1).val) * 2048 + (i 2).val) * 64 + (i 3).val) % 64)) % 2304 = 2 * 768 + (i 1).val * 64 + (i 3).val; rw [hB]; omega

set_option maxHeartbeats 400000 in
/-- Head `h`, position `s`, coordinate `d` of part 0 of the fused projection, through the reshape, the
    transposition, the slice and the second reshape: feature `0 · 768 + h · 64 + d` at `(b, s)`. -/
theorem q_apply (b : Fin 2) (h : Fin 12) (s : Fin 2048) (d : Fin 64) :
    val_main_v7 (F := Ideal) x0 x2 x3 (ix4 b h s d) = headAt 0 (cx x0) (cW x2) (cb x3) b h s d := by
  rw [val_main_v7_apply, val_main_v6_apply, val_main_v5_apply, val_main_v4_apply]
  have e : idx_main_v4 (idx_main_v5 (idx_main_v6 (idx_main_v7 (ix4 b h s d)))) = ix3 b s (featOf 0 h d) := funext fun a => by
    match a with
    | ⟨0, _⟩ => exact Fin.ext (q_idx_val (ix4 b h s d)).1
    | ⟨1, _⟩ => exact Fin.ext (q_idx_val (ix4 b h s d)).2.1
    | ⟨2, _⟩ => exact Fin.ext (q_idx_val (ix4 b h s d)).2.2
  rw [e, qkv_apply]
  rfl

set_option maxHeartbeats 400000 in
/-- Head `h`, position `s`, coordinate `d` of part 1 of the fused projection, through the reshape, the
    transposition, the slice and the second reshape: feature `1 · 768 + h · 64 + d` at `(b, s)`. -/
theorem k_apply (b : Fin 2) (h : Fin 12) (s : Fin 2048) (d : Fin 64) :
    val_main_v9 (F := Ideal) x0 x2 x3 (ix4 b h s d) = headAt 1 (cx x0) (cW x2) (cb x3) b h s d := by
  rw [val_main_v9_apply, val_main_v8_apply, val_main_v5_apply, val_main_v4_apply]
  have e : idx_main_v4 (idx_main_v5 (idx_main_v8 (idx_main_v9 (ix4 b h s d)))) = ix3 b s (featOf 1 h d) := funext fun a => by
    match a with
    | ⟨0, _⟩ => exact Fin.ext (k_idx_val (ix4 b h s d)).1
    | ⟨1, _⟩ => exact Fin.ext (k_idx_val (ix4 b h s d)).2.1
    | ⟨2, _⟩ => exact Fin.ext (k_idx_val (ix4 b h s d)).2.2
  rw [e, qkv_apply]
  rfl

set_option maxHeartbeats 400000 in
/-- Head `h`, position `s`, coordinate `d` of part 2 of the fused projection, through the reshape, the
    transposition, the slice and the second reshape: feature `2 · 768 + h · 64 + d` at `(b, s)`. -/
theorem v_apply (b : Fin 2) (h : Fin 12) (s : Fin 2048) (d : Fin 64) :
    val_main_v11 (F := Ideal) x0 x2 x3 (ix4 b h s d) = headAt 2 (cx x0) (cW x2) (cb x3) b h s d := by
  rw [val_main_v11_apply, val_main_v10_apply, val_main_v5_apply, val_main_v4_apply]
  have e : idx_main_v4 (idx_main_v5 (idx_main_v10 (idx_main_v11 (ix4 b h s d)))) = ix3 b s (featOf 2 h d) := funext fun a => by
    match a with
    | ⟨0, _⟩ => exact Fin.ext (v_idx_val (ix4 b h s d)).1
    | ⟨1, _⟩ => exact Fin.ext (v_idx_val (ix4 b h s d)).2.1
    | ⟨2, _⟩ => exact Fin.ext (v_idx_val (ix4 b h s d)).2.2
  rw [e, qkv_apply]
  rfl

end Cert.ReferenceIdeal.RefValue

end
-- ==== Proof.RefScore.lean ====
/-
  The reference's scores read by coordinates: the batched product of the query and key heads over the 64
  coordinates, scaled, plus the key mask (the integer mask converted to a float) times the masking constant,
  is the specification's `scoreAt`.
-/
import proofs.«109941_j17609365914550_2_alg».proof.Proof.Gen.ReferenceIdeal.Read
import proofs.«109941_j17609365914550_2_alg».proof.Proof.Spec
import proofs.«109941_j17609365914550_2_alg».proof.Proof.RefQkv

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

variable (x0 : S2x2048x768.Idx → EReal) (x1 : S2x2048.Idx → BitVec 32) (x2 : S2304x768.Idx → EReal) (x3 : S2304.Idx → EReal)

/-- The key mask by coordinates, as a float. -/
abbrev cm (x1 : S2x2048.Idx → BitVec 32) : Fin 2 → Fin 2048 → EReal :=
  fun b j => FloatOps.sitofp (F := Ideal) .f32 (x1 (ix2 b j))

/-- The specification's scores of the reference's arguments. -/
abbrev sc (x0 : S2x2048x768.Idx → EReal) (x1 : S2x2048.Idx → BitVec 32) (x2 : S2304x768.Idx → EReal) (x3 : S2304.Idx → EReal) :
    Fin 2 → Fin 12 → Fin 2048 → Fin 2048 → EReal :=
  scoreAt (headAt 0 (cx x0) (cW x2) (cb x3)) (headAt 1 (cx x0) (cW x2) (cb x3)) (cm x1)

set_option maxHeartbeats 400000 in
/-- The score of query row `i` against key row `j` in head `h` of batch `b`. -/
theorem score_apply (b : Fin 2) (h : Fin 12) (i j : Fin 2048) :
    val_main_v20 (F := Ideal) x0 x1 x2 x3 (ix4 b h i j) = sc x0 x1 x2 x3 b h i j := by
  rw [val_main_v20_apply, val_main_v14_apply, val_main_v12_apply, val_main_v13_apply, val_main_cst_apply,
    val_main_v19_apply, val_main_v18_apply, val_main_v16_apply, val_main_v15_apply, val_main_v17_apply,
    val_main_cst_0_apply]
  have e1 : ∀ k, lidx_main_v12 (ix4 b h i j) k = ix4 b h i k := fun k => funext fun a => by
    match a with | ⟨0, _⟩ => rfl | ⟨1, _⟩ => rfl | ⟨2, _⟩ => rfl | ⟨3, _⟩ => rfl
  have e2 : ∀ k, ridx_main_v12 (ix4 b h i j) k = ix4 b h j k := fun k => funext fun a => by
    match a with | ⟨0, _⟩ => rfl | ⟨1, _⟩ => rfl | ⟨2, _⟩ => rfl | ⟨3, _⟩ => rfl
  have e3 : idx_main_v16 (idx_main_v19 (ix4 b h i j)) = ix2 b j := funext fun a => by
    match a with | ⟨0, _⟩ => rfl | ⟨1, _⟩ => rfl
  simp only [e1, e2, e3, q_apply, k_apply, Ideal.addf_def, Ideal.mulf_def, Ideal.ofBits_def]
  rfl

end Cert.ReferenceIdeal.RefValue

end
-- ==== Proof.RefSoftmax.lean ====
/-
  The reference's softmax read by coordinates. The maximum over the keys (a fold of `max` from -∞ over the
  2048 keys of a row, then once more `max` against -∞) is the specification's `rowMaxAt`; the exponential of
  the score less that maximum, divided by the sum of those exponentials over the row (the sum's initial value
  is the zero pattern, which is 0), is `attnAt`.
-/
import proofs.«109941_j17609365914550_2_alg».proof.Proof.Gen.ReferenceIdeal.Read
import proofs.«109941_j17609365914550_2_alg».proof.Proof.Spec
import proofs.«109941_j17609365914550_2_alg».proof.Proof.RefScore

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

variable (x0 : S2x2048x768.Idx → EReal) (x1 : S2x2048.Idx → BitVec 32) (x2 : S2304x768.Idx → EReal) (x3 : S2304.Idx → EReal)

/-- Dropping the last axis of [2, 12, 2048, 2048] leaves [2, 12, 2048]. -/
theorem hred : S2x12x2048x2048.Reduces [3] S2x12x2048 := by decide

set_option maxHeartbeats 400000 in
/-- The host's maximum over the last axis, read at a row `(b, h, i)`: the fold of `max` from the initial value
    over the 2048 entries of the row. -/
theorem rowfold_apply (y : S2x12x2048x2048.Idx → EReal) (b : Fin 2) (h : Fin 12) (i : Fin 2048) :
    Host.reduce (FloatOps.maximumf (F := Ideal) (φ := .f32)) y (val_main_cst_1 (F := Ideal))
        reducesTo_S2x12x2048x2048_S2x12x2048_d3 h_S_ (ix3 b h i)
      = (Finset.univ : Finset (Fin 2048)).fold max (Ideal.ofBits .f32 0xFF800000#32) (fun j => y (ix4 b h i j)) := by
  refine (Host.reduce_eq_fold_single (FloatOps.maximumf (F := Ideal) (φ := .f32)) y _
    reducesTo_S2x12x2048x2048_S2x12x2048_d3 hred h_S_ (ix3 b h i)).trans ?_
  have e : ∀ k : Fin 2048, hred.lift (ix3 b h i) k = ix4 b h i k := fun k => funext fun a => Fin.ext (by
    match a with | ⟨0, _⟩ => rfl | ⟨1, _⟩ => rfl | ⟨2, _⟩ => rfl | ⟨3, _⟩ => rfl)
  show (Finset.univ : Finset (Fin 2048)).fold max (Ideal.ofBits .f32 0xFF800000#32)
    (fun k => y (hred.lift (ix3 b h i) k)) = _
  exact congrArg (fun f => (Finset.univ : Finset (Fin 2048)).fold max (Ideal.ofBits .f32 0xFF800000#32) f)
    (funext fun k => congrArg y (e k))

set_option maxHeartbeats 400000 in
/-- The row maximum at `(b, h, i)`. -/
theorem rowmax_apply (b : Fin 2) (h : Fin 12) (i : Fin 2048) :
    val_main_v23 (F := Ideal) x0 x1 x2 x3 (ix3 b h i) = rowMaxAt (sc x0 x1 x2 x3) b h i := by
  rw [val_main_v23_apply, val_main_v22_apply, val_main_cst_2_apply]
  unfold val_main_v21
  rw [rowfold_apply]
  simp only [score_apply, Ideal.maximumf_def, Ideal.ofBits_def]
  rfl

set_option maxHeartbeats 400000 in
/-- The exponential of the score less the row maximum. -/
theorem exp_apply (b : Fin 2) (h : Fin 12) (i j : Fin 2048) :
    val_main_v27 (F := Ideal) x0 x1 x2 x3 (ix4 b h i j)
      = Ideal.exp (sc x0 x1 x2 x3 b h i j - rowMaxAt (sc x0 x1 x2 x3) b h i) := by
  rw [val_main_v27_apply, val_main_v26_apply, val_main_v25_apply, val_main_v24_apply]
  have e : idx_main_v24 (idx_main_v25 (ix4 b h i j)) = ix3 b h i := funext fun a => by
    match a with | ⟨0, _⟩ => rfl | ⟨1, _⟩ => rfl | ⟨2, _⟩ => rfl
  rw [e, rowmax_apply, score_apply]
  rfl

set_option maxHeartbeats 400000 in
/-- The attention weight of key row `j` for query row `i`. -/
theorem attn_apply (b : Fin 2) (h : Fin 12) (i j : Fin 2048) :
    val_main_v31 (F := Ideal) x0 x1 x2 x3 (ix4 b h i j) = attnAt (sc x0 x1 x2 x3) b h i j := by
  rw [val_main_v31_apply, val_main_v30_apply, val_main_v29_apply, val_main_v28_apply, val_main_cst_3_apply]
  have e : ∀ k, idx_main_v28 (idx_main_v29 (idx_main_v30 (ix4 b h i j))) k = ix4 b h i k := fun k => funext fun a => by
    match a with | ⟨0, _⟩ => rfl | ⟨1, _⟩ => rfl | ⟨2, _⟩ => rfl | ⟨3, _⟩ => rfl
  simp only [e, exp_apply, Ideal.hostDivf_def, Ideal.ofBits_def, Ideal.ofBits_zero_f32, zero_add]
  rfl

end Cert.ReferenceIdeal.RefValue

end
-- ==== Proof.RefCtx.lean ====
/-
  The reference's weighted sum of the values and the merge of the heads, read by coordinates: the batched product
  of the attention weights and the value heads over the 2048 keys is the specification's `ctxAt`; transposed to
  [2, 2048, 12, 64] and reshaped to [2, 2048, 768], model feature `e` at `(b, s)` is coordinate `e % 64` of head `e / 64`.
-/
import proofs.«109941_j17609365914550_2_alg».proof.Proof.Gen.ReferenceIdeal.Read
import proofs.«109941_j17609365914550_2_alg».proof.Proof.Spec
import proofs.«109941_j17609365914550_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

variable (x0 : S2x2048x768.Idx → EReal) (x1 : S2x2048.Idx → BitVec 32) (x2 : S2304x768.Idx → EReal) (x3 : S2304.Idx → EReal)

/-- The specification's weighted values of the reference's arguments. -/
abbrev ctx (x0 : S2x2048x768.Idx → EReal) (x1 : S2x2048.Idx → BitVec 32) (x2 : S2304x768.Idx → EReal) (x3 : S2304.Idx → EReal) :
    Fin 2 → Fin 12 → Fin 2048 → Fin 64 → EReal :=
  ctxAt (attnAt (sc x0 x1 x2 x3)) (headAt 2 (cx x0) (cW x2) (cb x3))

set_option maxHeartbeats 400000 in
/-- The weighted sum of the values at `(b, h, i, d)`. -/
theorem ctx_apply (b : Fin 2) (h : Fin 12) (i : Fin 2048) (d : Fin 64) :
    val_main_v32 (F := Ideal) x0 x1 x2 x3 (ix4 b h i d) = ctx x0 x1 x2 x3 b h i d := by
  rw [val_main_v32_apply]
  have e1 : ∀ k, lidx_main_v32 (ix4 b h i d) k = ix4 b h i k := fun k => funext fun a => by
    match a with | ⟨0, _⟩ => rfl | ⟨1, _⟩ => rfl | ⟨2, _⟩ => rfl | ⟨3, _⟩ => rfl
  have e2 : ∀ k, ridx_main_v32 (ix4 b h i d) k = ix4 b h k d := fun k => funext fun a => by
    match a with | ⟨0, _⟩ => rfl | ⟨1, _⟩ => rfl | ⟨2, _⟩ => rfl | ⟨3, _⟩ => rfl
  simp only [e1, e2, attn_apply, v_apply]
  rfl

set_option maxHeartbeats 400000 in
/-- The merged heads at `(b, s, e)`. -/
theorem merged_apply (b : Fin 2) (s : Fin 2048) (e : Fin 768) :
    val_main_v34 (F := Ideal) x0 x1 x2 x3 (ix3 b s e) = ctx x0 x1 x2 x3 b (headOf e) s (dimOf e) := by
  rw [val_main_v34_apply, val_main_v33_apply]
  have hb : b.val < 2 := b.isLt
  have hs : s.val < 2048 := s.isLt
  have he : e.val < 768 := e.isLt
  have e1 : idx_main_v33 (idx_main_v34 (ix3 b s e)) = ix4 b (headOf e) s (dimOf e) := funext fun a => by
    match a with
    | ⟨0, _⟩ => exact Fin.ext (by show ((b.val * 2048 + s.val) * 768 + e.val) / 1572864 = b.val; omega)
    | ⟨1, _⟩ => exact Fin.ext (by show ((b.val * 2048 + s.val) * 768 + e.val) / 64 % 12 = e.val / 64; omega)
    | ⟨2, _⟩ => exact Fin.ext (by show ((b.val * 2048 + s.val) * 768 + e.val) / 768 % 2048 = s.val; omega)
    | ⟨3, _⟩ => exact Fin.ext (by show ((b.val * 2048 + s.val) * 768 + e.val) % 64 = e.val % 64; omega)
  rw [e1, ctx_apply]

end Cert.ReferenceIdeal.RefValue

end
-- ==== Proof.RefIsSpec.lean ====
/-
  The reference computes the specification: the output projection of the merged heads plus its bias is the
  specification's `outAt`, so the reference's result array is `Cert.Spec.G` of its six argument arrays, and every
  execution of the reference ends with that array as its result and its arguments unchanged.
-/
import proofs.«109941_j17609365914550_2_alg».proof.Proof.Gen.ReferenceIdeal.Read
import proofs.«109941_j17609365914550_2_alg».proof.Proof.Spec
import proofs.«109941_j17609365914550_2_alg».proof.Proof.RefCtx

noncomputable section

open scoped BigOperators

namespace Cert.ReferenceIdeal.RefValue

open Idealize.ShloMosaic.TcCoe Idealize.SL.Sem Cert.ReferenceIdeal Cert.ReferenceIdeal.Gen Cert.ReferenceIdeal.Read Idealize.ShloMosaic Idealize.ShloMosaic.ValueIdx Cert.Spec

set_option maxHeartbeats 400000 in
/-- The output projection at `(b, s, f)`. -/
theorem out_apply (x0 : S2x2048x768.Idx → EReal) (x1 : S2x2048.Idx → BitVec 32) (x2 : S2304x768.Idx → EReal)
    (x3 : S2304.Idx → EReal) (x4 : S768x768.Idx → EReal) (x5 : S768.Idx → EReal) (b : Fin 2) (s : Fin 2048) (f : Fin 768) :
    val_main_v38 (F := Ideal) x0 x1 x2 x3 x4 x5 (ix3 b s f)
      = outAt (ctx x0 x1 x2 x3) (fun f e => x4 (ix2 f e)) (fun f => x5 (ix1 f)) b s f := by
  rw [val_main_v38_apply, val_main_v35_apply, val_main_v37_apply, val_main_v36_apply]
  have e1 : ∀ k, lidx_main_v35 (ix3 b s f) k = ix3 b s k := fun k => funext fun a => by
    match a with | ⟨0, _⟩ => rfl | ⟨1, _⟩ => rfl | ⟨2, _⟩ => rfl
  have e2 : ∀ k, ridx_main_v35 (ix3 b s f) k = ix2 f k := fun k => funext fun a => by
    match a with | ⟨0, _⟩ => rfl | ⟨1, _⟩ => rfl
  have e3 : idx_main_v36 (idx_main_v37 (ix3 b s f)) = ix1 f := funext fun a => by
    match a with | ⟨0, _⟩ => rfl
  simp only [e1, e2, e3, merged_apply, Ideal.addf_def]
  rfl

set_option maxHeartbeats 400000 in
/-- The reference's result array, as a function of its six argument arrays, is the specification. -/
theorem result_eq (x0 : S2x2048x768.Idx → EReal) (x1 : S2x2048.Idx → BitVec 32) (x2 : S2304x768.Idx → EReal)
    (x3 : S2304.Idx → EReal) (x4 : S768x768.Idx → EReal) (x5 : S768.Idx → EReal) :
    val_main_v38 (F := Ideal) x0 x1 x2 x3 x4 x5 = Cert.Spec.G x0 x1 x2 x3 x4 x5 := by
  funext i
  obtain ⟨b, s, f, rfl⟩ : ∃ (b : Fin 2) (s : Fin 2048) (f : Fin 768), i = ix3 b s f := ⟨i 0, i 1, i 2, eq_ix3 i⟩
  rw [out_apply]
  rfl

/-- Every weakly fair execution of the reference terminates with its result array at the specification of
    the argument arrays, and the argument arrays unchanged. -/
theorem run_spec (m' : (ℓ : Loc nD τ sig) → Buf (Elt Ideal) ℓ) (g' : Dev nD → PrngReg) :
    θ_run (Cert.ReferenceIdeal.defs (F := Ideal)) (onTc (τ := τ) (main (F := Ideal))) ⟨m', fun _ => 0, g'⟩ (fun r => ∀ c : Dev nD,
      r.2.mem ((c.tc : Thread nD τ).loc main_v38)
          = Cert.Spec.G (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run (Cert.ReferenceIdeal.defs (F := Ideal)) _ _).mono
    (fun _ h c => ⟨(h c).1.trans ((val_main_v38_eq (F := Ideal) m' c).trans (result_eq _ _ _ _ _ _)), (h c).2⟩)
    (Cert.ReferenceIdeal.Value.run (F := Ideal) m' g')

end Cert.ReferenceIdeal.RefValue

end
-- ==== Proof.lean ====
/-
  The certificate of the three-kernel attention program against its reference.

  Frames: the word-level and the idealized kernel run to the end without a fault and leave their six argument
  arrays as launched (three host stretches alternating with three kernel regions, each region's proof data
  meeting what the run of the whole program asks); the reference's frame is its run with the result dropped.
  The idealization rewrote no operation, so `preserves` has no conjunct.
  Values, at the extended reals: the idealized kernel's result array is the specification `Cert.Spec.G` of the
  six launch arrays (multi-head softmax attention with a key mask, by coordinates), and so is the reference's;
  from memories that agree on the arguments the two results are therefore equal, element by element. The one
  law that needs finiteness is the equality of the tile-by-tile running softmax with the softmax over all keys;
  the regrouping of the output projection's sum by heads holds for any extended reals.
-/
import proofs.«109941_j17609365914550_2_alg».proof.Defs
import proofs.«109941_j17609365914550_2_alg».proof.Proof.Gen.Kernel
import proofs.«109941_j17609365914550_2_alg».proof.Proof.Gen.Kernel.Skeleton
import proofs.«109941_j17609365914550_2_alg».proof.Proof.Gen.Kernel.Launch
import proofs.«109941_j17609365914550_2_alg».proof.Proof.Gen.Kernel.Regions
import proofs.«109941_j17609365914550_2_alg».proof.Proof.Gen.Kernel.Points
import proofs.«109941_j17609365914550_2_alg».proof.Proof.Gen.KernelIdeal
import proofs.«109941_j17609365914550_2_alg».proof.Proof.Gen.KernelIdeal.Skeleton
import proofs.«109941_j17609365914550_2_alg».proof.Proof.Gen.KernelIdeal.Launch
import proofs.«109941_j17609365914550_2_alg».proof.Proof.Gen.KernelIdeal.Regions
import proofs.«109941_j17609365914550_2_alg».proof.Proof.Gen.KernelIdeal.Points
import proofs.«109941_j17609365914550_2_alg».proof.Proof.Gen.ReferenceIdeal
import proofs.«109941_j17609365914550_2_alg».proof.Proof.Gen.Pre_finite_inputs
import proofs.«109941_j17609365914550_2_alg».proof.Proof.Gen.ReferenceIdeal.Run
import proofs.«109941_j17609365914550_2_alg».proof.Proof.Gen.ReferenceIdeal.Read
import proofs.«109941_j17609365914550_2_alg».proof.Proof.Kernel.Frame
import proofs.«109941_j17609365914550_2_alg».proof.Proof.KernelIdeal.Frame
import proofs.«109941_j17609365914550_2_alg».proof.Proof.KernelIdeal.Result
import proofs.«109941_j17609365914550_2_alg».proof.Proof.RefIsSpec
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2) (Cert.ReferenceIdeal.RefValue.run_spec m ρ)

theorem preserves : Cert.preserves_Kernel_KernelIdeal := trivial

/-- Both runs end with the result array at the specification of their argument arrays, and the argument
    arrays agree. -/
theorem algebraic : Cert.algebraic_KernelIdeal_ReferenceIdeal := by
  intro m ρ m' ρ' hpre hagree
  refine ⟨_, Cert.KernelIdeal.Res.run_value m ρ hpre, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
